-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S128x32 : Shape := ⟨2, ![128, 32]⟩
abbrev S32 : Shape := ⟨1, ![32]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S32 .f32) (main_arg9 : FVec F S128 .f32) (main_arg10 : FVec F S256x2 .f32) (main_arg11 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x2 .f32 := Host.absf main_arg10
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128 .f32) (main_arg6 : FVec F S128x64 .f32) (main_arg7 : FVec F S128x32 .f32) (main_arg8 : FVec F S32 .f32) (main_arg9 : FVec F S128 .f32) (main_arg10 : FVec F S256x2 .f32) (main_arg11 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x64 .f32) (main_arg3 : FVec F S128x32 .f32) (main_arg4 : FVec F S32 .f32) (main_arg5 : FVec F S128 .f32) (main_arg6 : FVec F S128x64 .f32) (main_arg7 : FVec F S128x32 .f32) (main_arg8 : FVec F S32 .f32) (main_arg9 : FVec F S128 .f32) (main_arg10 : FVec F S256x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S128x32 : Shape := ⟨2, ![128, 32]⟩
abbrev S32 : Shape := ⟨1, ![32]⟩
abbrev S128 : Shape := ⟨1, ![128]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x32 : Shape := ⟨2, ![1, 32]⟩
abbrev S50000x64 : Shape := ⟨2, ![50000, 64]⟩
abbrev S50000x32 : Shape := ⟨2, ![50000, 32]⟩
abbrev S5000x128 : Shape := ⟨2, ![5000, 128]⟩
abbrev S5000x64 : Shape := ⟨2, ![5000, 64]⟩
abbrev S5000x32 : Shape := ⟨2, ![5000, 32]⟩
abbrev S850000x64 : Shape := ⟨2, ![850000, 64]⟩
abbrev S1x128 : Shape := ⟨2, ![1, 128]⟩
abbrev S400x32 : Shape := ⟨2, ![400, 32]⟩
abbrev S400x64 : Shape := ⟨2, ![400, 64]⟩
abbrev S400x128 : Shape := ⟨2, ![400, 128]⟩
abbrev S400x16 : Shape := ⟨2, ![400, 16]⟩
abbrev S400x1 : Shape := ⟨2, ![400, 1]⟩
abbrev S800000x1 : Shape := ⟨2, ![800000, 1]⟩
abbrev S800000x128 : Shape := ⟨2, ![800000, 128]⟩
abbrev S1x2 : Shape := ⟨2, ![1, 2]⟩
abbrev S800000x2 : Shape := ⟨2, ![800000, 2]⟩
abbrev S8000x128 : Shape := ⟨2, ![8000, 128]⟩
abbrev S8000x2 : Shape := ⟨2, ![8000, 2]⟩
abbrev S8000x256 : Shape := ⟨2, ![8000, 256]⟩

abbrev nBuf : Space → Nat
  | .hbm => 127
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S128x32, .f32⟩
  | .hbm, ⟨4, _⟩ => ⟨S32, .f32⟩
  | .hbm, ⟨5, _⟩ => ⟨S128, .f32⟩
  | .hbm, ⟨6, _⟩ => ⟨S128x64, .f32⟩
  | .hbm, ⟨7, _⟩ => ⟨S128x32, .f32⟩
  | .hbm, ⟨8, _⟩ => ⟨S32, .f32⟩
  | .hbm, ⟨9, _⟩ => ⟨S128, .f32⟩
  | .hbm, ⟨10, _⟩ => ⟨S256x2, .f32⟩
  | .hbm, ⟨11, _⟩ => ⟨S2, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .i1⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000, .f32⟩
  | .hbm, ⟨60, _⟩ => ⟨S850000, .f32⟩
  | .hbm, ⟨61, _⟩ => ⟨S1x32, .f32⟩
  | .hbm, ⟨62, _⟩ => ⟨S50000x64, .f32⟩
  | .hbm, ⟨63, _⟩ => ⟨S50000x32, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .f32⟩
  | .hbm, ⟨73, _⟩ => ⟨S850000x1, .f32⟩
  | .hbm, ⟨74, _⟩ => ⟨S850000x64, .f32⟩
  | .hbm, ⟨75, _⟩ => ⟨S850000x64, .f32⟩
  | .hbm, ⟨76, _⟩ => ⟨S_, .f32⟩
  | .hbm, ⟨77, _⟩ => ⟨S50000x64, .f32⟩
  | .hbm, ⟨78, _⟩ => ⟨S850000x1, .i32⟩
  | .hbm, ⟨79, _⟩ => ⟨S50000x64, .f32⟩
  | .hbm, ⟨80, _⟩ => ⟨S1x128, .f32⟩
  | .hbm, ⟨81, _⟩ => ⟨S50000x128, .f32⟩
  | .hbm, ⟨82, _⟩ => ⟨S1x32, .f32⟩
  | .hbm, ⟨83, _⟩ => ⟨S50000x64, .f32⟩
  | .hbm, ⟨84, _⟩ => ⟨S50000x32, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x64, .f32⟩
  | .hbm, ⟨94, _⟩ => ⟨S850000x1, .f32⟩
  | .hbm, ⟨95, _⟩ => ⟨S850000x64, .f32⟩
  | .hbm, ⟨96, _⟩ => ⟨S850000x64, .f32⟩
  | .hbm, ⟨97, _⟩ => ⟨S_, .f32⟩
  | .hbm, ⟨98, _⟩ => ⟨S50000x64, .f32⟩
  | .hbm, ⟨99, _⟩ => ⟨S850000x1, .i32⟩
  | .hbm, ⟨100, _⟩ => ⟨S50000x64, .f32⟩
  | .hbm, ⟨101, _⟩ => ⟨S1x128, .f32⟩
  | .hbm, ⟨102, _⟩ => ⟨S50000x128, .f32⟩
  | .hbm, ⟨103, _⟩ => ⟨S1x800000, .i32⟩
  | .hbm, ⟨104, _⟩ => ⟨S800000, .i32⟩
  | .hbm, ⟨105, _⟩ => ⟨S_, .i32⟩
  | .hbm, ⟨106, _⟩ => ⟨S800000, .i32⟩
  | .hbm, ⟨107, _⟩ => ⟨S800000, .i1⟩
  | .hbm, ⟨108, _⟩ => ⟨S_, .i32⟩
  | .hbm, ⟨109, _⟩ => ⟨S800000, .i32⟩
  | .hbm, ⟨110, _⟩ => ⟨S800000, .i32⟩
  | .hbm, ⟨111, _⟩ => ⟨S800000, .i32⟩
  | .hbm, ⟨112, _⟩ => ⟨S800000x1, .i32⟩
  | .hbm, ⟨113, _⟩ => ⟨S800000x128, .f32⟩
  | .hbm, ⟨114, _⟩ => ⟨S1x800000, .i32⟩
  | .hbm, ⟨115, _⟩ => ⟨S800000, .i32⟩
  | .hbm, ⟨116, _⟩ => ⟨S_, .i32⟩
  | .hbm, ⟨117, _⟩ => ⟨S800000, .i32⟩
  | .hbm, ⟨118, _⟩ => ⟨S800000, .i1⟩
  | .hbm, ⟨119, _⟩ => ⟨S_, .i32⟩
  | .hbm, ⟨120, _⟩ => ⟨S800000, .i32⟩
  | .hbm, ⟨121, _⟩ => ⟨S800000, .i32⟩
  | .hbm, ⟨122, _⟩ => ⟨S800000, .i32⟩
  | .hbm, ⟨123, _⟩ => ⟨S800000x1, .i32⟩
  | .hbm, ⟨124, _⟩ => ⟨S800000x128, .f32⟩
  | .hbm, ⟨125, _⟩ => ⟨S1x2, .f32⟩
  | .hbm, ⟨126, _⟩ => ⟨S800000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x32, .f32⟩
  | .local _ .vmem, ⟨4, _⟩ => ⟨S1x32, .f32⟩
  | .local _ .vmem, ⟨5, _⟩ => ⟨S5000x64, .f32⟩
  | .local _ .vmem, ⟨6, _⟩ => ⟨S5000x64, .f32⟩
  | .local _ .vmem, ⟨7, _⟩ => ⟨S5000x32, .f32⟩
  | .local _ .vmem, ⟨8, _⟩ => ⟨S5000x32, .f32⟩
  | .local _ .vmem, ⟨9, _⟩ => ⟨S400x32, .f32⟩
  | .local _ .vmem, ⟨10, _⟩ => ⟨S400x32, .f32⟩
  | .local _ .vmem, ⟨11, _⟩ => ⟨S400x64, .f32⟩
  | .local _ .vmem, ⟨12, _⟩ => ⟨S400x64, .f32⟩
  | .local _ .vmem, ⟨13, _⟩ => ⟨S1x128, .f32⟩
  | .local _ .vmem, ⟨14, _⟩ => ⟨S400x128, .f32⟩
  | .local _ .vmem, ⟨15, _⟩ => ⟨S400x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S128x32, .f32⟩
  | .local _ .vmem, ⟨20, _⟩ => ⟨S1x32, .f32⟩
  | .local _ .vmem, ⟨21, _⟩ => ⟨S5000x64, .f32⟩
  | .local _ .vmem, ⟨22, _⟩ => ⟨S5000x64, .f32⟩
  | .local _ .vmem, ⟨23, _⟩ => ⟨S5000x32, .f32⟩
  | .local _ .vmem, ⟨24, _⟩ => ⟨S5000x32, .f32⟩
  | .local _ .vmem, ⟨25, _⟩ => ⟨S400x32, .f32⟩
  | .local _ .vmem, ⟨26, _⟩ => ⟨S400x32, .f32⟩
  | .local _ .vmem, ⟨27, _⟩ => ⟨S400x64, .f32⟩
  | .local _ .vmem, ⟨28, _⟩ => ⟨S400x64, .f32⟩
  | .local _ .vmem, ⟨29, _⟩ => ⟨S1x128, .f32⟩
  | .local _ .vmem, ⟨30, _⟩ => ⟨S400x128, .f32⟩
  | .local _ .vmem, ⟨31, _⟩ => ⟨S400x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S256x2, .f32⟩
  | .local _ .vmem, ⟨37, _⟩ => ⟨S1x2, .f32⟩
  | .local _ .vmem, ⟨38, _⟩ => ⟨S8000x2, .f32⟩
  | .local _ .vmem, ⟨39, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_c_8 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_c_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_c_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128x32_S128x32_0_0 : ∀ a, (![0, 0] : Fin 2 → Nat) a + S128x32.size a ≤ S128x32.size a
  h_S128x32 : 0 < S128x32.numel
  inb_S5000x64_S5000x64_0_0 : ∀ a, (![0, 0] : Fin 2 → Nat) a + S5000x64.size a ≤ S5000x64.size a
  h_S5000x64 : 0 < S5000x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S128_S1x128 : S128.ShapeCasts S1x128
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S400x32_o0_0_S400x1 : S400x32.Slices ![0, 0] S400x1
  slices_S400x64_o0_0_S400x16 : S400x64.Slices ![0, 0] S400x16
  broadcasts_S400x1_S400x16 : S400x1.Broadcasts S400x16
  slices_S400x32_o0_1_S400x1 : S400x32.Slices ![0, 1] S400x1
  slices_S400x64_o0_16_S400x16 : S400x64.Slices ![0, 16] S400x16
  slices_S400x32_o0_2_S400x1 : S400x32.Slices ![0, 2] S400x1
  slices_S400x64_o0_32_S400x16 : S400x64.Slices ![0, 32] S400x16
  slices_S400x32_o0_3_S400x1 : S400x32.Slices ![0, 3] S400x1
  slices_S400x64_o0_48_S400x16 : S400x64.Slices ![0, 48] S400x16
  slices_S400x32_o0_4_S400x1 : S400x32.Slices ![0, 4] S400x1
  slices_S400x32_o0_5_S400x1 : S400x32.Slices ![0, 5] S400x1
  slices_S400x32_o0_6_S400x1 : S400x32.Slices ![0, 6] S400x1
  slices_S400x32_o0_7_S400x1 : S400x32.Slices ![0, 7] S400x1
  slices_S400x32_o0_8_S400x1 : S400x32.Slices ![0, 8] S400x1
  slices_S400x32_o0_9_S400x1 : S400x32.Slices ![0, 9] S400x1
  slices_S400x32_o0_10_S400x1 : S400x32.Slices ![0, 10] S400x1
  slices_S400x32_o0_11_S400x1 : S400x32.Slices ![0, 11] S400x1
  slices_S400x32_o0_12_S400x1 : S400x32.Slices ![0, 12] S400x1
  slices_S400x32_o0_13_S400x1 : S400x32.Slices ![0, 13] S400x1
  slices_S400x32_o0_14_S400x1 : S400x32.Slices ![0, 14] S400x1
  slices_S400x32_o0_15_S400x1 : S400x32.Slices ![0, 15] S400x1
  slices_S400x32_o0_16_S400x1 : S400x32.Slices ![0, 16] S400x1
  slices_S400x32_o0_17_S400x1 : S400x32.Slices ![0, 17] S400x1
  slices_S400x32_o0_18_S400x1 : S400x32.Slices ![0, 18] S400x1
  slices_S400x32_o0_19_S400x1 : S400x32.Slices ![0, 19] S400x1
  slices_S400x32_o0_20_S400x1 : S400x32.Slices ![0, 20] S400x1
  slices_S400x32_o0_21_S400x1 : S400x32.Slices ![0, 21] S400x1
  slices_S400x32_o0_22_S400x1 : S400x32.Slices ![0, 22] S400x1
  slices_S400x32_o0_23_S400x1 : S400x32.Slices ![0, 23] S400x1
  slices_S400x32_o0_24_S400x1 : S400x32.Slices ![0, 24] S400x1
  slices_S400x32_o0_25_S400x1 : S400x32.Slices ![0, 25] S400x1
  slices_S400x32_o0_26_S400x1 : S400x32.Slices ![0, 26] S400x1
  slices_S400x32_o0_27_S400x1 : S400x32.Slices ![0, 27] S400x1
  slices_S400x32_o0_28_S400x1 : S400x32.Slices ![0, 28] S400x1
  slices_S400x32_o0_29_S400x1 : S400x32.Slices ![0, 29] S400x1
  slices_S400x32_o0_30_S400x1 : S400x32.Slices ![0, 30] S400x1
  slices_S400x32_o0_31_S400x1 : S400x32.Slices ![0, 31] S400x1
  concatenates_S400x16_S400x16_S400x16_S400x16_S400x16_S400x16_S400x16_S400x16_S400x128_d1 : Shape.Concatenates [S400x16, S400x16, S400x16, S400x16, S400x16, S400x16, S400x16, S400x16] S400x128 1
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S5000x128_S5000x128 : S5000x128.ShapeCasts S5000x128
  bcast_S_S800000 : S_.BroadcastsInDim S800000 (![] : Fin 0 → Fin S800000.rank)
  bcast_S800000_S800000x1_0 : S800000.BroadcastsInDim S800000x1 (![0] : Fin 1 → Fin S800000x1.rank)
  shapeCasts_S2_S1x2 : S2.ShapeCasts S1x2
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  concatenates_S8000x128_S8000x128_S8000x256_d1 : Shape.Concatenates [S8000x128, S8000x128] S8000x256 1
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  dot_S5000x128_S128x32_S5000x32_1_0_0_1_n_n_wf : DotDims.WF S5000x128 S128x32 S5000x32 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x128_S800000x1_S800000x128_1_0_n_n_0_1_1128_wf : GatherDims.WF S50000x128 S800000x1 S800000x128 [1] [0] [] [0] [] 1 ![1, 128]
  dot_S8000x256_S256x2_S8000x2_1_0_0_1_n_n_wf : DotDims.WF S8000x256 S256x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S50000x32.size a
  hwx0_5 : ∀ i : grid0.Coords, EltTy.bits .f32 = 32 ∨ (Rect.block (s := S50000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x32.size a ≤ S50000x32.size a
  hwx1_0 : ∀ i : grid1.Coords, EltTy.bits .f32 = 32 ∨ (Rect.block (s := S50000x32) S400x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x64.size a ≤ S50000x64.size a
  hwx1_1 : ∀ i : grid1.Coords, EltTy.bits .f32 = 32 ∨ (Rect.block (s := S50000x64) S400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S50000x128.size a
  hwx1_3 : ∀ i : grid1.Coords, EltTy.bits .f32 = 32 ∨ (Rect.block (s := S50000x128) S400x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S50000x32.size a
  hwx2_5 : ∀ i : grid2.Coords, EltTy.bits .f32 = 32 ∨ (Rect.block (s := S50000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x32.size a ≤ S50000x32.size a
  hwx3_0 : ∀ i : grid3.Coords, EltTy.bits .f32 = 32 ∨ (Rect.block (s := S50000x32) S400x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x64.size a ≤ S50000x64.size a
  hwx3_1 : ∀ i : grid3.Coords, EltTy.bits .f32 = 32 ∨ (Rect.block (s := S50000x64) S400x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S50000x128.size a
  hwx3_3 : ∀ i : grid3.Coords, EltTy.bits .f32 = 32 ∨ (Rect.block (s := S50000x128) S400x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .f32 = 32 ∨ (Rect.block (s := S800000x128) S8000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x2.size a ≤ S256x2.size a
  hwx4_2 : ∀ i : grid4.Coords, EltTy.bits .f32 = 32 ∨ (Rect.block (s := S256x2) S256x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x2.size a ≤ S800000x2.size a
  hwx4_4 : ∀ i : grid4.Coords, EltTy.bits .f32 = 32 ∨ (Rect.block (s := S800000x2) S8000x2.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35_1) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35_1) S400x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_1) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52_1) S400x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S400x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S256x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S8000x2.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S128x32 : Shape := ⟨2, ![128, 32]⟩
abbrev S32 : Shape := ⟨1, ![32]⟩
abbrev S128 : Shape := ⟨1, ![128]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S50000x32 : Shape := ⟨2, ![50000, 32]⟩
abbrev S1x32 : Shape := ⟨2, ![1, 32]⟩
abbrev S50000x8x4 : Shape := ⟨3, ![50000, 8, 4]⟩
abbrev S50000x4x16 : Shape := ⟨3, ![50000, 4, 16]⟩
abbrev S50000x8x16 : Shape := ⟨3, ![50000, 8, 16]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S800000x2 : Shape := ⟨2, ![800000, 2]⟩
abbrev S1x2 : Shape := ⟨2, ![1, 2]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S128x32, .f32⟩
  | 4 => ⟨S32, .f32⟩
  | 5 => ⟨S128, .f32⟩
  | 6 => ⟨S128x64, .f32⟩
  | 7 => ⟨S128x32, .f32⟩
  | 8 => ⟨S32, .f32⟩
  | 9 => ⟨S128, .f32⟩
  | 10 => ⟨S256x2, .f32⟩
  | 11 => ⟨S2, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S50000x64, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x64, .f32⟩
  | 71 => ⟨S850000x1, .f32⟩
  | 72 => ⟨S850000x64, .f32⟩
  | 73 => ⟨S850000x64, .f32⟩
  | 74 => ⟨S_, .f32⟩
  | 75 => ⟨S50000x64, .f32⟩
  | 76 => ⟨S850000x1, .i32⟩
  | 77 => ⟨S50000x64, .f32⟩
  | 78 => ⟨S50000x32, .f32⟩
  | 79 => ⟨S1x32, .f32⟩
  | 80 => ⟨S50000x32, .f32⟩
  | 81 => ⟨S50000x32, .f32⟩
  | 82 => ⟨S50000x8x4, .f32⟩
  | 83 => ⟨S50000x4x16, .f32⟩
  | 84 => ⟨S50000x8x16, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x64, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x64, .f32⟩
  | 102 => ⟨S850000x1, .f32⟩
  | 103 => ⟨S850000x64, .f32⟩
  | 104 => ⟨S850000x64, .f32⟩
  | 105 => ⟨S_, .f32⟩
  | 106 => ⟨S50000x64, .f32⟩
  | 107 => ⟨S850000x1, .i32⟩
  | 108 => ⟨S50000x64, .f32⟩
  | 109 => ⟨S50000x32, .f32⟩
  | 110 => ⟨S1x32, .f32⟩
  | 111 => ⟨S50000x32, .f32⟩
  | 112 => ⟨S50000x32, .f32⟩
  | 113 => ⟨S50000x8x4, .f32⟩
  | 114 => ⟨S50000x4x16, .f32⟩
  | 115 => ⟨S50000x8x16, .f32⟩
  | 116 => ⟨S50000x128, .f32⟩
  | 117 => ⟨S1x128, .f32⟩
  | 118 => ⟨S50000x128, .f32⟩
  | 119 => ⟨S50000x128, .f32⟩
  | 120 => ⟨S1x800000, .i32⟩
  | 121 => ⟨S800000, .i32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S1x800000, .i32⟩
  | 4 => ⟨S800000, .i32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S800000x256, .f32⟩
  | 15 => ⟨S800000x2, .f32⟩
  | 16 => ⟨S1x2, .f32⟩
  | 17 => ⟨S800000x2, .f32⟩
  | 18 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_c_8 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_cst : Ref sig .tc := ⟨.hbm, 89, rfl⟩
abbrev main_call2_v0 : Ref sig .tc := ⟨.hbm, 90, rfl⟩
abbrev main_v59 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_15 : Ref sig .tc := ⟨.hbm, 122, rfl⟩
abbrev main_v87 : Ref sig .tc := ⟨.hbm, 123, rfl⟩
abbrev main_v88 : Ref sig .tc := ⟨.hbm, 124, rfl⟩
abbrev main_c_16 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_17 : Ref sig .tc := ⟨.hbm, 133, rfl⟩
abbrev main_v96 : Ref sig .tc := ⟨.hbm, 134, rfl⟩
abbrev main_v97 : Ref sig .tc := ⟨.hbm, 135, rfl⟩
abbrev main_c_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S50000x32_S50000x8x4 : S50000x32.ShapeCasts S50000x8x4
  shapeCasts_S50000x64_S50000x4x16 : S50000x64.ShapeCasts S50000x4x16
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x128_S128x32_S50000x32_1_0_0_1_n_n_wf : DotDims.WF S50000x128 S128x32 S50000x32 [1] [0] [0] [1] [] []
  dot_S50000x8x4_S50000x4x16_S50000x8x16_2_1_1_2_0_0_wf : DotDims.WF S50000x8x4 S50000x4x16 S50000x8x16 [2] [1] [1] [2] [0] [0]
  gather_S50000x128_S800000x1_S800000x128_1_0_n_n_0_1_1128_wf : GatherDims.WF S50000x128 S800000x1 S800000x128 [1] [0] [] [0] [] 1 ![1, 128]
  dot_S800000x256_S256x2_S800000x2_1_0_0_1_n_n_wf : DotDims.WF S800000x256 S256x2 S800000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x8x4_S50000x4x16_S50000x8x16_2_1_1_2_0_0 : DotDims S50000x8x4 S50000x4x16 S50000x8x16 where
  lhsContracting := [2]
  rhsContracting := [1]
  lhsNonContracting := [1]
  rhsNonContracting := [2]
  lhsBatch := [0]
  rhsBatch := [0]
  wf := dot_S50000x8x4_S50000x4x16_S50000x8x16_2_1_1_2_0_0_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf

class Facts : Prop extends Facts₀ where

variable [Facts]
-- ==== Proof.RunNamed.lean ====
/-
  The idealized kernel's run with its result named.

  The program is five launches among stretches of host operations. Its run is the library's run of a list of segments;
  at the end every buffer of a core that outlives the launches holds the contents the last boundary assigns to it. The
  frame keeps of this only that the arguments end as they started; here the result's buffer is kept as well: it ends at
  the last boundary's contents of the result's reference, which the later modules compute stage by stage.
-/
import proofs.«126254_j86938728005820_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates; the result's buffer ends at the last boundary's
    contents of its reference, and the arguments end as launched. -/
theorem run_named : θ_run defs (onTc (τ := τ) (main (F := F))) ⟨m, fun _ => 0, ρ⟩ (fun r => ∀ c : Dev nD,
      r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.RunValue

end
-- ==== Proof.KeptD.lean ====
/-
  Buffers that outlive several boundaries, part four: the row and column index vectors (edge endpoints followed by the
  self loops) and the symmetric normalisation, computed before the first launch and read again by both layers'
  gather and scatter; and each launch's output that the next launch reads one stretch later.
-/
import proofs.«126254_j86938728005820_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes holds after the stretch what it held before. -/
local macro "survives " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- `main_v3` at boundary 2: no operation of the stretch before it writes it. -/
theorem main_v3_W2 (c : Dev nD) : W2 m ρ c (Proc.devRef .tc main_v3) = W1 m ρ c (Proc.devRef .tc main_v3) :=
  (show W2 m ρ c (Proc.devRef .tc main_v3) = W1 m ρ c (Proc.devRef .tc main_v3) by survives hostOps0_1)

/-- `main_v3` at boundary 3: no operation of the stretch before it writes it. -/
theorem main_v3_W3 (c : Dev nD) : W3 m ρ c (Proc.devRef .tc main_v3) = W1 m ρ c (Proc.devRef .tc main_v3) :=
  (show W3 m ρ c (Proc.devRef .tc main_v3) = W2 m ρ c (Proc.devRef .tc main_v3) by survives hostOps0_2).trans (main_v3_W2 m ρ c)

/-- `main_v3` at boundary 4: no operation of the stretch before it writes it. -/
theorem main_v3_W4 (c : Dev nD) : W4 m ρ c (Proc.devRef .tc main_v3) = W1 m ρ c (Proc.devRef .tc main_v3) :=
  (show W4 m ρ c (Proc.devRef .tc main_v3) = W3 m ρ c (Proc.devRef .tc main_v3) by survives hostOps0_3).trans (main_v3_W3 m ρ c)

/-- `main_v3` at boundary 5: no operation of the stretch before it writes it. -/
theorem main_v3_W5 (c : Dev nD) : W5 m ρ c (Proc.devRef .tc main_v3) = W1 m ρ c (Proc.devRef .tc main_v3) :=
  (show W5 m ρ c (Proc.devRef .tc main_v3) = W4 m ρ c (Proc.devRef .tc main_v3) by survives hostOps0_4).trans (main_v3_W4 m ρ c)

/-- `main_v3` at boundary 6: no operation of the launch before it writes it. -/
theorem main_v3_W6 (c : Dev nD) : W6 m ρ c (Proc.devRef .tc main_v3) = W1 m ρ c (Proc.devRef .tc main_v3) :=
  (W6_of_ne m ρ c main_v3 (by decide)).trans (main_v3_W5 m ρ c)

/-- `main_v3` at boundary 7: no operation of the stretch before it writes it. -/
theorem main_v3_W7 (c : Dev nD) : W7 m ρ c (Proc.devRef .tc main_v3) = W1 m ρ c (Proc.devRef .tc main_v3) :=
  (show W7 m ρ c (Proc.devRef .tc main_v3) = W6 m ρ c (Proc.devRef .tc main_v3) by survives hostOps1).trans (main_v3_W6 m ρ c)

/-- `main_v3` at boundary 8: no operation of the launch before it writes it. -/
theorem main_v3_W8 (c : Dev nD) : W8 m ρ c (Proc.devRef .tc main_v3) = W1 m ρ c (Proc.devRef .tc main_v3) :=
  (W8_of_ne m ρ c main_v3 (by decide)).trans (main_v3_W7 m ρ c)

/-- `main_v3` at boundary 9: no operation of the stretch before it writes it. -/
theorem main_v3_W9 (c : Dev nD) : W9 m ρ c (Proc.devRef .tc main_v3) = W1 m ρ c (Proc.devRef .tc main_v3) :=
  (show W9 m ρ c (Proc.devRef .tc main_v3) = W8 m ρ c (Proc.devRef .tc main_v3) by survives hostOps2).trans (main_v3_W8 m ρ c)

/-- `main_v3` at boundary 10: no operation of the launch before it writes it. -/
theorem main_v3_W10 (c : Dev nD) : W10 m ρ c (Proc.devRef .tc main_v3) = W1 m ρ c (Proc.devRef .tc main_v3) :=
  (W10_of_ne m ρ c main_v3 (by decide)).trans (main_v3_W9 m ρ c)

/-- `main_v6` at boundary 2: no operation of the stretch before it writes it. -/
theorem main_v6_W2 (c : Dev nD) : W2 m ρ c (Proc.devRef .tc main_v6) = W1 m ρ c (Proc.devRef .tc main_v6) :=
  (show W2 m ρ c (Proc.devRef .tc main_v6) = W1 m ρ c (Proc.devRef .tc main_v6) by survives hostOps0_1)

/-- `main_v6` at boundary 3: no operation of the stretch before it writes it. -/
theorem main_v6_W3 (c : Dev nD) : W3 m ρ c (Proc.devRef .tc main_v6) = W1 m ρ c (Proc.devRef .tc main_v6) :=
  (show W3 m ρ c (Proc.devRef .tc main_v6) = W2 m ρ c (Proc.devRef .tc main_v6) by survives hostOps0_2).trans (main_v6_W2 m ρ c)

/-- `main_v6` at boundary 4: no operation of the stretch before it writes it. -/
theorem main_v6_W4 (c : Dev nD) : W4 m ρ c (Proc.devRef .tc main_v6) = W1 m ρ c (Proc.devRef .tc main_v6) :=
  (show W4 m ρ c (Proc.devRef .tc main_v6) = W3 m ρ c (Proc.devRef .tc main_v6) by survives hostOps0_3).trans (main_v6_W3 m ρ c)

/-- `main_v6` at boundary 5: no operation of the stretch before it writes it. -/
theorem main_v6_W5 (c : Dev nD) : W5 m ρ c (Proc.devRef .tc main_v6) = W1 m ρ c (Proc.devRef .tc main_v6) :=
  (show W5 m ρ c (Proc.devRef .tc main_v6) = W4 m ρ c (Proc.devRef .tc main_v6) by survives hostOps0_4).trans (main_v6_W4 m ρ c)

/-- `main_v6` at boundary 6: no operation of the launch before it writes it. -/
theorem main_v6_W6 (c : Dev nD) : W6 m ρ c (Proc.devRef .tc main_v6) = W1 m ρ c (Proc.devRef .tc main_v6) :=
  (W6_of_ne m ρ c main_v6 (by decide)).trans (main_v6_W5 m ρ c)

/-- `main_v6` at boundary 7: no operation of the stretch before it writes it. -/
theorem main_v6_W7 (c : Dev nD) : W7 m ρ c (Proc.devRef .tc main_v6) = W1 m ρ c (Proc.devRef .tc main_v6) :=
  (show W7 m ρ c (Proc.devRef .tc main_v6) = W6 m ρ c (Proc.devRef .tc main_v6) by survives hostOps1).trans (main_v6_W6 m ρ c)

/-- `main_v6` at boundary 8: no operation of the launch before it writes it. -/
theorem main_v6_W8 (c : Dev nD) : W8 m ρ c (Proc.devRef .tc main_v6) = W1 m ρ c (Proc.devRef .tc main_v6) :=
  (W8_of_ne m ρ c main_v6 (by decide)).trans (main_v6_W7 m ρ c)

/-- `main_v6` at boundary 9: no operation of the stretch before it writes it. -/
theorem main_v6_W9 (c : Dev nD) : W9 m ρ c (Proc.devRef .tc main_v6) = W1 m ρ c (Proc.devRef .tc main_v6) :=
  (show W9 m ρ c (Proc.devRef .tc main_v6) = W8 m ρ c (Proc.devRef .tc main_v6) by survives hostOps2).trans (main_v6_W8 m ρ c)

/-- `main_v6` at boundary 10: no operation of the launch before it writes it. -/
theorem main_v6_W10 (c : Dev nD) : W10 m ρ c (Proc.devRef .tc main_v6) = W1 m ρ c (Proc.devRef .tc main_v6) :=
  (W10_of_ne m ρ c main_v6 (by decide)).trans (main_v6_W9 m ρ c)

/-- `main_v33` at boundary 6: no operation of the launch before it writes it. -/
theorem main_v33_W6 (c : Dev nD) : W6 m ρ c (Proc.devRef .tc main_v33) = W5 m ρ c (Proc.devRef .tc main_v33) :=
  (W6_of_ne m ρ c main_v33 (by decide))

/-- `main_v33` at boundary 7: no operation of the stretch before it writes it. -/
theorem main_v33_W7 (c : Dev nD) : W7 m ρ c (Proc.devRef .tc main_v33) = W5 m ρ c (Proc.devRef .tc main_v33) :=
  (show W7 m ρ c (Proc.devRef .tc main_v33) = W6 m ρ c (Proc.devRef .tc main_v33) by survives hostOps1).trans (main_v33_W6 m ρ c)

/-- `main_v33` at boundary 8: no operation of the launch before it writes it. -/
theorem main_v33_W8 (c : Dev nD) : W8 m ρ c (Proc.devRef .tc main_v33) = W5 m ρ c (Proc.devRef .tc main_v33) :=
  (W8_of_ne m ρ c main_v33 (by decide)).trans (main_v33_W7 m ρ c)

/-- `main_v33` at boundary 9: no operation of the stretch before it writes it. -/
theorem main_v33_W9 (c : Dev nD) : W9 m ρ c (Proc.devRef .tc main_v33) = W5 m ρ c (Proc.devRef .tc main_v33) :=
  (show W9 m ρ c (Proc.devRef .tc main_v33) = W8 m ρ c (Proc.devRef .tc main_v33) by survives hostOps2).trans (main_v33_W8 m ρ c)

/-- `main_v33` at boundary 10: no operation of the launch before it writes it. -/
theorem main_v33_W10 (c : Dev nD) : W10 m ρ c (Proc.devRef .tc main_v33) = W5 m ρ c (Proc.devRef .tc main_v33) :=
  (W10_of_ne m ρ c main_v33 (by decide)).trans (main_v33_W9 m ρ c)

/-- `main_v35_1` at boundary 7: no operation of the stretch before it writes it. -/
theorem main_v35_1_W7 (c : Dev nD) : W7 m ρ c (Proc.devRef .tc main_v35_1) = W6 m ρ c (Proc.devRef .tc main_v35_1) :=
  (show W7 m ρ c (Proc.devRef .tc main_v35_1) = W6 m ρ c (Proc.devRef .tc main_v35_1) by survives hostOps1)

/-- `main_v50` at boundary 9: no operation of the stretch before it writes it. -/
theorem main_v50_W9 (c : Dev nD) : W9 m ρ c (Proc.devRef .tc main_v50) = W8 m ρ c (Proc.devRef .tc main_v50) :=
  (show W9 m ρ c (Proc.devRef .tc main_v50) = W8 m ρ c (Proc.devRef .tc main_v50) by survives hostOps2)

/-- `main_v52_1` at boundary 11: no operation of the stretch before it writes it. -/
theorem main_v52_1_W11 (c : Dev nD) : W11 m ρ c (Proc.devRef .tc main_v52_1) = W10 m ρ c (Proc.devRef .tc main_v52_1) :=
  (show W11 m ρ c (Proc.devRef .tc main_v52_1) = W10 m ρ c (Proc.devRef .tc main_v52_1) by survives hostOps3)

end Cert.KernelIdeal.Kept

end
-- ==== Proof.StagesA.lean ====
/-
  The idealized kernel before its first launch: the host computes the row and column index vectors (the edges' endpoints
  followed by one self loop per node), the degree of every node (a scatter-add of ones at the column indices), its
  inverse square root where the degree is positive and zero elsewhere, and from these the symmetric normalisation of
  every edge (the product of the two endpoints' factors). These are the reference's own operations, stretch by stretch.
-/
import proofs.«126254_j86938728005820_2_alg».proof.Proof.RefRead
import proofs.«126254_j86938728005820_2_alg».proof.Proof.KeptD
import Idealize.ShloMosaic.Lib.StableHlo.Run

set_option maxRecDepth 16384

noncomputable section

namespace Cert.KernelIdeal.Stages

open Cert.KernelIdeal Cert.KernelIdeal.Gen Cert.KernelIdeal.Kept
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first stretch, from the launch memory -/

/-- The row index vector (source endpoints, then the self loops). -/
theorem row_W1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

/-- The column index vector (target endpoints, then the self loops). -/
theorem col_W1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp
  rfl

/-- The degree of every node, self loop included. -/
theorem deg_W1 : W1 m ρ c (Proc.devRef .tc main_v10) = Cert.ReferenceIdeal.ReadP.val_main_v10 (F := Ideal) (m ((c : Thread nD τ).loc main_arg1)) := by
  show StableHlo.after hostOps0 (W0 m ρ c) (Proc.devRef .tc main_v10) = _
  after_results_simp
  rfl

/-- Where the degree is positive. -/
theorem pos_W1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  rfl

/-- The constant one. -/
theorem one_W1 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-! ## The later stretches, each from any contents that hold the earlier stages -/

/-- The degree where positive, one elsewhere. -/
theorem safeDeg_of (W : Valuation τ sig (Elt Ideal))
    (h0 : W (Proc.devRef .tc main_v12) = Cert.ReferenceIdeal.ReadP.val_main_v12 (F := Ideal) (m ((c : Thread nD τ).loc main_arg1)))
    (h1 : W (Proc.devRef .tc main_v10) = Cert.ReferenceIdeal.ReadP.val_main_v10 (F := Ideal) (m ((c : Thread nD τ).loc main_arg1)))
    (h2 : W (Proc.devRef .tc main_cst_2) = Cert.ReferenceIdeal.ReadP.val_main_cst_2 (F := Ideal)) :
    StableHlo.after hostOps0_1 W (Proc.devRef .tc main_v13) = Cert.ReferenceIdeal.ReadP.val_main_v13 (F := Ideal) (m ((c : Thread nD τ).loc main_arg1)) := by
  have key : StableHlo.after hostOps0_1 W (Proc.devRef .tc main_v13) = select (W (Proc.devRef .tc main_v12)) (W (Proc.devRef .tc main_v10)) (broadcastInDim S50000 ![] bcast_S_S50000 (W (Proc.devRef .tc main_cst_2))) := rfl
  rw [key, h0, h1, h2]
  rfl

/-- That stretch does not write the degree. -/
theorem deg_keep (W : Valuation τ sig (Elt Ideal)) :
    StableHlo.after hostOps0_1 W (Proc.devRef .tc main_v10) = W (Proc.devRef .tc main_v10) := rfl

/-- Its power minus one half. -/
theorem rsqrt_of (W : Valuation τ sig (Elt Ideal))
    (h0 : W (Proc.devRef .tc main_v13) = Cert.ReferenceIdeal.ReadP.val_main_v13 (F := Ideal) (m ((c : Thread nD τ).loc main_arg1))) :
    StableHlo.after hostOps0_2 W (Proc.devRef .tc main_v15) = Cert.ReferenceIdeal.ReadP.val_main_v15 (F := Ideal) (m ((c : Thread nD τ).loc main_arg1)) := by
  after_results_simp
  rw [h0]
  rfl

/-- Where the degree is positive, once more. -/
theorem pos2_of (W : Valuation τ sig (Elt Ideal))
    (h0 : W (Proc.devRef .tc main_v10) = Cert.ReferenceIdeal.ReadP.val_main_v10 (F := Ideal) (m ((c : Thread nD τ).loc main_arg1))) :
    StableHlo.after hostOps0_2 W (Proc.devRef .tc main_v17) = Cert.ReferenceIdeal.ReadP.val_main_v17 (F := Ideal) (m ((c : Thread nD τ).loc main_arg1)) := by
  after_results_simp
  rw [h0]
  rfl

/-- The constant zero. -/
theorem zero_of (W : Valuation τ sig (Elt Ideal)) :
    StableHlo.after hostOps0_2 W (Proc.devRef .tc main_cst_5) = Cert.ReferenceIdeal.ReadP.val_main_cst_5 (F := Ideal) := by
  after_results_simp
  rfl

/-- Every node's factor: the inverse square root of its degree where positive, zero elsewhere. -/
theorem factor_of (W : Valuation τ sig (Elt Ideal))
    (h0 : W (Proc.devRef .tc main_v17) = Cert.ReferenceIdeal.ReadP.val_main_v17 (F := Ideal) (m ((c : Thread nD τ).loc main_arg1)))
    (h1 : W (Proc.devRef .tc main_v15) = Cert.ReferenceIdeal.ReadP.val_main_v15 (F := Ideal) (m ((c : Thread nD τ).loc main_arg1)))
    (h2 : W (Proc.devRef .tc main_cst_5) = Cert.ReferenceIdeal.ReadP.val_main_cst_5 (F := Ideal)) :
    StableHlo.after hostOps0_3 W (Proc.devRef .tc main_v18) = Cert.ReferenceIdeal.ReadP.val_main_v18 (F := Ideal) (m ((c : Thread nD τ).loc main_arg1)) := by
  have key : StableHlo.after hostOps0_3 W (Proc.devRef .tc main_v18) = select (W (Proc.devRef .tc main_v17)) (W (Proc.devRef .tc main_v15)) (broadcastInDim S50000 ![] bcast_S_S50000 (W (Proc.devRef .tc main_cst_5))) := rfl
  rw [key, h0, h1, h2]
  rfl

/-- Every edge's normalisation: the product of its endpoints' factors. -/
theorem norm_of (W : Valuation τ sig (Elt Ideal))
    (h0 : W (Proc.devRef .tc main_v18) = Cert.ReferenceIdeal.ReadP.val_main_v18 (F := Ideal) (m ((c : Thread nD τ).loc main_arg1)))
    (h1 : W (Proc.devRef .tc main_v3) = Cert.ReferenceIdeal.ReadP.val_main_v3 (F := Ideal) (m ((c : Thread nD τ).loc main_arg1)))
    (h2 : W (Proc.devRef .tc main_v6) = Cert.ReferenceIdeal.ReadP.val_main_v6 (F := Ideal) (m ((c : Thread nD τ).loc main_arg1))) :
    StableHlo.after hostOps0_4 W (Proc.devRef .tc main_v33) = Cert.ReferenceIdeal.ReadP.val_main_v33 (F := Ideal) (m ((c : Thread nD τ).loc main_arg1)) := by
  after_results_simp
  rw [h0, h1, h2]
  rfl

/-- The first layer's weight bias, laid out as a row. -/
theorem bias1_of (W : Valuation τ sig (Elt Ideal)) :
    StableHlo.after hostOps0_4 W (Proc.devRef .tc main_v34) = shapeCast S1x32 (W (Proc.devRef .tc main_arg4)) shapeCasts_S32_S1x32 := by
  after_results_simp
  rfl

/-! ## At the first launch's entry -/

theorem factor_W4 : W4 m ρ c (Proc.devRef .tc main_v18) = Cert.ReferenceIdeal.ReadP.val_main_v18 (F := Ideal) (m ((c : Thread nD τ).loc main_arg1)) :=
  factor_of m c (W3 m ρ c)
    (pos2_of m c (W2 m ρ c) ((deg_keep (W1 m ρ c)).trans (deg_W1 m ρ c)))
    (rsqrt_of m c (W2 m ρ c) (safeDeg_of m c (W1 m ρ c) (pos_W1 m ρ c) (deg_W1 m ρ c) (one_W1 m ρ c)))
    (zero_of (W2 m ρ c))

/-- The symmetric normalisation of every edge. -/
theorem norm_W5 : W5 m ρ c (Proc.devRef .tc main_v33) = Cert.ReferenceIdeal.ReadP.val_main_v33 (F := Ideal) (m ((c : Thread nD τ).loc main_arg1)) :=
  norm_of m c (W4 m ρ c) (factor_W4 m ρ c) ((main_v3_W4 m ρ c).trans (row_W1 m ρ c)) ((main_v6_W4 m ρ c).trans (col_W1 m ρ c))

end Cert.KernelIdeal.Stages

end
-- ==== Proof.Spec.lean ====
/-
  What the five launches compute, as plain formulas on the extended reals, one entry at a time.

  A node table has one row per node. Three row-wise maps occur:
  * a projection: row p of X against a weight matrix W, entry q is the sum over e of X[p,e] * W[e,q], with or without
    a bias row added;
  * the combination of aggregated bases: output column q belongs to head q / 16 and feature q % 16; it is the sum over
    the four bases b of weight[p, 4 * (q / 16) + b] * aggregate[p, 16 * b + q % 16], plus a bias row, and in the first
    layer clamped below at zero;
  * the edge classifier: the two endpoint rows laid side by side (256 entries) against a 256 x 2 matrix, plus a bias row.
  Addition on the extended reals is commutative and associative and 0 is neutral, which is all the comparison of the
  two programs uses: no finiteness of the data is needed.
-/
import Idealize.ShloMosaic.Lib.ValueIdx
import Idealize.ShloMosaic.PureOps.Ideal.Laws

noncomputable section

namespace Cert.EdgeNet

open Idealize.ShloMosaic Idealize.ShloMosaic.ValueIdx

variable {n c : ℕ}

/-- The weight column that head `q / 16` uses for basis `b`. -/
def wCol (q : Fin 128) (b : Fin 4) : Fin 32 := ⟨4 * (q.val / 16) + b.val, by omega⟩

/-- The aggregate column holding feature `q % 16` of basis `b`. -/
def aCol (q : Fin 128) (b : Fin 4) : Fin 64 := ⟨16 * b.val + q.val % 16, by omega⟩

/-- Entry `(p, q)` of the product of a table with 128 columns and a `128 × c` matrix. -/
def projAt (X : (⟨2, ![n, 128]⟩ : Shape).Idx → EReal) (W : (⟨2, ![128, c]⟩ : Shape).Idx → EReal)
    (p : Fin n) (q : Fin c) : EReal :=
  ∑ e : Fin 128, X (ix2 p e) * W (ix2 e q)

/-- The same with a bias row added. -/
def affineAt (X : (⟨2, ![n, 128]⟩ : Shape).Idx → EReal) (W : (⟨2, ![128, c]⟩ : Shape).Idx → EReal)
    (β : (⟨2, ![1, c]⟩ : Shape).Idx → EReal) (p : Fin n) (q : Fin c) : EReal :=
  projAt X W p q + β (ix2 (0 : Fin 1) q)

/-- Entry `(p, q)` of the combination of the four aggregated bases by the node's own weights, plus the bias row. -/
def combineAt (w : (⟨2, ![n, 32]⟩ : Shape).Idx → EReal) (a : (⟨2, ![n, 64]⟩ : Shape).Idx → EReal)
    (β : (⟨2, ![1, 128]⟩ : Shape).Idx → EReal) (p : Fin n) (q : Fin 128) : EReal :=
  (∑ b : Fin 4, w (ix2 p (wCol q b)) * a (ix2 p (aCol q b))) + β (ix2 (0 : Fin 1) q)

/-- Entry `e` of the two endpoint rows laid side by side. -/
def pairAt (h0 h1 : (⟨2, ![n, 128]⟩ : Shape).Idx → EReal) (p : Fin n) (e : Fin 256) : EReal :=
  if h : e.val < 128 then h0 (ix2 p ⟨e.val, h⟩) else h1 (ix2 p ⟨e.val - 128, by omega⟩)

/-- Entry `(p, q)` of the edge classifier. -/
def classifyAt (h0 h1 : (⟨2, ![n, 128]⟩ : Shape).Idx → EReal) (W : (⟨2, ![256, 2]⟩ : Shape).Idx → EReal)
    (β : (⟨2, ![1, 2]⟩ : Shape).Idx → EReal) (p : Fin n) (q : Fin 2) : EReal :=
  (∑ e : Fin 256, pairAt h0 h1 p e * W (ix2 e q)) + β (ix2 (0 : Fin 1) q)

/-- A sum over four terms built up from zero, one term at a time, is the sum. -/
theorem sum_four_from_zero (t : Fin 4 → EReal) :
    (((0 + t 0) + t 1) + t 2) + t 3 = ∑ b : Fin 4, t b := by
  rw [Fin.sum_univ_four, zero_add]

end Cert.EdgeNet

end
-- ==== Proof.Arrays.lean ====
/-
  The five dense stages as functions of whole arrays: 50000 node rows, 800000 edges. Each is the specification's entry
  formula at the entry's own row and column.
-/
import proofs.«126254_j86938728005820_2_alg».proof.Proof.Spec

set_option maxRecDepth 16384

noncomputable section

namespace Cert.EdgeNet

open Idealize.ShloMosaic Idealize.ShloMosaic.ValueIdx

/-- The basis projection of a node table. -/
def basesOf (X : (⟨2, ![50000, 128]⟩ : Shape).Idx → EReal) (W : (⟨2, ![128, 64]⟩ : Shape).Idx → EReal) : (⟨2, ![50000, 64]⟩ : Shape).Idx → EReal :=
  fun i => projAt X W (i 0) (i 1)

/-- The weight projection of a node table, with its bias row. -/
def weightsOf (X : (⟨2, ![50000, 128]⟩ : Shape).Idx → EReal) (W : (⟨2, ![128, 32]⟩ : Shape).Idx → EReal) (β : (⟨2, ![1, 32]⟩ : Shape).Idx → EReal) : (⟨2, ![50000, 32]⟩ : Shape).Idx → EReal :=
  fun i => affineAt X W β (i 0) (i 1)

/-- The combination of the aggregated bases by the nodes' weights, with its bias row. -/
def combineOf (w : (⟨2, ![50000, 32]⟩ : Shape).Idx → EReal) (a : (⟨2, ![50000, 64]⟩ : Shape).Idx → EReal) (β : (⟨2, ![1, 128]⟩ : Shape).Idx → EReal) : (⟨2, ![50000, 128]⟩ : Shape).Idx → EReal :=
  fun i => combineAt w a β (i 0) (i 1)

/-- The same, clamped below at zero. -/
def clampedCombineOf (w : (⟨2, ![50000, 32]⟩ : Shape).Idx → EReal) (a : (⟨2, ![50000, 64]⟩ : Shape).Idx → EReal) (β : (⟨2, ![1, 128]⟩ : Shape).Idx → EReal) : (⟨2, ![50000, 128]⟩ : Shape).Idx → EReal :=
  fun i => max (combineAt w a β (i 0) (i 1)) 0

/-- The edge classifier of the two endpoint tables. -/
def classifyOf (h0 h1 : (⟨2, ![800000, 128]⟩ : Shape).Idx → EReal) (W : (⟨2, ![256, 2]⟩ : Shape).Idx → EReal) (β : (⟨2, ![1, 2]⟩ : Shape).Idx → EReal) : (⟨2, ![800000, 2]⟩ : Shape).Idx → EReal :=
  fun i => classifyAt h0 h1 W β (i 0) (i 1)

end Cert.EdgeNet

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.PairRow.lean ====
/-
  Two tables with 128 columns laid side by side, read at an entry: column e of the joined row is column e of the left
  table when e < 128 and column e - 128 of the right table otherwise.
-/
import proofs.«126254_j86938728005820_2_alg».proof.Proof.Spec
import proofs.«126254_j86938728005820_2_alg».proof.Proof.LibStack

set_option maxRecDepth 16384

noncomputable section

namespace Cert.EdgeNet

open Idealize.ShloMosaic Idealize.ShloMosaic.ValueIdx

/-- Entry `(p, e)` of two 128-column tables joined along the columns is `pairAt`. -/
theorem concat_pair_apply {n : ℕ} (x y : (⟨2, ![n, 128]⟩ : Shape).Idx → EReal)
    (h : Shape.Concatenates [(⟨2, ![n, 128]⟩ : Shape), ⟨2, ![n, 128]⟩] ⟨2, ![n, 256]⟩ 1) (p : Fin n) (e : Fin 256) :
    concatenate ⟨2, ![n, 256]⟩ 1 [⟨⟨2, ![n, 128]⟩, x⟩, ⟨⟨2, ![n, 128]⟩, y⟩] h (ix2 p e) = pairAt x y p e := by
  unfold pairAt
  split
  · next hlt => exact Cert.LibStack.beside_left x y h p ⟨e.val, hlt⟩ e rfl
  · next hge =>
    exact Cert.LibStack.beside_right x y h p ⟨e.val - 128, by omega⟩ e (by show e.val = e.val - 128 + 128; omega)

end Cert.EdgeNet

end
-- ==== Proof.Bridge.lean ====
/-
  The reference's stages, read one entry at a time, are the array functions of the specification.

  Each of the reference's five dense stages — the two projections of a layer, the combination of a layer (with the clamp
  at zero in the first layer), and the classifier — is, entry by entry, the formula of the specification applied to the
  stage's own operands: a contraction read as a sum over its contracted coordinate, a reshape between [n, 32] and
  [n, 8, 4] (and [n, 64] / [n, 4, 16], [n, 8, 16] / [n, 128]) read through the row-major position of the entry, a bias
  vector laid out as a row and repeated down the rows, two tables joined side by side.
-/
import proofs.«126254_j86938728005820_2_alg».proof.Proof.Spec
import proofs.«126254_j86938728005820_2_alg».proof.Proof.Arrays
import proofs.«126254_j86938728005820_2_alg».proof.Proof.PairRow
import proofs.«126254_j86938728005820_2_alg».proof.Proof.RefRead
import Idealize.ShloMosaic.Lib.Pipeline.Value

set_option maxRecDepth 16384

noncomputable section

namespace Cert.ReferenceIdeal.Bridge

open Cert.ReferenceIdeal Cert.ReferenceIdeal.Gen Cert.ReferenceIdeal.ReadP Cert.EdgeNet
open Idealize.ShloMosaic Idealize.ShloMosaic.ValueIdx

/-- A vector reshaped to one row, read at `(0, q)`. -/
theorem reshape_row_apply {b : ℕ} (v : (⟨1, ![b]⟩ : Shape).Idx → EReal) (hc : (⟨1, ![b]⟩ : Shape).ShapeCasts ⟨2, ![1, b]⟩)
    (q : Fin b) : shapeCast ⟨2, ![1, b]⟩ v hc (ix2 (0 : Fin 1) q) = v (ix1 q) :=
  shapeCast_apply v hc (ix2 (0 : Fin 1) q) (ix1 q) (by
    rw [Shape.rowMajor_val_two, Shape.rowMajor_val_one]; show q.val = 0 * b + q.val; omega)

/-- A plain product of the reference, entry by entry (the contracted coordinate runs over the 128 input features). -/
theorem bases1 (x0 : S50000x128.Idx → EReal) (x2 : S128x64.Idx → EReal) : val_main_v34 (F := Ideal) x0 x2 = basesOf x0 x2 := by
  funext i
  obtain ⟨n, q, rfl⟩ : ∃ (n : Fin 50000) (q : Fin 64), i = ix2 n q := ⟨i 0, i 1, eq_ix2 i⟩
  rw [val_main_v34_apply]
  show _ = ∑ e : Fin 128, x0 (ix2 n e) * x2 (ix2 e q)
  refine Finset.sum_congr rfl fun e _ => ?_
  have hl : lidx_main_v34 (ix2 n q) e = ix2 n e := funext fun a => Fin.ext (by match a with | ⟨0, _⟩ => rfl | ⟨1, _⟩ => rfl)
  have hr : ridx_main_v34 (ix2 n q) e = ix2 e q := funext fun a => Fin.ext (by match a with | ⟨0, _⟩ => rfl | ⟨1, _⟩ => rfl)
  rw [hl, hr]

/-- The weight projection of the first layer with its bias, entry by entry. -/
theorem weights1 (x0 : S50000x128.Idx → EReal) (x3 : S128x32.Idx → EReal) (x4 : S32.Idx → EReal)
    (β : S1x32.Idx → EReal) (hβ : ∀ q : Fin 32, β (ix2 (0 : Fin 1) q) = x4 (ix1 q)) :
    val_main_v51 (F := Ideal) x0 x3 x4 = weightsOf x0 x3 β := by
  funext i
  obtain ⟨n, q, rfl⟩ : ∃ (n : Fin 50000) (q : Fin 32), i = ix2 n q := ⟨i 0, i 1, eq_ix2 i⟩
  rw [val_main_v51_apply, val_main_v48_apply, val_main_v50_apply, val_main_v49_apply]
  show (∑ k : Fin 128, x0 (lidx_main_v48 (ix2 n q) k) * x3 (ridx_main_v48 (ix2 n q) k)) + x4 (idx_main_v49 (idx_main_v50 (ix2 n q)))
    = (∑ e : Fin 128, x0 (ix2 n e) * x3 (ix2 e q)) + β (ix2 (0 : Fin 1) q)
  rw [hβ q]
  have hb : idx_main_v49 (idx_main_v50 (ix2 n q)) = ix1 q := funext fun a => Fin.ext (by match a with | ⟨0, _⟩ => rfl)
  rw [hb]
  refine congrArg (· + x4 (ix1 q)) (Finset.sum_congr rfl fun e _ => ?_)
  have hl : lidx_main_v48 (ix2 n q) e = ix2 n e := funext fun a => Fin.ext (by match a with | ⟨0, _⟩ => rfl | ⟨1, _⟩ => rfl)
  have hr : ridx_main_v48 (ix2 n q) e = ix2 e q := funext fun a => Fin.ext (by match a with | ⟨0, _⟩ => rfl | ⟨1, _⟩ => rfl)
  rw [hl, hr]

/-- The basis projection of the second layer: the first layer's output against the second basis matrix. -/
theorem bases2 (x0 : S50000x128.Idx → EReal) (x1 : (⟨S2x800000, .i32⟩ : BufTy).Contents (Elt Ideal)) (x2 : S128x64.Idx → EReal) (x3 : S128x32.Idx → EReal) (x4 : S32.Idx → EReal) (x5 : S128.Idx → EReal) (x6 : S128x64.Idx → EReal) :
    val_main_v60 (F := Ideal) x0 x1 x2 x3 x4 x5 x6 = basesOf (val_main_v59 (F := Ideal) x0 x1 x2 x3 x4 x5) x6 := by
  funext i
  obtain ⟨n, q, rfl⟩ : ∃ (n : Fin 50000) (q : Fin 64), i = ix2 n q := ⟨i 0, i 1, eq_ix2 i⟩
  rw [val_main_v60_apply]
  generalize val_main_v59 (F := Ideal) x0 x1 x2 x3 x4 x5 = y
  show _ = ∑ e : Fin 128, y (ix2 n e) * x6 (ix2 e q)
  refine Finset.sum_congr rfl fun e _ => ?_
  have hl : lidx_main_v60 (ix2 n q) e = ix2 n e := funext fun a => Fin.ext (by match a with | ⟨0, _⟩ => rfl | ⟨1, _⟩ => rfl)
  have hr : ridx_main_v60 (ix2 n q) e = ix2 e q := funext fun a => Fin.ext (by match a with | ⟨0, _⟩ => rfl | ⟨1, _⟩ => rfl)
  rw [hl, hr]

/-- The weight projection of the second layer with its bias, entry by entry. -/
theorem weights2 (x0 : S50000x128.Idx → EReal) (x1 : (⟨S2x800000, .i32⟩ : BufTy).Contents (Elt Ideal)) (x2 : S128x64.Idx → EReal) (x3 : S128x32.Idx → EReal) (x4 : S32.Idx → EReal) (x5 : S128.Idx → EReal) (x7 : S128x32.Idx → EReal) (x8 : S32.Idx → EReal)
    (β : S1x32.Idx → EReal) (hβ : ∀ q : Fin 32, β (ix2 (0 : Fin 1) q) = x8 (ix1 q)) :
    val_main_v77 (F := Ideal) x0 x1 x2 x3 x4 x5 x7 x8 = weightsOf (val_main_v59 (F := Ideal) x0 x1 x2 x3 x4 x5) x7 β := by
  funext i
  obtain ⟨n, q, rfl⟩ : ∃ (n : Fin 50000) (q : Fin 32), i = ix2 n q := ⟨i 0, i 1, eq_ix2 i⟩
  rw [val_main_v77_apply, val_main_v74_apply, val_main_v76_apply, val_main_v75_apply]
  generalize val_main_v59 (F := Ideal) x0 x1 x2 x3 x4 x5 = y
  show (∑ k : Fin 128, y (lidx_main_v74 (ix2 n q) k) * x7 (ridx_main_v74 (ix2 n q) k)) + x8 (idx_main_v75 (idx_main_v76 (ix2 n q)))
    = (∑ e : Fin 128, y (ix2 n e) * x7 (ix2 e q)) + β (ix2 (0 : Fin 1) q)
  rw [hβ q]
  have hb : idx_main_v75 (idx_main_v76 (ix2 n q)) = ix1 q := funext fun a => Fin.ext (by match a with | ⟨0, _⟩ => rfl)
  rw [hb]
  refine congrArg (· + x8 (ix1 q)) (Finset.sum_congr rfl fun e _ => ?_)
  have hl : lidx_main_v74 (ix2 n q) e = ix2 n e := funext fun a => Fin.ext (by match a with | ⟨0, _⟩ => rfl | ⟨1, _⟩ => rfl)
  have hr : ridx_main_v74 (ix2 n q) e = ix2 e q := funext fun a => Fin.ext (by match a with | ⟨0, _⟩ => rfl | ⟨1, _⟩ => rfl)
  rw [hl, hr]

/-- The first layer's combination, clamped at zero: the reshapes to heads x bases and bases x features, the batched contraction over the four bases and the reshape back, read at an entry of the [nodes, 128] table. -/
theorem clamped1 (x0 : S50000x128.Idx → EReal) (x1 : (⟨S2x800000, .i32⟩ : BufTy).Contents (Elt Ideal)) (x2 : S128x64.Idx → EReal) (x3 : S128x32.Idx → EReal) (x4 : S32.Idx → EReal) (x5 : S128.Idx → EReal)
    (β : S1x128.Idx → EReal) (hβ : ∀ q : Fin 128, β (ix2 (0 : Fin 1) q) = x5 (ix1 q)) :
    val_main_v59 (F := Ideal) x0 x1 x2 x3 x4 x5 = clampedCombineOf (val_main_v51 (F := Ideal) x0 x3 x4) (val_main_v47 (F := Ideal) x0 x1 x2) β := by
  funext i
  obtain ⟨n, q, rfl⟩ : ∃ (n : Fin 50000) (q : Fin 128), i = ix2 n q := ⟨i 0, i 1, eq_ix2 i⟩
  rw [val_main_v59_apply, val_main_v58_apply, val_main_v55_apply, val_main_v54_apply, val_main_v57_apply, val_main_v56_apply, val_main_call2_v0_apply, val_main_call2_cst_apply]
  simp only [val_main_v52_apply, val_main_v53_apply]
  generalize val_main_v51 (F := Ideal) x0 x3 x4 = w
  generalize val_main_v47 (F := Ideal) x0 x1 x2 = a
  show max ((∑ k : Fin 4, w (idx_main_v52 (lidx_main_v54 (idx_main_v55 (ix2 n q)) k)) * a (idx_main_v53 (ridx_main_v54 (idx_main_v55 (ix2 n q)) k))) + x5 (idx_main_v56 (idx_main_v57 (ix2 n q)))) (Ideal.ofBits .f32 0x00000000#32) = max ((∑ b : Fin 4, w (ix2 n (wCol q b)) * a (ix2 n (aCol q b))) + β (ix2 (0 : Fin 1) q)) 0
  rw [Ideal.ofBits_zero_f32, hβ q]
  have hb : idx_main_v56 (idx_main_v57 (ix2 n q)) = ix1 q := funext fun a => Fin.ext (by match a with | ⟨0, _⟩ => rfl)
  rw [hb]
  refine congrArg (fun s => max (s + x5 (ix1 q)) 0) (Finset.sum_congr rfl fun k _ => ?_)
  have hn := n.isLt
  have hq := q.isLt
  have hk := k.isLt
  have hw : idx_main_v52 (lidx_main_v54 (idx_main_v55 (ix2 n q)) k) = ix2 n (wCol q k) := by
    funext a'; apply Fin.ext
    match a' with
    | ⟨0, _⟩ => show (((n.val * 128 + q.val) / 128 * 8 + (n.val * 128 + q.val) / 16 % 8) * 4 + k.val) / 32 = n.val; omega
    | ⟨1, _⟩ => show (((n.val * 128 + q.val) / 128 * 8 + (n.val * 128 + q.val) / 16 % 8) * 4 + k.val) % 32 = 4 * (q.val / 16) + k.val; omega
  have ha : idx_main_v53 (ridx_main_v54 (idx_main_v55 (ix2 n q)) k) = ix2 n (aCol q k) := by
    funext a'; apply Fin.ext
    match a' with
    | ⟨0, _⟩ => show (((n.val * 128 + q.val) / 128 * 4 + k.val) * 16 + (n.val * 128 + q.val) % 16) / 64 = n.val; omega
    | ⟨1, _⟩ => show (((n.val * 128 + q.val) / 128 * 4 + k.val) * 16 + (n.val * 128 + q.val) % 16) % 64 = 16 * k.val + q.val % 16; omega
  rw [hw, ha]

/-- The second layer's combination (no clamp), read the same way. -/
theorem combined2 (x0 : S50000x128.Idx → EReal) (x1 : (⟨S2x800000, .i32⟩ : BufTy).Contents (Elt Ideal)) (x2 : S128x64.Idx → EReal) (x3 : S128x32.Idx → EReal) (x4 : S32.Idx → EReal) (x5 : S128.Idx → EReal) (x6 : S128x64.Idx → EReal) (x7 : S128x32.Idx → EReal) (x8 : S32.Idx → EReal) (x9 : S128.Idx → EReal)
    (β : S1x128.Idx → EReal) (hβ : ∀ q : Fin 128, β (ix2 (0 : Fin 1) q) = x9 (ix1 q)) :
    val_main_v84 (F := Ideal) x0 x1 x2 x3 x4 x5 x6 x7 x8 x9 = combineOf (val_main_v77 (F := Ideal) x0 x1 x2 x3 x4 x5 x7 x8) (val_main_v73 (F := Ideal) x0 x1 x2 x3 x4 x5 x6) β := by
  funext i
  obtain ⟨n, q, rfl⟩ : ∃ (n : Fin 50000) (q : Fin 128), i = ix2 n q := ⟨i 0, i 1, eq_ix2 i⟩
  rw [val_main_v84_apply, val_main_v81_apply, val_main_v80_apply, val_main_v83_apply, val_main_v82_apply]
  simp only [val_main_v78_apply, val_main_v79_apply]
  generalize val_main_v77 (F := Ideal) x0 x1 x2 x3 x4 x5 x7 x8 = w
  generalize val_main_v73 (F := Ideal) x0 x1 x2 x3 x4 x5 x6 = a
  show (∑ k : Fin 4, w (idx_main_v78 (lidx_main_v80 (idx_main_v81 (ix2 n q)) k)) * a (idx_main_v79 (ridx_main_v80 (idx_main_v81 (ix2 n q)) k))) + x9 (idx_main_v82 (idx_main_v83 (ix2 n q))) = (∑ b : Fin 4, w (ix2 n (wCol q b)) * a (ix2 n (aCol q b))) + β (ix2 (0 : Fin 1) q)
  rw [hβ q]
  have hb : idx_main_v82 (idx_main_v83 (ix2 n q)) = ix1 q := funext fun a => Fin.ext (by match a with | ⟨0, _⟩ => rfl)
  rw [hb]
  refine congrArg (fun s => s + x9 (ix1 q)) (Finset.sum_congr rfl fun k _ => ?_)
  have hn := n.isLt
  have hq := q.isLt
  have hk := k.isLt
  have hw : idx_main_v78 (lidx_main_v80 (idx_main_v81 (ix2 n q)) k) = ix2 n (wCol q k) := by
    funext a'; apply Fin.ext
    match a' with
    | ⟨0, _⟩ => show (((n.val * 128 + q.val) / 128 * 8 + (n.val * 128 + q.val) / 16 % 8) * 4 + k.val) / 32 = n.val; omega
    | ⟨1, _⟩ => show (((n.val * 128 + q.val) / 128 * 8 + (n.val * 128 + q.val) / 16 % 8) * 4 + k.val) % 32 = 4 * (q.val / 16) + k.val; omega
  have ha : idx_main_v79 (ridx_main_v80 (idx_main_v81 (ix2 n q)) k) = ix2 n (aCol q k) := by
    funext a'; apply Fin.ext
    match a' with
    | ⟨0, _⟩ => show (((n.val * 128 + q.val) / 128 * 4 + k.val) * 16 + (n.val * 128 + q.val) % 16) / 64 = n.val; omega
    | ⟨1, _⟩ => show (((n.val * 128 + q.val) / 128 * 4 + k.val) * 16 + (n.val * 128 + q.val) % 16) % 64 = 16 * k.val + q.val % 16; omega
  rw [hw, ha]

/-- The classifier: the two gathered endpoint tables joined side by side against the class matrix, plus the bias row. -/
theorem classified (x0 : S50000x128.Idx → EReal) (x1 : (⟨S2x800000, .i32⟩ : BufTy).Contents (Elt Ideal)) (x2 : S128x64.Idx → EReal) (x3 : S128x32.Idx → EReal) (x4 : S32.Idx → EReal) (x5 : S128.Idx → EReal) (x6 : S128x64.Idx → EReal) (x7 : S128x32.Idx → EReal) (x8 : S32.Idx → EReal) (x9 : S128.Idx → EReal) (x10 : S256x2.Idx → EReal) (x11 : S2.Idx → EReal)
    (β : S1x2.Idx → EReal) (hβ : ∀ q : Fin 2, β (ix2 (0 : Fin 1) q) = x11 (ix1 q)) :
    val_main_v107 (F := Ideal) x0 x1 x2 x3 x4 x5 x6 x7 x8 x9 x10 x11 = classifyOf (val_main_v93 (F := Ideal) x0 x1 x2 x3 x4 x5 x6 x7 x8 x9) (val_main_v102 (F := Ideal) x0 x1 x2 x3 x4 x5 x6 x7 x8 x9) x10 β := by
  funext i
  obtain ⟨n, q, rfl⟩ : ∃ (n : Fin 800000) (q : Fin 2), i = ix2 n q := ⟨i 0, i 1, eq_ix2 i⟩
  rw [val_main_v107_apply, val_main_v104_apply, val_main_v106_apply, val_main_v105_apply]
  unfold val_main_v103
  generalize val_main_v93 (F := Ideal) x0 x1 x2 x3 x4 x5 x6 x7 x8 x9 = h0
  generalize val_main_v102 (F := Ideal) x0 x1 x2 x3 x4 x5 x6 x7 x8 x9 = h1
  show (∑ k : Fin 256, concatenate S800000x256 1 [⟨S800000x128, h0⟩, ⟨S800000x128, h1⟩] concatenates_S800000x128_S800000x128_S800000x256_d1 (lidx_main_v104 (ix2 n q) k) * x10 (ridx_main_v104 (ix2 n q) k)) + x11 (idx_main_v105 (idx_main_v106 (ix2 n q)))
    = (∑ e : Fin 256, pairAt h0 h1 n e * x10 (ix2 e q)) + β (ix2 (0 : Fin 1) q)
  rw [hβ q]
  have hb : idx_main_v105 (idx_main_v106 (ix2 n q)) = ix1 q := funext fun a => Fin.ext (by match a with | ⟨0, _⟩ => rfl)
  rw [hb]
  refine congrArg (· + x11 (ix1 q)) (Finset.sum_congr rfl fun e _ => ?_)
  have hl : lidx_main_v104 (ix2 n q) e = ix2 n e := funext fun a => Fin.ext (by match a with | ⟨0, _⟩ => rfl | ⟨1, _⟩ => rfl)
  have hr : ridx_main_v104 (ix2 n q) e = ix2 e q := funext fun a => Fin.ext (by match a with | ⟨0, _⟩ => rfl | ⟨1, _⟩ => rfl)
  rw [hl, hr]
  exact congrArg (· * x10 (ix2 e q)) (concat_pair_apply h0 h1 concatenates_S800000x128_S800000x128_S800000x256_d1 n e)

end Cert.ReferenceIdeal.Bridge

end
-- ==== Proof.KeptA.lean ====
/-
  Buffers that outlive several boundaries, part one: the arguments read by the first two launches and the stretches
  before them. An argument is written by no host operation and by no launch, so at every boundary it holds its launch contents.
-/
import proofs.«126254_j86938728005820_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes holds after the stretch what it held before. -/
local macro "survives " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- `main_arg0` at boundary 1: no operation of the stretch before it writes it. -/
theorem main_arg0_W1 (c : Dev nD) : W1 m ρ c (Proc.devRef .tc main_arg0) = m ((c : Thread nD τ).loc main_arg0) :=
  (show W1 m ρ c (Proc.devRef .tc main_arg0) = W0 m ρ c (Proc.devRef .tc main_arg0) by survives hostOps0).trans (show W0 m ρ c (Proc.devRef .tc main_arg0) = m ((c : Thread nD τ).loc main_arg0) from rfl)

/-- `main_arg0` at boundary 2: no operation of the stretch before it writes it. -/
theorem main_arg0_W2 (c : Dev nD) : W2 m ρ c (Proc.devRef .tc main_arg0) = m ((c : Thread nD τ).loc main_arg0) :=
  (show W2 m ρ c (Proc.devRef .tc main_arg0) = W1 m ρ c (Proc.devRef .tc main_arg0) by survives hostOps0_1).trans (main_arg0_W1 m ρ c)

/-- `main_arg0` at boundary 3: no operation of the stretch before it writes it. -/
theorem main_arg0_W3 (c : Dev nD) : W3 m ρ c (Proc.devRef .tc main_arg0) = m ((c : Thread nD τ).loc main_arg0) :=
  (show W3 m ρ c (Proc.devRef .tc main_arg0) = W2 m ρ c (Proc.devRef .tc main_arg0) by survives hostOps0_2).trans (main_arg0_W2 m ρ c)

/-- `main_arg0` at boundary 4: no operation of the stretch before it writes it. -/
theorem main_arg0_W4 (c : Dev nD) : W4 m ρ c (Proc.devRef .tc main_arg0) = m ((c : Thread nD τ).loc main_arg0) :=
  (show W4 m ρ c (Proc.devRef .tc main_arg0) = W3 m ρ c (Proc.devRef .tc main_arg0) by survives hostOps0_3).trans (main_arg0_W3 m ρ c)

/-- `main_arg0` at boundary 5: no operation of the stretch before it writes it. -/
theorem main_arg0_W5 (c : Dev nD) : W5 m ρ c (Proc.devRef .tc main_arg0) = m ((c : Thread nD τ).loc main_arg0) :=
  (show W5 m ρ c (Proc.devRef .tc main_arg0) = W4 m ρ c (Proc.devRef .tc main_arg0) by survives hostOps0_4).trans (main_arg0_W4 m ρ c)

/-- `main_arg2` at boundary 1: no operation of the stretch before it writes it. -/
theorem main_arg2_W1 (c : Dev nD) : W1 m ρ c (Proc.devRef .tc main_arg2) = m ((c : Thread nD τ).loc main_arg2) :=
  (show W1 m ρ c (Proc.devRef .tc main_arg2) = W0 m ρ c (Proc.devRef .tc main_arg2) by survives hostOps0).trans (show W0 m ρ c (Proc.devRef .tc main_arg2) = m ((c : Thread nD τ).loc main_arg2) from rfl)

/-- `main_arg2` at boundary 2: no operation of the stretch before it writes it. -/
theorem main_arg2_W2 (c : Dev nD) : W2 m ρ c (Proc.devRef .tc main_arg2) = m ((c : Thread nD τ).loc main_arg2) :=
  (show W2 m ρ c (Proc.devRef .tc main_arg2) = W1 m ρ c (Proc.devRef .tc main_arg2) by survives hostOps0_1).trans (main_arg2_W1 m ρ c)

/-- `main_arg2` at boundary 3: no operation of the stretch before it writes it. -/
theorem main_arg2_W3 (c : Dev nD) : W3 m ρ c (Proc.devRef .tc main_arg2) = m ((c : Thread nD τ).loc main_arg2) :=
  (show W3 m ρ c (Proc.devRef .tc main_arg2) = W2 m ρ c (Proc.devRef .tc main_arg2) by survives hostOps0_2).trans (main_arg2_W2 m ρ c)

/-- `main_arg2` at boundary 4: no operation of the stretch before it writes it. -/
theorem main_arg2_W4 (c : Dev nD) : W4 m ρ c (Proc.devRef .tc main_arg2) = m ((c : Thread nD τ).loc main_arg2) :=
  (show W4 m ρ c (Proc.devRef .tc main_arg2) = W3 m ρ c (Proc.devRef .tc main_arg2) by survives hostOps0_3).trans (main_arg2_W3 m ρ c)

/-- `main_arg2` at boundary 5: no operation of the stretch before it writes it. -/
theorem main_arg2_W5 (c : Dev nD) : W5 m ρ c (Proc.devRef .tc main_arg2) = m ((c : Thread nD τ).loc main_arg2) :=
  (show W5 m ρ c (Proc.devRef .tc main_arg2) = W4 m ρ c (Proc.devRef .tc main_arg2) by survives hostOps0_4).trans (main_arg2_W4 m ρ c)

/-- `main_arg3` at boundary 1: no operation of the stretch before it writes it. -/
theorem main_arg3_W1 (c : Dev nD) : W1 m ρ c (Proc.devRef .tc main_arg3) = m ((c : Thread nD τ).loc main_arg3) :=
  (show W1 m ρ c (Proc.devRef .tc main_arg3) = W0 m ρ c (Proc.devRef .tc main_arg3) by survives hostOps0).trans (show W0 m ρ c (Proc.devRef .tc main_arg3) = m ((c : Thread nD τ).loc main_arg3) from rfl)

/-- `main_arg3` at boundary 2: no operation of the stretch before it writes it. -/
theorem main_arg3_W2 (c : Dev nD) : W2 m ρ c (Proc.devRef .tc main_arg3) = m ((c : Thread nD τ).loc main_arg3) :=
  (show W2 m ρ c (Proc.devRef .tc main_arg3) = W1 m ρ c (Proc.devRef .tc main_arg3) by survives hostOps0_1).trans (main_arg3_W1 m ρ c)

/-- `main_arg3` at boundary 3: no operation of the stretch before it writes it. -/
theorem main_arg3_W3 (c : Dev nD) : W3 m ρ c (Proc.devRef .tc main_arg3) = m ((c : Thread nD τ).loc main_arg3) :=
  (show W3 m ρ c (Proc.devRef .tc main_arg3) = W2 m ρ c (Proc.devRef .tc main_arg3) by survives hostOps0_2).trans (main_arg3_W2 m ρ c)

/-- `main_arg3` at boundary 4: no operation of the stretch before it writes it. -/
theorem main_arg3_W4 (c : Dev nD) : W4 m ρ c (Proc.devRef .tc main_arg3) = m ((c : Thread nD τ).loc main_arg3) :=
  (show W4 m ρ c (Proc.devRef .tc main_arg3) = W3 m ρ c (Proc.devRef .tc main_arg3) by survives hostOps0_3).trans (main_arg3_W3 m ρ c)

/-- `main_arg3` at boundary 5: no operation of the stretch before it writes it. -/
theorem main_arg3_W5 (c : Dev nD) : W5 m ρ c (Proc.devRef .tc main_arg3) = m ((c : Thread nD τ).loc main_arg3) :=
  (show W5 m ρ c (Proc.devRef .tc main_arg3) = W4 m ρ c (Proc.devRef .tc main_arg3) by survives hostOps0_4).trans (main_arg3_W4 m ρ c)

/-- `main_arg4` at boundary 1: no operation of the stretch before it writes it. -/
theorem main_arg4_W1 (c : Dev nD) : W1 m ρ c (Proc.devRef .tc main_arg4) = m ((c : Thread nD τ).loc main_arg4) :=
  (show W1 m ρ c (Proc.devRef .tc main_arg4) = W0 m ρ c (Proc.devRef .tc main_arg4) by survives hostOps0).trans (show W0 m ρ c (Proc.devRef .tc main_arg4) = m ((c : Thread nD τ).loc main_arg4) from rfl)

/-- `main_arg4` at boundary 2: no operation of the stretch before it writes it. -/
theorem main_arg4_W2 (c : Dev nD) : W2 m ρ c (Proc.devRef .tc main_arg4) = m ((c : Thread nD τ).loc main_arg4) :=
  (show W2 m ρ c (Proc.devRef .tc main_arg4) = W1 m ρ c (Proc.devRef .tc main_arg4) by survives hostOps0_1).trans (main_arg4_W1 m ρ c)

/-- `main_arg4` at boundary 3: no operation of the stretch before it writes it. -/
theorem main_arg4_W3 (c : Dev nD) : W3 m ρ c (Proc.devRef .tc main_arg4) = m ((c : Thread nD τ).loc main_arg4) :=
  (show W3 m ρ c (Proc.devRef .tc main_arg4) = W2 m ρ c (Proc.devRef .tc main_arg4) by survives hostOps0_2).trans (main_arg4_W2 m ρ c)

/-- `main_arg4` at boundary 4: no operation of the stretch before it writes it. -/
theorem main_arg4_W4 (c : Dev nD) : W4 m ρ c (Proc.devRef .tc main_arg4) = m ((c : Thread nD τ).loc main_arg4) :=
  (show W4 m ρ c (Proc.devRef .tc main_arg4) = W3 m ρ c (Proc.devRef .tc main_arg4) by survives hostOps0_3).trans (main_arg4_W3 m ρ c)

/-- `main_arg5` at boundary 1: no operation of the stretch before it writes it. -/
theorem main_arg5_W1 (c : Dev nD) : W1 m ρ c (Proc.devRef .tc main_arg5) = m ((c : Thread nD τ).loc main_arg5) :=
  (show W1 m ρ c (Proc.devRef .tc main_arg5) = W0 m ρ c (Proc.devRef .tc main_arg5) by survives hostOps0).trans (show W0 m ρ c (Proc.devRef .tc main_arg5) = m ((c : Thread nD τ).loc main_arg5) from rfl)

/-- `main_arg5` at boundary 2: no operation of the stretch before it writes it. -/
theorem main_arg5_W2 (c : Dev nD) : W2 m ρ c (Proc.devRef .tc main_arg5) = m ((c : Thread nD τ).loc main_arg5) :=
  (show W2 m ρ c (Proc.devRef .tc main_arg5) = W1 m ρ c (Proc.devRef .tc main_arg5) by survives hostOps0_1).trans (main_arg5_W1 m ρ c)

/-- `main_arg5` at boundary 3: no operation of the stretch before it writes it. -/
theorem main_arg5_W3 (c : Dev nD) : W3 m ρ c (Proc.devRef .tc main_arg5) = m ((c : Thread nD τ).loc main_arg5) :=
  (show W3 m ρ c (Proc.devRef .tc main_arg5) = W2 m ρ c (Proc.devRef .tc main_arg5) by survives hostOps0_2).trans (main_arg5_W2 m ρ c)

/-- `main_arg5` at boundary 4: no operation of the stretch before it writes it. -/
theorem main_arg5_W4 (c : Dev nD) : W4 m ρ c (Proc.devRef .tc main_arg5) = m ((c : Thread nD τ).loc main_arg5) :=
  (show W4 m ρ c (Proc.devRef .tc main_arg5) = W3 m ρ c (Proc.devRef .tc main_arg5) by survives hostOps0_3).trans (main_arg5_W3 m ρ c)

/-- `main_arg5` at boundary 5: no operation of the stretch before it writes it. -/
theorem main_arg5_W5 (c : Dev nD) : W5 m ρ c (Proc.devRef .tc main_arg5) = m ((c : Thread nD τ).loc main_arg5) :=
  (show W5 m ρ c (Proc.devRef .tc main_arg5) = W4 m ρ c (Proc.devRef .tc main_arg5) by survives hostOps0_4).trans (main_arg5_W4 m ρ c)

/-- `main_arg5` at boundary 6: no operation of the launch before it writes it. -/
theorem main_arg5_W6 (c : Dev nD) : W6 m ρ c (Proc.devRef .tc main_arg5) = m ((c : Thread nD τ).loc main_arg5) :=
  (W6_of_ne m ρ c main_arg5 (by decide)).trans (main_arg5_W5 m ρ c)

end Cert.KernelIdeal.Kept

end
-- ==== Proof.KeptB.lean ====
/-
  Buffers that outlive several boundaries, part two: the arguments read by the third and fourth launches and the
  stretches before them.
-/
import proofs.«126254_j86938728005820_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes holds after the stretch what it held before. -/
local macro "survives " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- `main_arg6` at boundary 1: no operation of the stretch before it writes it. -/
theorem main_arg6_W1 (c : Dev nD) : W1 m ρ c (Proc.devRef .tc main_arg6) = m ((c : Thread nD τ).loc main_arg6) :=
  (show W1 m ρ c (Proc.devRef .tc main_arg6) = W0 m ρ c (Proc.devRef .tc main_arg6) by survives hostOps0).trans (show W0 m ρ c (Proc.devRef .tc main_arg6) = m ((c : Thread nD τ).loc main_arg6) from rfl)

/-- `main_arg6` at boundary 2: no operation of the stretch before it writes it. -/
theorem main_arg6_W2 (c : Dev nD) : W2 m ρ c (Proc.devRef .tc main_arg6) = m ((c : Thread nD τ).loc main_arg6) :=
  (show W2 m ρ c (Proc.devRef .tc main_arg6) = W1 m ρ c (Proc.devRef .tc main_arg6) by survives hostOps0_1).trans (main_arg6_W1 m ρ c)

/-- `main_arg6` at boundary 3: no operation of the stretch before it writes it. -/
theorem main_arg6_W3 (c : Dev nD) : W3 m ρ c (Proc.devRef .tc main_arg6) = m ((c : Thread nD τ).loc main_arg6) :=
  (show W3 m ρ c (Proc.devRef .tc main_arg6) = W2 m ρ c (Proc.devRef .tc main_arg6) by survives hostOps0_2).trans (main_arg6_W2 m ρ c)

/-- `main_arg6` at boundary 4: no operation of the stretch before it writes it. -/
theorem main_arg6_W4 (c : Dev nD) : W4 m ρ c (Proc.devRef .tc main_arg6) = m ((c : Thread nD τ).loc main_arg6) :=
  (show W4 m ρ c (Proc.devRef .tc main_arg6) = W3 m ρ c (Proc.devRef .tc main_arg6) by survives hostOps0_3).trans (main_arg6_W3 m ρ c)

/-- `main_arg6` at boundary 5: no operation of the stretch before it writes it. -/
theorem main_arg6_W5 (c : Dev nD) : W5 m ρ c (Proc.devRef .tc main_arg6) = m ((c : Thread nD τ).loc main_arg6) :=
  (show W5 m ρ c (Proc.devRef .tc main_arg6) = W4 m ρ c (Proc.devRef .tc main_arg6) by survives hostOps0_4).trans (main_arg6_W4 m ρ c)

/-- `main_arg6` at boundary 6: no operation of the launch before it writes it. -/
theorem main_arg6_W6 (c : Dev nD) : W6 m ρ c (Proc.devRef .tc main_arg6) = m ((c : Thread nD τ).loc main_arg6) :=
  (W6_of_ne m ρ c main_arg6 (by decide)).trans (main_arg6_W5 m ρ c)

/-- `main_arg6` at boundary 7: no operation of the stretch before it writes it. -/
theorem main_arg6_W7 (c : Dev nD) : W7 m ρ c (Proc.devRef .tc main_arg6) = m ((c : Thread nD τ).loc main_arg6) :=
  (show W7 m ρ c (Proc.devRef .tc main_arg6) = W6 m ρ c (Proc.devRef .tc main_arg6) by survives hostOps1).trans (main_arg6_W6 m ρ c)

/-- `main_arg6` at boundary 8: no operation of the launch before it writes it. -/
theorem main_arg6_W8 (c : Dev nD) : W8 m ρ c (Proc.devRef .tc main_arg6) = m ((c : Thread nD τ).loc main_arg6) :=
  (W8_of_ne m ρ c main_arg6 (by decide)).trans (main_arg6_W7 m ρ c)

/-- `main_arg6` at boundary 9: no operation of the stretch before it writes it. -/
theorem main_arg6_W9 (c : Dev nD) : W9 m ρ c (Proc.devRef .tc main_arg6) = m ((c : Thread nD τ).loc main_arg6) :=
  (show W9 m ρ c (Proc.devRef .tc main_arg6) = W8 m ρ c (Proc.devRef .tc main_arg6) by survives hostOps2).trans (main_arg6_W8 m ρ c)

/-- `main_arg7` at boundary 1: no operation of the stretch before it writes it. -/
theorem main_arg7_W1 (c : Dev nD) : W1 m ρ c (Proc.devRef .tc main_arg7) = m ((c : Thread nD τ).loc main_arg7) :=
  (show W1 m ρ c (Proc.devRef .tc main_arg7) = W0 m ρ c (Proc.devRef .tc main_arg7) by survives hostOps0).trans (show W0 m ρ c (Proc.devRef .tc main_arg7) = m ((c : Thread nD τ).loc main_arg7) from rfl)

/-- `main_arg7` at boundary 2: no operation of the stretch before it writes it. -/
theorem main_arg7_W2 (c : Dev nD) : W2 m ρ c (Proc.devRef .tc main_arg7) = m ((c : Thread nD τ).loc main_arg7) :=
  (show W2 m ρ c (Proc.devRef .tc main_arg7) = W1 m ρ c (Proc.devRef .tc main_arg7) by survives hostOps0_1).trans (main_arg7_W1 m ρ c)

/-- `main_arg7` at boundary 3: no operation of the stretch before it writes it. -/
theorem main_arg7_W3 (c : Dev nD) : W3 m ρ c (Proc.devRef .tc main_arg7) = m ((c : Thread nD τ).loc main_arg7) :=
  (show W3 m ρ c (Proc.devRef .tc main_arg7) = W2 m ρ c (Proc.devRef .tc main_arg7) by survives hostOps0_2).trans (main_arg7_W2 m ρ c)

/-- `main_arg7` at boundary 4: no operation of the stretch before it writes it. -/
theorem main_arg7_W4 (c : Dev nD) : W4 m ρ c (Proc.devRef .tc main_arg7) = m ((c : Thread nD τ).loc main_arg7) :=
  (show W4 m ρ c (Proc.devRef .tc main_arg7) = W3 m ρ c (Proc.devRef .tc main_arg7) by survives hostOps0_3).trans (main_arg7_W3 m ρ c)

/-- `main_arg7` at boundary 5: no operation of the stretch before it writes it. -/
theorem main_arg7_W5 (c : Dev nD) : W5 m ρ c (Proc.devRef .tc main_arg7) = m ((c : Thread nD τ).loc main_arg7) :=
  (show W5 m ρ c (Proc.devRef .tc main_arg7) = W4 m ρ c (Proc.devRef .tc main_arg7) by survives hostOps0_4).trans (main_arg7_W4 m ρ c)

/-- `main_arg7` at boundary 6: no operation of the launch before it writes it. -/
theorem main_arg7_W6 (c : Dev nD) : W6 m ρ c (Proc.devRef .tc main_arg7) = m ((c : Thread nD τ).loc main_arg7) :=
  (W6_of_ne m ρ c main_arg7 (by decide)).trans (main_arg7_W5 m ρ c)

/-- `main_arg7` at boundary 7: no operation of the stretch before it writes it. -/
theorem main_arg7_W7 (c : Dev nD) : W7 m ρ c (Proc.devRef .tc main_arg7) = m ((c : Thread nD τ).loc main_arg7) :=
  (show W7 m ρ c (Proc.devRef .tc main_arg7) = W6 m ρ c (Proc.devRef .tc main_arg7) by survives hostOps1).trans (main_arg7_W6 m ρ c)

/-- `main_arg7` at boundary 8: no operation of the launch before it writes it. -/
theorem main_arg7_W8 (c : Dev nD) : W8 m ρ c (Proc.devRef .tc main_arg7) = m ((c : Thread nD τ).loc main_arg7) :=
  (W8_of_ne m ρ c main_arg7 (by decide)).trans (main_arg7_W7 m ρ c)

/-- `main_arg7` at boundary 9: no operation of the stretch before it writes it. -/
theorem main_arg7_W9 (c : Dev nD) : W9 m ρ c (Proc.devRef .tc main_arg7) = m ((c : Thread nD τ).loc main_arg7) :=
  (show W9 m ρ c (Proc.devRef .tc main_arg7) = W8 m ρ c (Proc.devRef .tc main_arg7) by survives hostOps2).trans (main_arg7_W8 m ρ c)

/-- `main_arg8` at boundary 1: no operation of the stretch before it writes it. -/
theorem main_arg8_W1 (c : Dev nD) : W1 m ρ c (Proc.devRef .tc main_arg8) = m ((c : Thread nD τ).loc main_arg8) :=
  (show W1 m ρ c (Proc.devRef .tc main_arg8) = W0 m ρ c (Proc.devRef .tc main_arg8) by survives hostOps0).trans (show W0 m ρ c (Proc.devRef .tc main_arg8) = m ((c : Thread nD τ).loc main_arg8) from rfl)

/-- `main_arg8` at boundary 2: no operation of the stretch before it writes it. -/
theorem main_arg8_W2 (c : Dev nD) : W2 m ρ c (Proc.devRef .tc main_arg8) = m ((c : Thread nD τ).loc main_arg8) :=
  (show W2 m ρ c (Proc.devRef .tc main_arg8) = W1 m ρ c (Proc.devRef .tc main_arg8) by survives hostOps0_1).trans (main_arg8_W1 m ρ c)

/-- `main_arg8` at boundary 3: no operation of the stretch before it writes it. -/
theorem main_arg8_W3 (c : Dev nD) : W3 m ρ c (Proc.devRef .tc main_arg8) = m ((c : Thread nD τ).loc main_arg8) :=
  (show W3 m ρ c (Proc.devRef .tc main_arg8) = W2 m ρ c (Proc.devRef .tc main_arg8) by survives hostOps0_2).trans (main_arg8_W2 m ρ c)

/-- `main_arg8` at boundary 4: no operation of the stretch before it writes it. -/
theorem main_arg8_W4 (c : Dev nD) : W4 m ρ c (Proc.devRef .tc main_arg8) = m ((c : Thread nD τ).loc main_arg8) :=
  (show W4 m ρ c (Proc.devRef .tc main_arg8) = W3 m ρ c (Proc.devRef .tc main_arg8) by survives hostOps0_3).trans (main_arg8_W3 m ρ c)

/-- `main_arg8` at boundary 5: no operation of the stretch before it writes it. -/
theorem main_arg8_W5 (c : Dev nD) : W5 m ρ c (Proc.devRef .tc main_arg8) = m ((c : Thread nD τ).loc main_arg8) :=
  (show W5 m ρ c (Proc.devRef .tc main_arg8) = W4 m ρ c (Proc.devRef .tc main_arg8) by survives hostOps0_4).trans (main_arg8_W4 m ρ c)

/-- `main_arg8` at boundary 6: no operation of the launch before it writes it. -/
theorem main_arg8_W6 (c : Dev nD) : W6 m ρ c (Proc.devRef .tc main_arg8) = m ((c : Thread nD τ).loc main_arg8) :=
  (W6_of_ne m ρ c main_arg8 (by decide)).trans (main_arg8_W5 m ρ c)

/-- `main_arg8` at boundary 7: no operation of the stretch before it writes it. -/
theorem main_arg8_W7 (c : Dev nD) : W7 m ρ c (Proc.devRef .tc main_arg8) = m ((c : Thread nD τ).loc main_arg8) :=
  (show W7 m ρ c (Proc.devRef .tc main_arg8) = W6 m ρ c (Proc.devRef .tc main_arg8) by survives hostOps1).trans (main_arg8_W6 m ρ c)

/-- `main_arg8` at boundary 8: no operation of the launch before it writes it. -/
theorem main_arg8_W8 (c : Dev nD) : W8 m ρ c (Proc.devRef .tc main_arg8) = m ((c : Thread nD τ).loc main_arg8) :=
  (W8_of_ne m ρ c main_arg8 (by decide)).trans (main_arg8_W7 m ρ c)

/-- `main_arg9` at boundary 1: no operation of the stretch before it writes it. -/
theorem main_arg9_W1 (c : Dev nD) : W1 m ρ c (Proc.devRef .tc main_arg9) = m ((c : Thread nD τ).loc main_arg9) :=
  (show W1 m ρ c (Proc.devRef .tc main_arg9) = W0 m ρ c (Proc.devRef .tc main_arg9) by survives hostOps0).trans (show W0 m ρ c (Proc.devRef .tc main_arg9) = m ((c : Thread nD τ).loc main_arg9) from rfl)

/-- `main_arg9` at boundary 2: no operation of the stretch before it writes it. -/
theorem main_arg9_W2 (c : Dev nD) : W2 m ρ c (Proc.devRef .tc main_arg9) = m ((c : Thread nD τ).loc main_arg9) :=
  (show W2 m ρ c (Proc.devRef .tc main_arg9) = W1 m ρ c (Proc.devRef .tc main_arg9) by survives hostOps0_1).trans (main_arg9_W1 m ρ c)

/-- `main_arg9` at boundary 3: no operation of the stretch before it writes it. -/
theorem main_arg9_W3 (c : Dev nD) : W3 m ρ c (Proc.devRef .tc main_arg9) = m ((c : Thread nD τ).loc main_arg9) :=
  (show W3 m ρ c (Proc.devRef .tc main_arg9) = W2 m ρ c (Proc.devRef .tc main_arg9) by survives hostOps0_2).trans (main_arg9_W2 m ρ c)

/-- `main_arg9` at boundary 4: no operation of the stretch before it writes it. -/
theorem main_arg9_W4 (c : Dev nD) : W4 m ρ c (Proc.devRef .tc main_arg9) = m ((c : Thread nD τ).loc main_arg9) :=
  (show W4 m ρ c (Proc.devRef .tc main_arg9) = W3 m ρ c (Proc.devRef .tc main_arg9) by survives hostOps0_3).trans (main_arg9_W3 m ρ c)

/-- `main_arg9` at boundary 5: no operation of the stretch before it writes it. -/
theorem main_arg9_W5 (c : Dev nD) : W5 m ρ c (Proc.devRef .tc main_arg9) = m ((c : Thread nD τ).loc main_arg9) :=
  (show W5 m ρ c (Proc.devRef .tc main_arg9) = W4 m ρ c (Proc.devRef .tc main_arg9) by survives hostOps0_4).trans (main_arg9_W4 m ρ c)

/-- `main_arg9` at boundary 6: no operation of the launch before it writes it. -/
theorem main_arg9_W6 (c : Dev nD) : W6 m ρ c (Proc.devRef .tc main_arg9) = m ((c : Thread nD τ).loc main_arg9) :=
  (W6_of_ne m ρ c main_arg9 (by decide)).trans (main_arg9_W5 m ρ c)

/-- `main_arg9` at boundary 7: no operation of the stretch before it writes it. -/
theorem main_arg9_W7 (c : Dev nD) : W7 m ρ c (Proc.devRef .tc main_arg9) = m ((c : Thread nD τ).loc main_arg9) :=
  (show W7 m ρ c (Proc.devRef .tc main_arg9) = W6 m ρ c (Proc.devRef .tc main_arg9) by survives hostOps1).trans (main_arg9_W6 m ρ c)

/-- `main_arg9` at boundary 8: no operation of the launch before it writes it. -/
theorem main_arg9_W8 (c : Dev nD) : W8 m ρ c (Proc.devRef .tc main_arg9) = m ((c : Thread nD τ).loc main_arg9) :=
  (W8_of_ne m ρ c main_arg9 (by decide)).trans (main_arg9_W7 m ρ c)

/-- `main_arg9` at boundary 9: no operation of the stretch before it writes it. -/
theorem main_arg9_W9 (c : Dev nD) : W9 m ρ c (Proc.devRef .tc main_arg9) = m ((c : Thread nD τ).loc main_arg9) :=
  (show W9 m ρ c (Proc.devRef .tc main_arg9) = W8 m ρ c (Proc.devRef .tc main_arg9) by survives hostOps2).trans (main_arg9_W8 m ρ c)

/-- `main_arg9` at boundary 10: no operation of the launch before it writes it. -/
theorem main_arg9_W10 (c : Dev nD) : W10 m ρ c (Proc.devRef .tc main_arg9) = m ((c : Thread nD τ).loc main_arg9) :=
  (W10_of_ne m ρ c main_arg9 (by decide)).trans (main_arg9_W9 m ρ c)

end Cert.KernelIdeal.Kept

end
-- ==== Proof.KeptC.lean ====
/-
  Buffers that outlive several boundaries, part three: the edge list and the classifier's arguments, read again just
  before the last launch.
-/
import proofs.«126254_j86938728005820_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes holds after the stretch what it held before. -/
local macro "survives " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- `main_arg1` at boundary 1: no operation of the stretch before it writes it. -/
theorem main_arg1_W1 (c : Dev nD) : W1 m ρ c (Proc.devRef .tc main_arg1) = m ((c : Thread nD τ).loc main_arg1) :=
  (show W1 m ρ c (Proc.devRef .tc main_arg1) = W0 m ρ c (Proc.devRef .tc main_arg1) by survives hostOps0).trans (show W0 m ρ c (Proc.devRef .tc main_arg1) = m ((c : Thread nD τ).loc main_arg1) from rfl)

/-- `main_arg1` at boundary 2: no operation of the stretch before it writes it. -/
theorem main_arg1_W2 (c : Dev nD) : W2 m ρ c (Proc.devRef .tc main_arg1) = m ((c : Thread nD τ).loc main_arg1) :=
  (show W2 m ρ c (Proc.devRef .tc main_arg1) = W1 m ρ c (Proc.devRef .tc main_arg1) by survives hostOps0_1).trans (main_arg1_W1 m ρ c)

/-- `main_arg1` at boundary 3: no operation of the stretch before it writes it. -/
theorem main_arg1_W3 (c : Dev nD) : W3 m ρ c (Proc.devRef .tc main_arg1) = m ((c : Thread nD τ).loc main_arg1) :=
  (show W3 m ρ c (Proc.devRef .tc main_arg1) = W2 m ρ c (Proc.devRef .tc main_arg1) by survives hostOps0_2).trans (main_arg1_W2 m ρ c)

/-- `main_arg1` at boundary 4: no operation of the stretch before it writes it. -/
theorem main_arg1_W4 (c : Dev nD) : W4 m ρ c (Proc.devRef .tc main_arg1) = m ((c : Thread nD τ).loc main_arg1) :=
  (show W4 m ρ c (Proc.devRef .tc main_arg1) = W3 m ρ c (Proc.devRef .tc main_arg1) by survives hostOps0_3).trans (main_arg1_W3 m ρ c)

/-- `main_arg1` at boundary 5: no operation of the stretch before it writes it. -/
theorem main_arg1_W5 (c : Dev nD) : W5 m ρ c (Proc.devRef .tc main_arg1) = m ((c : Thread nD τ).loc main_arg1) :=
  (show W5 m ρ c (Proc.devRef .tc main_arg1) = W4 m ρ c (Proc.devRef .tc main_arg1) by survives hostOps0_4).trans (main_arg1_W4 m ρ c)

/-- `main_arg1` at boundary 6: no operation of the launch before it writes it. -/
theorem main_arg1_W6 (c : Dev nD) : W6 m ρ c (Proc.devRef .tc main_arg1) = m ((c : Thread nD τ).loc main_arg1) :=
  (W6_of_ne m ρ c main_arg1 (by decide)).trans (main_arg1_W5 m ρ c)

/-- `main_arg1` at boundary 7: no operation of the stretch before it writes it. -/
theorem main_arg1_W7 (c : Dev nD) : W7 m ρ c (Proc.devRef .tc main_arg1) = m ((c : Thread nD τ).loc main_arg1) :=
  (show W7 m ρ c (Proc.devRef .tc main_arg1) = W6 m ρ c (Proc.devRef .tc main_arg1) by survives hostOps1).trans (main_arg1_W6 m ρ c)

/-- `main_arg1` at boundary 8: no operation of the launch before it writes it. -/
theorem main_arg1_W8 (c : Dev nD) : W8 m ρ c (Proc.devRef .tc main_arg1) = m ((c : Thread nD τ).loc main_arg1) :=
  (W8_of_ne m ρ c main_arg1 (by decide)).trans (main_arg1_W7 m ρ c)

/-- `main_arg1` at boundary 9: no operation of the stretch before it writes it. -/
theorem main_arg1_W9 (c : Dev nD) : W9 m ρ c (Proc.devRef .tc main_arg1) = m ((c : Thread nD τ).loc main_arg1) :=
  (show W9 m ρ c (Proc.devRef .tc main_arg1) = W8 m ρ c (Proc.devRef .tc main_arg1) by survives hostOps2).trans (main_arg1_W8 m ρ c)

/-- `main_arg1` at boundary 10: no operation of the launch before it writes it. -/
theorem main_arg1_W10 (c : Dev nD) : W10 m ρ c (Proc.devRef .tc main_arg1) = m ((c : Thread nD τ).loc main_arg1) :=
  (W10_of_ne m ρ c main_arg1 (by decide)).trans (main_arg1_W9 m ρ c)

/-- `main_arg1` at boundary 11: no operation of the stretch before it writes it. -/
theorem main_arg1_W11 (c : Dev nD) : W11 m ρ c (Proc.devRef .tc main_arg1) = m ((c : Thread nD τ).loc main_arg1) :=
  (show W11 m ρ c (Proc.devRef .tc main_arg1) = W10 m ρ c (Proc.devRef .tc main_arg1) by survives hostOps3).trans (main_arg1_W10 m ρ c)

/-- `main_arg1` at boundary 12: no operation of the launch before it writes it. -/
theorem main_arg1_W12 (c : Dev nD) : W12 m ρ c (Proc.devRef .tc main_arg1) = m ((c : Thread nD τ).loc main_arg1) :=
  (W12_of_ne m ρ c main_arg1 (by decide)).trans (main_arg1_W11 m ρ c)

/-- `main_arg10` at boundary 1: no operation of the stretch before it writes it. -/
theorem main_arg10_W1 (c : Dev nD) : W1 m ρ c (Proc.devRef .tc main_arg10) = m ((c : Thread nD τ).loc main_arg10) :=
  (show W1 m ρ c (Proc.devRef .tc main_arg10) = W0 m ρ c (Proc.devRef .tc main_arg10) by survives hostOps0).trans (show W0 m ρ c (Proc.devRef .tc main_arg10) = m ((c : Thread nD τ).loc main_arg10) from rfl)

/-- `main_arg10` at boundary 2: no operation of the stretch before it writes it. -/
theorem main_arg10_W2 (c : Dev nD) : W2 m ρ c (Proc.devRef .tc main_arg10) = m ((c : Thread nD τ).loc main_arg10) :=
  (show W2 m ρ c (Proc.devRef .tc main_arg10) = W1 m ρ c (Proc.devRef .tc main_arg10) by survives hostOps0_1).trans (main_arg10_W1 m ρ c)

/-- `main_arg10` at boundary 3: no operation of the stretch before it writes it. -/
theorem main_arg10_W3 (c : Dev nD) : W3 m ρ c (Proc.devRef .tc main_arg10) = m ((c : Thread nD τ).loc main_arg10) :=
  (show W3 m ρ c (Proc.devRef .tc main_arg10) = W2 m ρ c (Proc.devRef .tc main_arg10) by survives hostOps0_2).trans (main_arg10_W2 m ρ c)

/-- `main_arg10` at boundary 4: no operation of the stretch before it writes it. -/
theorem main_arg10_W4 (c : Dev nD) : W4 m ρ c (Proc.devRef .tc main_arg10) = m ((c : Thread nD τ).loc main_arg10) :=
  (show W4 m ρ c (Proc.devRef .tc main_arg10) = W3 m ρ c (Proc.devRef .tc main_arg10) by survives hostOps0_3).trans (main_arg10_W3 m ρ c)

/-- `main_arg10` at boundary 5: no operation of the stretch before it writes it. -/
theorem main_arg10_W5 (c : Dev nD) : W5 m ρ c (Proc.devRef .tc main_arg10) = m ((c : Thread nD τ).loc main_arg10) :=
  (show W5 m ρ c (Proc.devRef .tc main_arg10) = W4 m ρ c (Proc.devRef .tc main_arg10) by survives hostOps0_4).trans (main_arg10_W4 m ρ c)

/-- `main_arg10` at boundary 6: no operation of the launch before it writes it. -/
theorem main_arg10_W6 (c : Dev nD) : W6 m ρ c (Proc.devRef .tc main_arg10) = m ((c : Thread nD τ).loc main_arg10) :=
  (W6_of_ne m ρ c main_arg10 (by decide)).trans (main_arg10_W5 m ρ c)

/-- `main_arg10` at boundary 7: no operation of the stretch before it writes it. -/
theorem main_arg10_W7 (c : Dev nD) : W7 m ρ c (Proc.devRef .tc main_arg10) = m ((c : Thread nD τ).loc main_arg10) :=
  (show W7 m ρ c (Proc.devRef .tc main_arg10) = W6 m ρ c (Proc.devRef .tc main_arg10) by survives hostOps1).trans (main_arg10_W6 m ρ c)

/-- `main_arg10` at boundary 8: no operation of the launch before it writes it. -/
theorem main_arg10_W8 (c : Dev nD) : W8 m ρ c (Proc.devRef .tc main_arg10) = m ((c : Thread nD τ).loc main_arg10) :=
  (W8_of_ne m ρ c main_arg10 (by decide)).trans (main_arg10_W7 m ρ c)

/-- `main_arg10` at boundary 9: no operation of the stretch before it writes it. -/
theorem main_arg10_W9 (c : Dev nD) : W9 m ρ c (Proc.devRef .tc main_arg10) = m ((c : Thread nD τ).loc main_arg10) :=
  (show W9 m ρ c (Proc.devRef .tc main_arg10) = W8 m ρ c (Proc.devRef .tc main_arg10) by survives hostOps2).trans (main_arg10_W8 m ρ c)

/-- `main_arg10` at boundary 10: no operation of the launch before it writes it. -/
theorem main_arg10_W10 (c : Dev nD) : W10 m ρ c (Proc.devRef .tc main_arg10) = m ((c : Thread nD τ).loc main_arg10) :=
  (W10_of_ne m ρ c main_arg10 (by decide)).trans (main_arg10_W9 m ρ c)

/-- `main_arg10` at boundary 11: no operation of the stretch before it writes it. -/
theorem main_arg10_W11 (c : Dev nD) : W11 m ρ c (Proc.devRef .tc main_arg10) = m ((c : Thread nD τ).loc main_arg10) :=
  (show W11 m ρ c (Proc.devRef .tc main_arg10) = W10 m ρ c (Proc.devRef .tc main_arg10) by survives hostOps3).trans (main_arg10_W10 m ρ c)

/-- `main_arg10` at boundary 12: no operation of the launch before it writes it. -/
theorem main_arg10_W12 (c : Dev nD) : W12 m ρ c (Proc.devRef .tc main_arg10) = m ((c : Thread nD τ).loc main_arg10) :=
  (W12_of_ne m ρ c main_arg10 (by decide)).trans (main_arg10_W11 m ρ c)

/-- `main_arg10` at boundary 13: no operation of the stretch before it writes it. -/
theorem main_arg10_W13 (c : Dev nD) : W13 m ρ c (Proc.devRef .tc main_arg10) = m ((c : Thread nD τ).loc main_arg10) :=
  (show W13 m ρ c (Proc.devRef .tc main_arg10) = W12 m ρ c (Proc.devRef .tc main_arg10) by survives hostOps4).trans (main_arg10_W12 m ρ c)

/-- `main_arg11` at boundary 1: no operation of the stretch before it writes it. -/
theorem main_arg11_W1 (c : Dev nD) : W1 m ρ c (Proc.devRef .tc main_arg11) = m ((c : Thread nD τ).loc main_arg11) :=
  (show W1 m ρ c (Proc.devRef .tc main_arg11) = W0 m ρ c (Proc.devRef .tc main_arg11) by survives hostOps0).trans (show W0 m ρ c (Proc.devRef .tc main_arg11) = m ((c : Thread nD τ).loc main_arg11) from rfl)

/-- `main_arg11` at boundary 2: no operation of the stretch before it writes it. -/
theorem main_arg11_W2 (c : Dev nD) : W2 m ρ c (Proc.devRef .tc main_arg11) = m ((c : Thread nD τ).loc main_arg11) :=
  (show W2 m ρ c (Proc.devRef .tc main_arg11) = W1 m ρ c (Proc.devRef .tc main_arg11) by survives hostOps0_1).trans (main_arg11_W1 m ρ c)

/-- `main_arg11` at boundary 3: no operation of the stretch before it writes it. -/
theorem main_arg11_W3 (c : Dev nD) : W3 m ρ c (Proc.devRef .tc main_arg11) = m ((c : Thread nD τ).loc main_arg11) :=
  (show W3 m ρ c (Proc.devRef .tc main_arg11) = W2 m ρ c (Proc.devRef .tc main_arg11) by survives hostOps0_2).trans (main_arg11_W2 m ρ c)

/-- `main_arg11` at boundary 4: no operation of the stretch before it writes it. -/
theorem main_arg11_W4 (c : Dev nD) : W4 m ρ c (Proc.devRef .tc main_arg11) = m ((c : Thread nD τ).loc main_arg11) :=
  (show W4 m ρ c (Proc.devRef .tc main_arg11) = W3 m ρ c (Proc.devRef .tc main_arg11) by survives hostOps0_3).trans (main_arg11_W3 m ρ c)

/-- `main_arg11` at boundary 5: no operation of the stretch before it writes it. -/
theorem main_arg11_W5 (c : Dev nD) : W5 m ρ c (Proc.devRef .tc main_arg11) = m ((c : Thread nD τ).loc main_arg11) :=
  (show W5 m ρ c (Proc.devRef .tc main_arg11) = W4 m ρ c (Proc.devRef .tc main_arg11) by survives hostOps0_4).trans (main_arg11_W4 m ρ c)

/-- `main_arg11` at boundary 6: no operation of the launch before it writes it. -/
theorem main_arg11_W6 (c : Dev nD) : W6 m ρ c (Proc.devRef .tc main_arg11) = m ((c : Thread nD τ).loc main_arg11) :=
  (W6_of_ne m ρ c main_arg11 (by decide)).trans (main_arg11_W5 m ρ c)

/-- `main_arg11` at boundary 7: no operation of the stretch before it writes it. -/
theorem main_arg11_W7 (c : Dev nD) : W7 m ρ c (Proc.devRef .tc main_arg11) = m ((c : Thread nD τ).loc main_arg11) :=
  (show W7 m ρ c (Proc.devRef .tc main_arg11) = W6 m ρ c (Proc.devRef .tc main_arg11) by survives hostOps1).trans (main_arg11_W6 m ρ c)

/-- `main_arg11` at boundary 8: no operation of the launch before it writes it. -/
theorem main_arg11_W8 (c : Dev nD) : W8 m ρ c (Proc.devRef .tc main_arg11) = m ((c : Thread nD τ).loc main_arg11) :=
  (W8_of_ne m ρ c main_arg11 (by decide)).trans (main_arg11_W7 m ρ c)

/-- `main_arg11` at boundary 9: no operation of the stretch before it writes it. -/
theorem main_arg11_W9 (c : Dev nD) : W9 m ρ c (Proc.devRef .tc main_arg11) = m ((c : Thread nD τ).loc main_arg11) :=
  (show W9 m ρ c (Proc.devRef .tc main_arg11) = W8 m ρ c (Proc.devRef .tc main_arg11) by survives hostOps2).trans (main_arg11_W8 m ρ c)

/-- `main_arg11` at boundary 10: no operation of the launch before it writes it. -/
theorem main_arg11_W10 (c : Dev nD) : W10 m ρ c (Proc.devRef .tc main_arg11) = m ((c : Thread nD τ).loc main_arg11) :=
  (W10_of_ne m ρ c main_arg11 (by decide)).trans (main_arg11_W9 m ρ c)

/-- `main_arg11` at boundary 11: no operation of the stretch before it writes it. -/
theorem main_arg11_W11 (c : Dev nD) : W11 m ρ c (Proc.devRef .tc main_arg11) = m ((c : Thread nD τ).loc main_arg11) :=
  (show W11 m ρ c (Proc.devRef .tc main_arg11) = W10 m ρ c (Proc.devRef .tc main_arg11) by survives hostOps3).trans (main_arg11_W10 m ρ c)

/-- `main_arg11` at boundary 12: no operation of the launch before it writes it. -/
theorem main_arg11_W12 (c : Dev nD) : W12 m ρ c (Proc.devRef .tc main_arg11) = m ((c : Thread nD τ).loc main_arg11) :=
  (W12_of_ne m ρ c main_arg11 (by decide)).trans (main_arg11_W11 m ρ c)

end Cert.KernelIdeal.Kept

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«126254_j86938728005820_2_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.ProjBlock.lean ====
/-
  What the projection launches (the first and the third) leave in their two output blocks, one entry at a time: a block
  of 5000 node rows against the basis matrix, and against the weight matrix with the bias row added.
-/
import proofs.«126254_j86938728005820_2_alg».proof.Proof.Spec
import proofs.«126254_j86938728005820_2_alg».proof.Proof.LibRowMax
import proofs.«126254_j86938728005820_2_alg».proof.Proof.LibBiasRow
import proofs.«126254_j86938728005820_2_alg».proof.Proof.Gen.KernelIdeal.Frame
import Idealize.ShloMosaic.Lib.Pipeline.Value

set_option maxRecDepth 16384

noncomputable section

namespace Cert.KernelIdeal.ProjBlock

open Cert.KernelIdeal Cert.KernelIdeal.Gen Cert.EdgeNet
open Idealize.ShloMosaic Idealize.ShloMosaic.ValueIdx

/-- The corner of a whole-block access. -/
theorem hz : (![0, 0] : Fin 2 → Nat) = fun _ => 0 := funext fun a => by fin_cases a <;> rfl

/-- Block of the basis projection in launch 0: entry `(p, q)` is row `p` of the node block against column `q` of the
    basis matrix (the narrowing of the operands to bf16 is the identity on exact values). -/
theorem bases_block0 (x0 : Vec Ideal S5000x128 .f32) (x1 : Vec Ideal S128x64 .f32) (x2 : Vec Ideal S128x32 .f32)
    (x3 : Vec Ideal S1x32 .f32) (p : Fin 5000) (q : Fin 64) :
    out0_4 (F := Ideal) x0 x1 x2 x3 (ix2 p q) = projAt x0 x1 p q := by
  unfold out0_4
  rw [View.canon_unit_zero hz]
  simp only [View.ld_unit_zero (S := S5000x128) hz, View.ld_unit_zero (S := S128x64) hz]
  unfold k0_pay2 k0_pay1
  exact Cert.LibRowMax.matmul_plain_apply dot_S5000x128_S128x64_S5000x64_1_0_0_1_n_n_wf none _ _ p q

/-- Block of the weight projection in launch 0: the same product against the weight matrix, plus the bias row. -/
theorem weights_block0 (x0 : Vec Ideal S5000x128 .f32) (x1 : Vec Ideal S128x64 .f32) (x2 : Vec Ideal S128x32 .f32)
    (x3 : Vec Ideal S1x32 .f32) (p : Fin 5000) (q : Fin 32) :
    out0_5 (F := Ideal) x0 x1 x2 x3 (ix2 p q) = affineAt x0 x2 x3 p q := by
  unfold out0_5
  rw [View.canon_unit_zero hz]
  simp only [View.ld_unit_zero (S := S5000x128) hz, View.ld_unit_zero (S := S128x32) hz, View.ld_unit_zero (S := S1x32) hz]
  unfold k0_pay3 k0_pay1
  refine (Cert.LibBiasRow.vector_bias_apply _ x3 shapeCasts_S1x32_S1x32 broadcasts_S1x32_S5000x32 p q).trans ?_
  exact congrArg (· + x3 (ix2 (0 : Fin 1) q))
    (Cert.LibRowMax.matmul_plain_apply dot_S5000x128_S128x32_S5000x32_1_0_0_1_n_n_wf none _ _ p q)

/-- Block of the basis projection in launch 2: entry `(p, q)` is row `p` of the node block against column `q` of the
    basis matrix (the narrowing of the operands to bf16 is the identity on exact values). -/
theorem bases_block2 (x0 : Vec Ideal S5000x128 .f32) (x1 : Vec Ideal S128x64 .f32) (x2 : Vec Ideal S128x32 .f32)
    (x3 : Vec Ideal S1x32 .f32) (p : Fin 5000) (q : Fin 64) :
    out2_4 (F := Ideal) x0 x1 x2 x3 (ix2 p q) = projAt x0 x1 p q := by
  unfold out2_4
  rw [View.canon_unit_zero hz]
  simp only [View.ld_unit_zero (S := S5000x128) hz, View.ld_unit_zero (S := S128x64) hz]
  unfold k2_pay2 k2_pay1
  rw [shapeCast_self x0 shapeCasts_S5000x128_S5000x128]
  exact Cert.LibRowMax.matmul_plain_apply dot_S5000x128_S128x64_S5000x64_1_0_0_1_n_n_wf none _ _ p q

/-- Block of the weight projection in launch 2: the same product against the weight matrix, plus the bias row. -/
theorem weights_block2 (x0 : Vec Ideal S5000x128 .f32) (x1 : Vec Ideal S128x64 .f32) (x2 : Vec Ideal S128x32 .f32)
    (x3 : Vec Ideal S1x32 .f32) (p : Fin 5000) (q : Fin 32) :
    out2_5 (F := Ideal) x0 x1 x2 x3 (ix2 p q) = affineAt x0 x2 x3 p q := by
  unfold out2_5
  rw [View.canon_unit_zero hz]
  simp only [View.ld_unit_zero (S := S5000x128) hz, View.ld_unit_zero (S := S128x32) hz, View.ld_unit_zero (S := S1x32) hz]
  unfold k2_pay3 k2_pay1
  rw [shapeCast_self x0 shapeCasts_S5000x128_S5000x128]
  refine (Cert.LibBiasRow.vector_bias_apply _ x3 shapeCasts_S1x32_S1x32 broadcasts_S1x32_S5000x32 p q).trans ?_
  exact congrArg (· + x3 (ix2 (0 : Fin 1) q))
    (Cert.LibRowMax.matmul_plain_apply dot_S5000x128_S128x32_S5000x32_1_0_0_1_n_n_wf none _ _ p q)

end Cert.KernelIdeal.ProjBlock

end
-- ==== Proof.Region0.lean ====
/-
  The first launch (the node projections of layer 1), from blocks to arrays. The grid has ten points; point t handles node rows
  5000 t .. 5000 t + 4999, reading those rows of the node table and the whole of the two weight matrices and the bias
  row, and writing the same rows of the two outputs. So each output array ends as one function of the arrays the launch
  found: the basis projection, and the weight projection with its bias row.
-/
import proofs.«126254_j86938728005820_2_alg».proof.Proof.Spec
import proofs.«126254_j86938728005820_2_alg».proof.Proof.Arrays
import proofs.«126254_j86938728005820_2_alg».proof.Proof.ProjBlock
import Idealize.ShloMosaic.Lib.Pipeline.Value

set_option maxRecDepth 16384

noncomputable section

namespace Cert.KernelIdeal.Region0

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `p` of block `t` is row `5000 * t + p` of the array. -/
def row (t : Fin cfg0.N) (p : Fin 5000) : Fin 50000 :=
  ⟨5000 * t.val + p.val, by have ht : t.val < 10 := lt_of_lt_of_eq t.isLt N_0; have hp := p.isLt; omega⟩

/-- The printed index maps over the grid: a moving window's block index is the point's number on the rows and 0 on the
    columns; a resident window's is 0 on both. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Where entry `(p, e)` of window 0's block at point `t` sits in its array. -/
theorem emb_0 (t : Fin cfg0.N) (p : Fin 5000) (e : Fin 128) :
    ((cfg0.win 0).blk t).view.emb (ix2 p e) = ix2 (row t p) e := by
  obtain ⟨e0, e1, -, -, -, -, -, -, -, -, -, -⟩ := idx_facts t
  funext a; apply Fin.ext
  match a with
  | ⟨0, _⟩ => show win0_0.index t (0 : Fin 2) * 5000 + 1 * p.val = 5000 * t.val + p.val; omega
  | ⟨1, _⟩ => show win0_0.index t (1 : Fin 2) * 128 + 1 * e.val = e.val; omega

/-- Where entry `(p, e)` of window 1's block at point `t` sits in its array. -/
theorem emb_1 (t : Fin cfg0.N) (p : Fin 128) (e : Fin 64) :
    ((cfg0.win 1).blk t).view.emb (ix2 p e) = ix2 p e := by
  obtain ⟨-, -, e0, e1, -, -, -, -, -, -, -, -⟩ := idx_facts t
  funext a; apply Fin.ext
  match a with
  | ⟨0, _⟩ => show win0_1.index t (0 : Fin 2) * 128 + 1 * p.val = p.val; omega
  | ⟨1, _⟩ => show win0_1.index t (1 : Fin 2) * 64 + 1 * e.val = e.val; omega

/-- Where entry `(p, e)` of window 2's block at point `t` sits in its array. -/
theorem emb_2 (t : Fin cfg0.N) (p : Fin 128) (e : Fin 32) :
    ((cfg0.win 2).blk t).view.emb (ix2 p e) = ix2 p e := by
  obtain ⟨-, -, -, -, e0, e1, -, -, -, -, -, -⟩ := idx_facts t
  funext a; apply Fin.ext
  match a with
  | ⟨0, _⟩ => show win0_2.index t (0 : Fin 2) * 128 + 1 * p.val = p.val; omega
  | ⟨1, _⟩ => show win0_2.index t (1 : Fin 2) * 32 + 1 * e.val = e.val; omega

/-- Where entry `(p, e)` of window 3's block at point `t` sits in its array. -/
theorem emb_3 (t : Fin cfg0.N) (p : Fin 1) (e : Fin 32) :
    ((cfg0.win 3).blk t).view.emb (ix2 p e) = ix2 p e := by
  obtain ⟨-, -, -, -, -, -, e0, e1, -, -, -, -⟩ := idx_facts t
  funext a; apply Fin.ext
  match a with
  | ⟨0, _⟩ => show win0_3.index t (0 : Fin 2) * 1 + 1 * p.val = p.val; omega
  | ⟨1, _⟩ => show win0_3.index t (1 : Fin 2) * 32 + 1 * e.val = e.val; omega

/-- Where entry `(p, e)` of window 4's block at point `t` sits in its array. -/
theorem emb_4 (t : Fin cfg0.N) (p : Fin 5000) (e : Fin 64) :
    ((cfg0.win 4).blk t).view.emb (ix2 p e) = ix2 (row t p) e := by
  obtain ⟨-, -, -, -, -, -, -, -, e0, e1, -, -⟩ := idx_facts t
  funext a; apply Fin.ext
  match a with
  | ⟨0, _⟩ => show win0_4.index t (0 : Fin 2) * 5000 + 1 * p.val = 5000 * t.val + p.val; omega
  | ⟨1, _⟩ => show win0_4.index t (1 : Fin 2) * 64 + 1 * e.val = e.val; omega

/-- Where entry `(p, e)` of window 5's block at point `t` sits in its array. -/
theorem emb_5 (t : Fin cfg0.N) (p : Fin 5000) (e : Fin 32) :
    ((cfg0.win 5).blk t).view.emb (ix2 p e) = ix2 (row t p) e := by
  obtain ⟨-, -, -, -, -, -, -, -, -, -, e0, e1⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 32 + 1 * e.val = e.val; omega

/-- Input window 0's block at point `t`, read at `(p, e)`. -/
theorem iblk_0 (c : Dev nD) (t : Fin cfg0.N) (p : Fin 5000) (e : Fin 128) :
    iblk0 V c 0 t (ix2 p e) = V c main_arg0 (ix2 (row t p) e) := by
  show V c main_arg0 (((cfg0.win 0).blk t).view.emb (ix2 p e)) = _
  rw [emb_0]

/-- Input window 1's block at point `t`, read at `(p, e)`. -/
theorem iblk_1 (c : Dev nD) (t : Fin cfg0.N) (p : Fin 128) (e : Fin 64) :
    iblk0 V c 1 t (ix2 p e) = V c main_arg2 (ix2 p e) := by
  show V c main_arg2 (((cfg0.win 1).blk t).view.emb (ix2 p e)) = _
  rw [emb_1]

/-- Input window 2's block at point `t`, read at `(p, e)`. -/
theorem iblk_2 (c : Dev nD) (t : Fin cfg0.N) (p : Fin 128) (e : Fin 32) :
    iblk0 V c 2 t (ix2 p e) = V c main_arg3 (ix2 p e) := by
  show V c main_arg3 (((cfg0.win 2).blk t).view.emb (ix2 p e)) = _
  rw [emb_2]

/-- Input window 3's block at point `t`, read at `(p, e)`. -/
theorem iblk_3 (c : Dev nD) (t : Fin cfg0.N) (p : Fin 1) (e : Fin 32) :
    iblk0 V c 3 t (ix2 p e) = V c main_v34 (ix2 p e) := by
  show V c main_v34 (((cfg0.win 3).blk t).view.emb (ix2 p e)) = _
  rw [emb_3]

/-- What point `t` writes back through output window 4 is block `t` of that array. -/
theorem flushed_4 (c : Dev nD) (t : Fin cfg0.N) :
    (dat0 V c).flushed 4 t = ((cfg0.win 4).blk t).view.read (Elt Ideal) (basesOf (V c main_arg0) (V c main_arg2)) := by
  show (cfg0.win 4).cut (grid0.coords t) ((dat0 V c).after 4 t) = _
  rw [after0_4]
  funext j
  obtain ⟨p, q, rfl⟩ : ∃ (p : Fin 5000) (q : Fin 64), j = ix2 p q := ⟨j 0, j 1, eq_ix2 j⟩
  show out0_4 (F := Ideal) (iblk0 V c 0 t) (iblk0 V c 1 t) (iblk0 V c 2 t) (iblk0 V c 3 t) (ix2 p q) = (basesOf (V c main_arg0) (V c main_arg2)) (((cfg0.win 4).blk t).view.emb (ix2 p q))
  rw [emb_4]
  refine (Cert.KernelIdeal.ProjBlock.bases_block0 (iblk0 V c 0 t) (iblk0 V c 1 t) (iblk0 V c 2 t) (iblk0 V c 3 t) p q).trans ?_
  show projAt (iblk0 V c 0 t) (iblk0 V c 1 t) p q = projAt (V c main_arg0) (V c main_arg2) (row t p) q
  unfold projAt
  refine Finset.sum_congr rfl fun e _ => ?_
  rw [iblk_0, iblk_1]

/-- An index of the array is in point `t`'s block iff each coordinate is in the block's range on its axis. -/
theorem mem_blk_4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v35_0).slice (win0_4.rect t)).set ↔ _
  rw [View.set_slice_whole, Rect.mem_set_unit]
  exact Iff.rfl

/-- Every index of the array is in the block of the point numbered by its row divided by 5000. -/
theorem cover_4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  let t : Fin cfg0.N := ⟨(i 0).val / 5000, lt_of_lt_of_eq (by omega : (i 0).val / 5000 < 10) N_0.symm⟩
  obtain ⟨-, -, -, -, -, -, -, -, e0, e1, -, -⟩ := idx_facts t
  have ht : t.val = (i 0).val / 5000 := rfl
  refine ⟨t, flush0_4 t, ?_⟩
  rw [mem_blk_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The array after the launch. -/
theorem final_4 (c : Dev nD) : (dat0 V c).arrAt 4 cfg0.N = basesOf (V c main_arg0) (V c main_arg2) :=
  (dat0 V c).arrAt_eq_of_cover 4 (basesOf (V c main_arg0) (V c main_arg2)) (fun t _ => flushed_4 V c t) cover_4

/-- What point `t` writes back through output window 5 is block `t` of that array. -/
theorem flushed_5 (c : Dev nD) (t : Fin cfg0.N) :
    (dat0 V c).flushed 5 t = ((cfg0.win 5).blk t).view.read (Elt Ideal) (weightsOf (V c main_arg0) (V c main_arg3) (V c main_v34)) := by
  show (cfg0.win 5).cut (grid0.coords t) ((dat0 V c).after 5 t) = _
  rw [after0_5]
  funext j
  obtain ⟨p, q, rfl⟩ : ∃ (p : Fin 5000) (q : Fin 32), j = ix2 p q := ⟨j 0, j 1, eq_ix2 j⟩
  show out0_5 (F := Ideal) (iblk0 V c 0 t) (iblk0 V c 1 t) (iblk0 V c 2 t) (iblk0 V c 3 t) (ix2 p q) = (weightsOf (V c main_arg0) (V c main_arg3) (V c main_v34)) (((cfg0.win 5).blk t).view.emb (ix2 p q))
  rw [emb_5]
  refine (Cert.KernelIdeal.ProjBlock.weights_block0 (iblk0 V c 0 t) (iblk0 V c 1 t) (iblk0 V c 2 t) (iblk0 V c 3 t) p q).trans ?_
  show affineAt (iblk0 V c 0 t) (iblk0 V c 2 t) (iblk0 V c 3 t) p q = affineAt (V c main_arg0) (V c main_arg3) (V c main_v34) (row t p) q
  unfold affineAt projAt
  rw [iblk_3]
  refine congrArg (· + V c main_v34 (ix2 (0 : Fin 1) q)) (Finset.sum_congr rfl fun e _ => ?_)
  rw [iblk_0, iblk_2]

/-- An index of the array is in point `t`'s block iff each coordinate is in the block's range on its axis. -/
theorem mem_blk_5 (t : Fin cfg0.N) (i : S50000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v35_1).slice (win0_5.rect t)).set ↔ _
  rw [View.set_slice_whole, Rect.mem_set_unit]
  exact Iff.rfl

/-- Every index of the array is in the block of the point numbered by its row divided by 5000. -/
theorem cover_5 (i : S50000x32.Idx) :
    ∃ t : Fin cfg0.N, (cfg0.win 5).flush t = true ∧ i ∈ ((cfg0.win 5).blk t).view.set := by
  have hi0 : (i 0).val < 50000 := (i 0).isLt
  have hi1 : (i 1).val < 32 := (i 1).isLt
  let t : Fin cfg0.N := ⟨(i 0).val / 5000, lt_of_lt_of_eq (by omega : (i 0).val / 5000 < 10) N_0.symm⟩
  obtain ⟨-, -, -, -, -, -, -, -, -, -, e0, e1⟩ := idx_facts t
  have ht : t.val = (i 0).val / 5000 := rfl
  refine ⟨t, flush0_5 t, ?_⟩
  rw [mem_blk_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- The array after the launch. -/
theorem final_5 (c : Dev nD) : (dat0 V c).arrAt 5 cfg0.N = weightsOf (V c main_arg0) (V c main_arg3) (V c main_v34) :=
  (dat0 V c).arrAt_eq_of_cover 5 (weightsOf (V c main_arg0) (V c main_arg3) (V c main_v34)) (fun t _ => flushed_5 V c t) cover_5

end Cert.KernelIdeal.Region0

end
-- ==== Proof.CombineBlock.lean ====
/-
  The combination of the four aggregated bases, one block of 400 nodes at a time, read entry by entry.

  A block has a weight table `w` (400 x 32), an aggregate table `a` (400 x 64) and a bias row `β` (1 x 128), and the
  result is a 400 x 128 table. Output column `q` belongs to head `q / 16` and feature `q % 16`. Head `k` is a table of
  sixteen columns, built up from zero one basis at a time:
      ((((0 + w_[4k] * a_[0]) + w_[4k+1] * a_[1]) + w_[4k+2] * a_[2]) + w_[4k+3] * a_[3]),
  where `w_[j]` is column `j` of `w` repeated across sixteen lanes and `a_[b]` is the sixteen columns
  `16 b, …, 16 b + 15` of `a`. Entry `(p, f)` of head `k` is therefore
      ∑ b : Fin 4, w[p, 4 k + b] * a[p, 16 b + f]
  (a sum over four terms started from zero is the sum: `0 + x = x` on the extended reals). The eight heads are laid
  side by side, so entry `(p, 16 k + f)` of the whole is entry `(p, f)` of head `k`; the bias row is stretched over the
  400 rows and added, and in the first layer the result is clamped below at zero. Writing `q = 16 k + f` with
  `k = q / 16` and `f = q % 16` gives the entry
      (∑ b : Fin 4, w[p, 4 (q / 16) + b] * a[p, 16 b + q % 16]) + β[0, q],
  which is the specification's `combineAt`. No finiteness of the data is used.
-/
import proofs.«126254_j86938728005820_2_alg».proof.Proof.Spec
import proofs.«126254_j86938728005820_2_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.CombineBlock

open Idealize.ShloMosaic Idealize.ShloMosaic.ValueIdx Cert.KernelIdeal

/-! ## One head -/

/-- One multiply-add step read at row `p`, lane `f`: the accumulator there, plus the weight in column `j` of row `p`
    times the aggregate in column `o + f` of row `p` (the one-column slice at `j` is repeated across the sixteen lanes;
    the sixteen-column slice starts at column `o`). -/
theorem step_apply (acc : FVec Ideal S400x16 .f32) (w : FVec Ideal S400x32 .f32) (a : FVec Ideal S400x64 .f32)
    (j o : Nat) (hj : j < 32) (ho : o + 16 ≤ 64)
    (hs : S400x32.Slices ![0, j] S400x1) (hb : S400x1.Broadcasts S400x16) (hs' : S400x64.Slices ![0, o] S400x16)
    (p : Fin 400) (f : Fin 16) :
    addf acc (mulf (broadcastTo S400x16 (extractStridedSlice S400x1 ![0, j] w hs) hb)
        (extractStridedSlice S400x16 ![0, o] a hs')) (ix2 p f)
      = acc (ix2 p f) + w (ix2 p (⟨j, hj⟩ : Fin 32)) * a (ix2 p (⟨o + f.val, by omega⟩ : Fin 64)) := by
  rw [addf_apply, mulf_apply]
  rw [broadcastTo_apply _ hb (ix2 p f) (ix2 p (0 : Fin 1))
    (fun a => by match a with | ⟨0, _⟩ => rfl | ⟨1, _⟩ => rfl)]
  rw [extractStridedSlice_apply _ w hs (ix2 p (0 : Fin 1)) (ix2 p (⟨j, hj⟩ : Fin 32))
    (fun a => by match a with | ⟨0, _⟩ => (show p.val = 0 + p.val; omega) | ⟨1, _⟩ => (show j = j + 0; omega))]
  rw [extractStridedSlice_apply _ a hs' (ix2 p f) (ix2 p (⟨o + f.val, by omega⟩ : Fin 64))
    (fun a => by match a with | ⟨0, _⟩ => (show p.val = 0 + p.val; omega) | ⟨1, _⟩ => (show o + f.val = o + f.val; rfl))]

/-- The table of sixteen columns every head starts from holds the extended real `0` everywhere. -/
theorem zero_splat_apply (i : S400x16.Idx) :
    (broadcast S400x16 (Scalar.ofBits (F := Ideal) .f32 0x00000000#32) : FVec Ideal S400x16 .f32) i = 0 := by
  rw [broadcast_apply]
  exact Ideal.ofBits_zero_f32

/-- The sum a head computes at row `p`, feature `f`, when its four weights are the columns `c, …, c + 3`:
    `∑ b, w[p, c + b] * a[p, 16 b + f]`. -/
def headSum (w : FVec Ideal S400x32 .f32) (a : FVec Ideal S400x64 .f32) (c : Nat) (hc : c + 4 ≤ 32)
    (p : Fin 400) (f : Fin 16) : EReal :=
  ∑ b : Fin 4, w (ix2 p (⟨c + b.val, by omega⟩ : Fin 32)) * a (ix2 p (⟨16 * b.val + f.val, by omega⟩ : Fin 64))

/-- Four multiply-add steps from a table of zeros, with the weight columns `c, …, c + 3` against the four blocks of
    sixteen aggregate columns, read at `(p, f)`: the head's sum. -/
theorem chain_apply (w : FVec Ideal S400x32 .f32) (a : FVec Ideal S400x64 .f32) (c : Nat) (hc : c + 4 ≤ 32)
    (z : FVec Ideal S400x16 .f32) (hz : ∀ i, z i = 0)
    (h0 : S400x32.Slices ![0, c] S400x1) (h1 : S400x32.Slices ![0, c + 1] S400x1)
    (h2 : S400x32.Slices ![0, c + 2] S400x1) (h3 : S400x32.Slices ![0, c + 3] S400x1)
    (hb : S400x1.Broadcasts S400x16)
    (s0 : S400x64.Slices ![0, 0] S400x16) (s1 : S400x64.Slices ![0, 16] S400x16)
    (s2 : S400x64.Slices ![0, 32] S400x16) (s3 : S400x64.Slices ![0, 48] S400x16)
    (p : Fin 400) (f : Fin 16) :
    addf (addf (addf (addf z
      (mulf (broadcastTo S400x16 (extractStridedSlice S400x1 ![0, c] w h0) hb) (extractStridedSlice S400x16 ![0, 0] a s0)))
      (mulf (broadcastTo S400x16 (extractStridedSlice S400x1 ![0, c + 1] w h1) hb) (extractStridedSlice S400x16 ![0, 16] a s1)))
      (mulf (broadcastTo S400x16 (extractStridedSlice S400x1 ![0, c + 2] w h2) hb) (extractStridedSlice S400x16 ![0, 32] a s2)))
      (mulf (broadcastTo S400x16 (extractStridedSlice S400x1 ![0, c + 3] w h3) hb) (extractStridedSlice S400x16 ![0, 48] a s3))
      (ix2 p f) = headSum w a c hc p f := by
  rw [step_apply _ w a (c + 3) 48 (by omega) (by omega), step_apply _ w a (c + 2) 32 (by omega) (by omega),
    step_apply _ w a (c + 1) 16 (by omega) (by omega), step_apply _ w a c 0 (by omega) (by omega), hz]
  exact Cert.EdgeNet.sum_four_from_zero
    (fun b => w (ix2 p (⟨c + b.val, by omega⟩ : Fin 32)) * a (ix2 p (⟨16 * b.val + f.val, by omega⟩ : Fin 64)))

/-- Head `k`'s sum at feature `f` is the combination's sum at output column `16 * k + f`: that column's head is
    `(16 k + f) / 16 = k` and its feature `(16 k + f) % 16 = f`. -/
theorem headSum_eq (w : FVec Ideal S400x32 .f32) (a : FVec Ideal S400x64 .f32) (k : Fin 8) (f : Fin 16) (p : Fin 400) :
    headSum w a (4 * k.val) (by omega) p f
      = ∑ b : Fin 4, w (ix2 p (Cert.EdgeNet.wCol (⟨16 * k.val + f.val, by omega⟩ : Fin 128) b))
          * a (ix2 p (Cert.EdgeNet.aCol (⟨16 * k.val + f.val, by omega⟩ : Fin 128) b)) := by
  unfold headSum
  refine Finset.sum_congr rfl fun b _ => ?_
  have hk := k.isLt
  have hf := f.isLt
  have hb := b.isLt
  have e1 : (⟨4 * k.val + b.val, by omega⟩ : Fin 32) = Cert.EdgeNet.wCol (⟨16 * k.val + f.val, by omega⟩ : Fin 128) b :=
    Fin.ext (by show 4 * k.val + b.val = 4 * ((16 * k.val + f.val) / 16) + b.val; omega)
  have e2 : (⟨16 * b.val + f.val, by omega⟩ : Fin 64) = Cert.EdgeNet.aCol (⟨16 * k.val + f.val, by omega⟩ : Fin 128) b :=
    Fin.ext (by show 16 * b.val + f.val = 16 * b.val + (16 * k.val + f.val) % 16; omega)
  rw [e1, e2]

/-! ## The eight heads side by side, the bias row, the columns -/

/-- Eight tables of sixteen columns laid side by side: column `16 * k + f` of the whole is column `f` of table `k`
    (the seven tables before table `k` take up `16 * k` columns). -/
theorem concat8_apply (v : Fin 8 → FVec Ideal S400x16 .f32)
    (hc : Shape.Concatenates (([⟨S400x16, v 0⟩, ⟨S400x16, v 1⟩, ⟨S400x16, v 2⟩, ⟨S400x16, v 3⟩, ⟨S400x16, v 4⟩,
      ⟨S400x16, v 5⟩, ⟨S400x16, v 6⟩, ⟨S400x16, v 7⟩] : List ((s : Shape) × (s.Idx → Ideal .f32))).map (·.1)) S400x128 1)
    (p : Fin 400) (k : Fin 8) (f : Fin 16) :
    concatenate S400x128 1 [⟨S400x16, v 0⟩, ⟨S400x16, v 1⟩, ⟨S400x16, v 2⟩, ⟨S400x16, v 3⟩, ⟨S400x16, v 4⟩,
      ⟨S400x16, v 5⟩, ⟨S400x16, v 6⟩, ⟨S400x16, v 7⟩] hc (ix2 p (⟨16 * k.val + f.val, by omega⟩ : Fin 128))
      = v k (ix2 p f) := by
  refine concatenate_apply_piece 1 _ hc _ k.val (by simp) S400x16 (v k) ?_ rfl (16 * k.val) ?_ (ix2 p f) ?_ ?_
  · fin_cases k <;> rfl
  · fin_cases k <;> rfl
  · intro b hb
    match b, hb with
    | ⟨0, _⟩, _ => rfl
    | ⟨1, _⟩, hb => exact absurd rfl hb
  · rfl

/-- The same for eight tables given one by one. -/
theorem concat8_apply' (v0 v1 v2 v3 v4 v5 v6 v7 : FVec Ideal S400x16 .f32)
    (hc : Shape.Concatenates (([⟨S400x16, v0⟩, ⟨S400x16, v1⟩, ⟨S400x16, v2⟩, ⟨S400x16, v3⟩, ⟨S400x16, v4⟩,
      ⟨S400x16, v5⟩, ⟨S400x16, v6⟩, ⟨S400x16, v7⟩] : List ((s : Shape) × (s.Idx → Ideal .f32))).map (·.1)) S400x128 1)
    (p : Fin 400) (k : Fin 8) (f : Fin 16) :
    concatenate S400x128 1 [⟨S400x16, v0⟩, ⟨S400x16, v1⟩, ⟨S400x16, v2⟩, ⟨S400x16, v3⟩, ⟨S400x16, v4⟩,
      ⟨S400x16, v5⟩, ⟨S400x16, v6⟩, ⟨S400x16, v7⟩] hc (ix2 p (⟨16 * k.val + f.val, by omega⟩ : Fin 128))
      = (![v0, v1, v2, v3, v4, v5, v6, v7] : Fin 8 → FVec Ideal S400x16 .f32) k (ix2 p f) :=
  concat8_apply ![v0, v1, v2, v3, v4, v5, v6, v7] hc p k f

/-- The bias row stretched over the rows of a block, read at an entry, is the row's entry in that column. -/
theorem bias_apply (β : FVec Ideal S1x128 .f32) (hb : S1x128.Broadcasts S400x128) (p : Fin 400) (q : Fin 128) :
    broadcastTo S400x128 β hb (ix2 p q) = β (ix2 (0 : Fin 1) q) :=
  broadcastTo_apply β hb (ix2 p q) (ix2 (0 : Fin 1) q) (fun a => by match a with | ⟨0, _⟩ => rfl | ⟨1, _⟩ => rfl)

/-- A block is read and written whole: the corner of the rectangle read and written is the origin. -/
theorem corner_zero : (![0, 0] : Fin 2 → Nat) = fun _ => 0 := funext fun a => by fin_cases a <;> rfl

/-- An output column is `16 * k + f` for its head `k` and its feature `f`. -/
theorem split_column (q : Fin 128) : ∃ (k : Fin 8) (f : Fin 16), q = (⟨16 * k.val + f.val, by omega⟩ : Fin 128) :=
  ⟨⟨q.val / 16, by omega⟩, ⟨q.val % 16, by omega⟩, Fin.ext (by show q.val = 16 * (q.val / 16) + q.val % 16; omega)⟩

/-! ## The first layer's combination -/

/-- The three tables enter the body unchanged (a recast to the same shape). -/
theorem k1_pay2_eq (x0 : Vec Ideal S400x32 .f32) : Gen.k1_pay2 (F := Ideal) x0 = x0 := shapeCast_self _ _
theorem k1_pay3_eq (x1 : Vec Ideal S400x64 .f32) : Gen.k1_pay3 (F := Ideal) x1 = x1 := shapeCast_self _ _
theorem k1_pay4_eq (x2 : Vec Ideal S1x128 .f32) : Gen.k1_pay4 (F := Ideal) x2 = x2 := shapeCast_self _ _

/-- Head 0 of the first layer at `(p, f)`: weight columns 0–3. -/
theorem k1_head0 (x0 : Vec Ideal S400x32 .f32) (x1 : Vec Ideal S400x64 .f32) (p : Fin 400) (f : Fin 16) :
    Gen.k1_pay5 (F := Ideal) x0 x1 (ix2 p f)
      = headSum (Gen.k1_pay2 (F := Ideal) x0) (Gen.k1_pay3 (F := Ideal) x1) 0 (by omega) p f :=
  chain_apply (Gen.k1_pay2 (F := Ideal) x0) (Gen.k1_pay3 (F := Ideal) x1) 0 (by omega) _ zero_splat_apply
    Gen.slices_S400x32_o0_0_S400x1 Gen.slices_S400x32_o0_1_S400x1 Gen.slices_S400x32_o0_2_S400x1 Gen.slices_S400x32_o0_3_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 1 of the first layer at `(p, f)`: weight columns 4–7. -/
theorem k1_head1 (x0 : Vec Ideal S400x32 .f32) (x1 : Vec Ideal S400x64 .f32) (p : Fin 400) (f : Fin 16) :
    Gen.k1_pay6 (F := Ideal) x0 x1 (ix2 p f)
      = headSum (Gen.k1_pay2 (F := Ideal) x0) (Gen.k1_pay3 (F := Ideal) x1) 4 (by omega) p f :=
  chain_apply (Gen.k1_pay2 (F := Ideal) x0) (Gen.k1_pay3 (F := Ideal) x1) 4 (by omega) _ zero_splat_apply
    Gen.slices_S400x32_o0_4_S400x1 Gen.slices_S400x32_o0_5_S400x1 Gen.slices_S400x32_o0_6_S400x1 Gen.slices_S400x32_o0_7_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 2 of the first layer at `(p, f)`: weight columns 8–11. -/
theorem k1_head2 (x0 : Vec Ideal S400x32 .f32) (x1 : Vec Ideal S400x64 .f32) (p : Fin 400) (f : Fin 16) :
    Gen.k1_pay9 (F := Ideal) (Gen.k1_pay2 (F := Ideal) x0) (Gen.k1_pay3 (F := Ideal) x1) (Gen.k1_pay7 (F := Ideal)) (Gen.k1_pay8 (F := Ideal) x0) (ix2 p f)
      = headSum (Gen.k1_pay2 (F := Ideal) x0) (Gen.k1_pay3 (F := Ideal) x1) 8 (by omega) p f :=
  chain_apply (Gen.k1_pay2 (F := Ideal) x0) (Gen.k1_pay3 (F := Ideal) x1) 8 (by omega) _ zero_splat_apply
    Gen.slices_S400x32_o0_8_S400x1 Gen.slices_S400x32_o0_9_S400x1 Gen.slices_S400x32_o0_10_S400x1 Gen.slices_S400x32_o0_11_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 3 of the first layer at `(p, f)`: weight columns 12–15. -/
theorem k1_head3 (x0 : Vec Ideal S400x32 .f32) (x1 : Vec Ideal S400x64 .f32) (p : Fin 400) (f : Fin 16) :
    Gen.k1_pay10 (F := Ideal) (Gen.k1_pay2 (F := Ideal) x0) (Gen.k1_pay3 (F := Ideal) x1) (ix2 p f)
      = headSum (Gen.k1_pay2 (F := Ideal) x0) (Gen.k1_pay3 (F := Ideal) x1) 12 (by omega) p f :=
  chain_apply (Gen.k1_pay2 (F := Ideal) x0) (Gen.k1_pay3 (F := Ideal) x1) 12 (by omega) _ zero_splat_apply
    Gen.slices_S400x32_o0_12_S400x1 Gen.slices_S400x32_o0_13_S400x1 Gen.slices_S400x32_o0_14_S400x1 Gen.slices_S400x32_o0_15_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 4 of the first layer at `(p, f)`: weight columns 16–19. -/
theorem k1_head4 (x0 : Vec Ideal S400x32 .f32) (x1 : Vec Ideal S400x64 .f32) (p : Fin 400) (f : Fin 16) :
    Gen.k1_pay14 (F := Ideal) (Gen.k1_pay11 (F := Ideal) (Gen.k1_pay2 (F := Ideal) x0) (Gen.k1_pay3 (F := Ideal) x1)) (Gen.k1_pay12 (F := Ideal) (Gen.k1_pay2 (F := Ideal) x0)) (Gen.k1_pay13 (F := Ideal) (Gen.k1_pay3 (F := Ideal) x1)) (ix2 p f)
      = headSum (Gen.k1_pay2 (F := Ideal) x0) (Gen.k1_pay3 (F := Ideal) x1) 16 (by omega) p f :=
  chain_apply (Gen.k1_pay2 (F := Ideal) x0) (Gen.k1_pay3 (F := Ideal) x1) 16 (by omega) _ zero_splat_apply
    Gen.slices_S400x32_o0_16_S400x1 Gen.slices_S400x32_o0_17_S400x1 Gen.slices_S400x32_o0_18_S400x1 Gen.slices_S400x32_o0_19_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 5 of the first layer at `(p, f)`: weight columns 20–23. -/
theorem k1_head5 (x0 : Vec Ideal S400x32 .f32) (x1 : Vec Ideal S400x64 .f32) (p : Fin 400) (f : Fin 16) :
    Gen.k1_pay15 (F := Ideal) (Gen.k1_pay2 (F := Ideal) x0) (Gen.k1_pay3 (F := Ideal) x1) (ix2 p f)
      = headSum (Gen.k1_pay2 (F := Ideal) x0) (Gen.k1_pay3 (F := Ideal) x1) 20 (by omega) p f :=
  chain_apply (Gen.k1_pay2 (F := Ideal) x0) (Gen.k1_pay3 (F := Ideal) x1) 20 (by omega) _ zero_splat_apply
    Gen.slices_S400x32_o0_20_S400x1 Gen.slices_S400x32_o0_21_S400x1 Gen.slices_S400x32_o0_22_S400x1 Gen.slices_S400x32_o0_23_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 6 of the first layer at `(p, f)`: weight columns 24–27. -/
theorem k1_head6 (x0 : Vec Ideal S400x32 .f32) (x1 : Vec Ideal S400x64 .f32) (p : Fin 400) (f : Fin 16) :
    Gen.k1_pay16 (F := Ideal) (Gen.k1_pay2 (F := Ideal) x0) (Gen.k1_pay3 (F := Ideal) x1) (ix2 p f)
      = headSum (Gen.k1_pay2 (F := Ideal) x0) (Gen.k1_pay3 (F := Ideal) x1) 24 (by omega) p f :=
  chain_apply (Gen.k1_pay2 (F := Ideal) x0) (Gen.k1_pay3 (F := Ideal) x1) 24 (by omega) _ zero_splat_apply
    Gen.slices_S400x32_o0_24_S400x1 Gen.slices_S400x32_o0_25_S400x1 Gen.slices_S400x32_o0_26_S400x1 Gen.slices_S400x32_o0_27_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 7 of the first layer at `(p, f)`: weight columns 28–31 (its last two steps are spelt out where the heads
    are laid side by side). -/
theorem k1_head7 (x0 : Vec Ideal S400x32 .f32) (x1 : Vec Ideal S400x64 .f32) (p : Fin 400) (f : Fin 16) :
    addf (addf (Gen.k1_pay17 (F := Ideal) (Gen.k1_pay2 (F := Ideal) x0) (Gen.k1_pay3 (F := Ideal) x1))
        (mulf (broadcastTo S400x16 (Gen.k1_pay18 (F := Ideal) (Gen.k1_pay2 (F := Ideal) x0)) Gen.broadcasts_S400x1_S400x16)
          (extractStridedSlice S400x16 ![0, 32] (Gen.k1_pay3 (F := Ideal) x1) Gen.slices_S400x64_o0_32_S400x16)))
      (mulf (broadcastTo S400x16 (extractStridedSlice S400x1 ![0, 31] (Gen.k1_pay2 (F := Ideal) x0) Gen.slices_S400x32_o0_31_S400x1)
          Gen.broadcasts_S400x1_S400x16)
        (extractStridedSlice S400x16 ![0, 48] (Gen.k1_pay3 (F := Ideal) x1) Gen.slices_S400x64_o0_48_S400x16)) (ix2 p f)
      = headSum (Gen.k1_pay2 (F := Ideal) x0) (Gen.k1_pay3 (F := Ideal) x1) 28 (by omega) p f :=
  chain_apply (Gen.k1_pay2 (F := Ideal) x0) (Gen.k1_pay3 (F := Ideal) x1) 28 (by omega) _ zero_splat_apply
    Gen.slices_S400x32_o0_28_S400x1 Gen.slices_S400x32_o0_29_S400x1 Gen.slices_S400x32_o0_30_S400x1 Gen.slices_S400x32_o0_31_S400x1
    Gen.broadcasts_S400x1_S400x16 Gen.slices_S400x64_o0_0_S400x16 Gen.slices_S400x64_o0_16_S400x16
    Gen.slices_S400x64_o0_32_S400x16 Gen.slices_S400x64_o0_48_S400x16 p f

/-- The eight heads of the first layer, as the body names them: head `k` at `(p, f)` is its sum. -/
theorem k1_heads_apply (x0 : Vec Ideal S400x32 .f32) (x1 : Vec Ideal S400x64 .f32) (p : Fin 400) (k : Fin 8) (f : Fin 16) :
    (![Gen.k1_pay5 (F := Ideal) x0 x1, Gen.k1_pay6 (F := Ideal) x0 x1,
      Gen.k1_pay9 (F := Ideal) (Gen.k1_pay2 (F := Ideal) x0) (Gen.k1_pay3 (F := Ideal) x1) (Gen.k1_pay7 (F := Ideal)) (Gen.k1_pay8 (F := Ideal) x0),
      Gen.k1_pay10 (F := Ideal) (Gen.k1_pay2 (F := Ideal) x0) (Gen.k1_pay3 (F := Ideal) x1),
      Gen.k1_pay14 (F := Ideal) (Gen.k1_pay11 (F := Ideal) (Gen.k1_pay2 (F := Ideal) x0) (Gen.k1_pay3 (F := Ideal) x1)) (Gen.k1_pay12 (F := Ideal) (Gen.k1_pay2 (F := Ideal) x0)) (Gen.k1_pay13 (F := Ideal) (Gen.k1_pay3 (F := Ideal) x1)),
      Gen.k1_pay15 (F := Ideal) (Gen.k1_pay2 (F := Ideal) x0) (Gen.k1_pay3 (F := Ideal) x1), Gen.k1_pay16 (F := Ideal) (Gen.k1_pay2 (F := Ideal) x0) (Gen.k1_pay3 (F := Ideal) x1),
      addf (addf (Gen.k1_pay17 (F := Ideal) (Gen.k1_pay2 (F := Ideal) x0) (Gen.k1_pay3 (F := Ideal) x1))
          (mulf (broadcastTo S400x16 (Gen.k1_pay18 (F := Ideal) (Gen.k1_pay2 (F := Ideal) x0)) Gen.broadcasts_S400x1_S400x16)
            (extractStridedSlice S400x16 ![0, 32] (Gen.k1_pay3 (F := Ideal) x1) Gen.slices_S400x64_o0_32_S400x16)))
        (mulf (broadcastTo S400x16 (extractStridedSlice S400x1 ![0, 31] (Gen.k1_pay2 (F := Ideal) x0) Gen.slices_S400x32_o0_31_S400x1)
            Gen.broadcasts_S400x1_S400x16)
          (extractStridedSlice S400x16 ![0, 48] (Gen.k1_pay3 (F := Ideal) x1) Gen.slices_S400x64_o0_48_S400x16))] : Fin 8 → FVec Ideal S400x16 .f32) k (ix2 p f)
      = headSum (Gen.k1_pay2 (F := Ideal) x0) (Gen.k1_pay3 (F := Ideal) x1) (4 * k.val) (by omega) p f := by
  fin_cases k
  · exact k1_head0 x0 x1 p f
  · exact k1_head1 x0 x1 p f
  · exact k1_head2 x0 x1 p f
  · exact k1_head3 x0 x1 p f
  · exact k1_head4 x0 x1 p f
  · exact k1_head5 x0 x1 p f
  · exact k1_head6 x0 x1 p f
  · exact k1_head7 x0 x1 p f

/-- **The first layer's block.** Entry `(p, q)` of what the body leaves is the combination's entry clamped below at
    zero: `max ((∑ b, w[p, 4 (q / 16) + b] * a[p, 16 b + q % 16]) + β[0, q]) 0`. -/
theorem combine_clamped_block (x0 : Vec Ideal S400x32 .f32) (x1 : Vec Ideal S400x64 .f32) (x2 : Vec Ideal S1x128 .f32)
    (p : Fin 400) (q : Fin 128) :
    Gen.out1_3 (F := Ideal) x0 x1 x2 (ix2 p q) = max (Cert.EdgeNet.combineAt x0 x1 x2 p q) 0 := by
  obtain ⟨k, f, rfl⟩ := split_column q
  unfold Gen.out1_3
  rw [View.canon_unit_zero corner_zero]
  simp only [View.ld_unit_zero (S := S400x32) corner_zero, View.ld_unit_zero (S := S400x64) corner_zero,
    View.ld_unit_zero (S := S1x128) corner_zero]
  unfold Gen.k1_pay1
  rw [maximumf_apply, addf_apply, broadcast_apply]
  rw [concat8_apply', k1_heads_apply, bias_apply, headSum_eq, k1_pay2_eq, k1_pay3_eq, k1_pay4_eq]
  rw [show FloatOps.ofBits (F := Ideal) .f32 0x00000000#32 = (0 : EReal) from Ideal.ofBits_zero_f32]
  rfl

/-! ## The second layer's combination -/

/-- The three tables enter the body unchanged (a recast to the same shape). -/
theorem k3_pay2_eq (x0 : Vec Ideal S400x32 .f32) : Gen.k3_pay2 (F := Ideal) x0 = x0 := shapeCast_self _ _
theorem k3_pay3_eq (x1 : Vec Ideal S400x64 .f32) : Gen.k3_pay3 (F := Ideal) x1 = x1 := shapeCast_self _ _
theorem k3_pay4_eq (x2 : Vec Ideal S1x128 .f32) : Gen.k3_pay4 (F := Ideal) x2 = x2 := shapeCast_self _ _

/-- Head 0 of the second layer at `(p, f)`: weight columns 0–3. -/
theorem k3_head0 (x0 : Vec Ideal S400x32 .f32) (x1 : Vec Ideal S400x64 .f32) (p : Fin 400) (f : Fin 16) :
    Gen.k3_pay5 (F := Ideal) x0 x1 (ix2 p f)
      = headSum (Gen.k3_pay2 (F := Ideal) x0) (Gen.k3_pay3 (F := Ideal) x1) 0 (by omega) p f :=
  chain_apply (Gen.k3_pay2 (F := Ideal) x0) (Gen.k3_pay3 (F := Ideal) x1) 0 (by omega) _ zero_splat_apply
    Gen.slices_S400x32_o0_0_S400x1 Gen.slices_S400x32_o0_1_S400x1 Gen.slices_S400x32_o0_2_S400x1 Gen.slices_S400x32_o0_3_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 1 of the second layer at `(p, f)`: weight columns 4–7. -/
theorem k3_head1 (x0 : Vec Ideal S400x32 .f32) (x1 : Vec Ideal S400x64 .f32) (p : Fin 400) (f : Fin 16) :
    Gen.k3_pay6 (F := Ideal) x0 x1 (ix2 p f)
      = headSum (Gen.k3_pay2 (F := Ideal) x0) (Gen.k3_pay3 (F := Ideal) x1) 4 (by omega) p f :=
  chain_apply (Gen.k3_pay2 (F := Ideal) x0) (Gen.k3_pay3 (F := Ideal) x1) 4 (by omega) _ zero_splat_apply
    Gen.slices_S400x32_o0_4_S400x1 Gen.slices_S400x32_o0_5_S400x1 Gen.slices_S400x32_o0_6_S400x1 Gen.slices_S400x32_o0_7_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 2 of the second layer at `(p, f)`: weight columns 8–11. -/
theorem k3_head2 (x0 : Vec Ideal S400x32 .f32) (x1 : Vec Ideal S400x64 .f32) (p : Fin 400) (f : Fin 16) :
    Gen.k3_pay9 (F := Ideal) (Gen.k3_pay2 (F := Ideal) x0) (Gen.k3_pay3 (F := Ideal) x1) (Gen.k3_pay7 (F := Ideal)) (Gen.k3_pay8 (F := Ideal) x0) (ix2 p f)
      = headSum (Gen.k3_pay2 (F := Ideal) x0) (Gen.k3_pay3 (F := Ideal) x1) 8 (by omega) p f :=
  chain_apply (Gen.k3_pay2 (F := Ideal) x0) (Gen.k3_pay3 (F := Ideal) x1) 8 (by omega) _ zero_splat_apply
    Gen.slices_S400x32_o0_8_S400x1 Gen.slices_S400x32_o0_9_S400x1 Gen.slices_S400x32_o0_10_S400x1 Gen.slices_S400x32_o0_11_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 3 of the second layer at `(p, f)`: weight columns 12–15. -/
theorem k3_head3 (x0 : Vec Ideal S400x32 .f32) (x1 : Vec Ideal S400x64 .f32) (p : Fin 400) (f : Fin 16) :
    Gen.k3_pay10 (F := Ideal) (Gen.k3_pay2 (F := Ideal) x0) (Gen.k3_pay3 (F := Ideal) x1) (ix2 p f)
      = headSum (Gen.k3_pay2 (F := Ideal) x0) (Gen.k3_pay3 (F := Ideal) x1) 12 (by omega) p f :=
  chain_apply (Gen.k3_pay2 (F := Ideal) x0) (Gen.k3_pay3 (F := Ideal) x1) 12 (by omega) _ zero_splat_apply
    Gen.slices_S400x32_o0_12_S400x1 Gen.slices_S400x32_o0_13_S400x1 Gen.slices_S400x32_o0_14_S400x1 Gen.slices_S400x32_o0_15_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 4 of the second layer at `(p, f)`: weight columns 16–19. -/
theorem k3_head4 (x0 : Vec Ideal S400x32 .f32) (x1 : Vec Ideal S400x64 .f32) (p : Fin 400) (f : Fin 16) :
    Gen.k3_pay14 (F := Ideal) (Gen.k3_pay11 (F := Ideal) (Gen.k3_pay2 (F := Ideal) x0) (Gen.k3_pay3 (F := Ideal) x1)) (Gen.k3_pay12 (F := Ideal) (Gen.k3_pay2 (F := Ideal) x0)) (Gen.k3_pay13 (F := Ideal) (Gen.k3_pay3 (F := Ideal) x1)) (ix2 p f)
      = headSum (Gen.k3_pay2 (F := Ideal) x0) (Gen.k3_pay3 (F := Ideal) x1) 16 (by omega) p f :=
  chain_apply (Gen.k3_pay2 (F := Ideal) x0) (Gen.k3_pay3 (F := Ideal) x1) 16 (by omega) _ zero_splat_apply
    Gen.slices_S400x32_o0_16_S400x1 Gen.slices_S400x32_o0_17_S400x1 Gen.slices_S400x32_o0_18_S400x1 Gen.slices_S400x32_o0_19_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 5 of the second layer at `(p, f)`: weight columns 20–23. -/
theorem k3_head5 (x0 : Vec Ideal S400x32 .f32) (x1 : Vec Ideal S400x64 .f32) (p : Fin 400) (f : Fin 16) :
    Gen.k3_pay15 (F := Ideal) (Gen.k3_pay2 (F := Ideal) x0) (Gen.k3_pay3 (F := Ideal) x1) (ix2 p f)
      = headSum (Gen.k3_pay2 (F := Ideal) x0) (Gen.k3_pay3 (F := Ideal) x1) 20 (by omega) p f :=
  chain_apply (Gen.k3_pay2 (F := Ideal) x0) (Gen.k3_pay3 (F := Ideal) x1) 20 (by omega) _ zero_splat_apply
    Gen.slices_S400x32_o0_20_S400x1 Gen.slices_S400x32_o0_21_S400x1 Gen.slices_S400x32_o0_22_S400x1 Gen.slices_S400x32_o0_23_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 6 of the second layer at `(p, f)`: weight columns 24–27. -/
theorem k3_head6 (x0 : Vec Ideal S400x32 .f32) (x1 : Vec Ideal S400x64 .f32) (p : Fin 400) (f : Fin 16) :
    Gen.k3_pay16 (F := Ideal) (Gen.k3_pay2 (F := Ideal) x0) (Gen.k3_pay3 (F := Ideal) x1) (ix2 p f)
      = headSum (Gen.k3_pay2 (F := Ideal) x0) (Gen.k3_pay3 (F := Ideal) x1) 24 (by omega) p f :=
  chain_apply (Gen.k3_pay2 (F := Ideal) x0) (Gen.k3_pay3 (F := Ideal) x1) 24 (by omega) _ zero_splat_apply
    Gen.slices_S400x32_o0_24_S400x1 Gen.slices_S400x32_o0_25_S400x1 Gen.slices_S400x32_o0_26_S400x1 Gen.slices_S400x32_o0_27_S400x1
    Gen.broadcasts_S400x1_S400x16 Gen.slices_S400x64_o0_0_S400x16 Gen.slices_S400x64_o0_16_S400x16
    Gen.slices_S400x64_o0_32_S400x16 Gen.slices_S400x64_o0_48_S400x16 p f

/-- Head 7 of the second layer at `(p, f)`: weight columns 28–31 (its last two steps are spelt out where the heads
    are laid side by side). -/
theorem k3_head7 (x0 : Vec Ideal S400x32 .f32) (x1 : Vec Ideal S400x64 .f32) (p : Fin 400) (f : Fin 16) :
    addf (addf (Gen.k3_pay17 (F := Ideal) (Gen.k3_pay2 (F := Ideal) x0) (Gen.k3_pay3 (F := Ideal) x1))
        (mulf (broadcastTo S400x16 (Gen.k3_pay18 (F := Ideal) (Gen.k3_pay2 (F := Ideal) x0)) Gen.broadcasts_S400x1_S400x16)
          (extractStridedSlice S400x16 ![0, 32] (Gen.k3_pay3 (F := Ideal) x1) Gen.slices_S400x64_o0_32_S400x16)))
      (mulf (broadcastTo S400x16 (extractStridedSlice S400x1 ![0, 31] (Gen.k3_pay2 (F := Ideal) x0) Gen.slices_S400x32_o0_31_S400x1)
          Gen.broadcasts_S400x1_S400x16)
        (extractStridedSlice S400x16 ![0, 48] (Gen.k3_pay3 (F := Ideal) x1) Gen.slices_S400x64_o0_48_S400x16)) (ix2 p f)
      = headSum (Gen.k3_pay2 (F := Ideal) x0) (Gen.k3_pay3 (F := Ideal) x1) 28 (by omega) p f :=
  chain_apply (Gen.k3_pay2 (F := Ideal) x0) (Gen.k3_pay3 (F := Ideal) x1) 28 (by omega) _ zero_splat_apply
    Gen.slices_S400x32_o0_28_S400x1 Gen.slices_S400x32_o0_29_S400x1 Gen.slices_S400x32_o0_30_S400x1 Gen.slices_S400x32_o0_31_S400x1
    Gen.broadcasts_S400x1_S400x16 Gen.slices_S400x64_o0_0_S400x16 Gen.slices_S400x64_o0_16_S400x16
    Gen.slices_S400x64_o0_32_S400x16 Gen.slices_S400x64_o0_48_S400x16 p f

/-- The eight heads of the second layer, as the body names them: head `k` at `(p, f)` is its sum. -/
theorem k3_heads_apply (x0 : Vec Ideal S400x32 .f32) (x1 : Vec Ideal S400x64 .f32) (p : Fin 400) (k : Fin 8) (f : Fin 16) :
    (![Gen.k3_pay5 (F := Ideal) x0 x1, Gen.k3_pay6 (F := Ideal) x0 x1,
      Gen.k3_pay9 (F := Ideal) (Gen.k3_pay2 (F := Ideal) x0) (Gen.k3_pay3 (F := Ideal) x1) (Gen.k3_pay7 (F := Ideal)) (Gen.k3_pay8 (F := Ideal) x0),
      Gen.k3_pay10 (F := Ideal) (Gen.k3_pay2 (F := Ideal) x0) (Gen.k3_pay3 (F := Ideal) x1),
      Gen.k3_pay14 (F := Ideal) (Gen.k3_pay11 (F := Ideal) (Gen.k3_pay2 (F := Ideal) x0) (Gen.k3_pay3 (F := Ideal) x1)) (Gen.k3_pay12 (F := Ideal) (Gen.k3_pay2 (F := Ideal) x0)) (Gen.k3_pay13 (F := Ideal) (Gen.k3_pay3 (F := Ideal) x1)),
      Gen.k3_pay15 (F := Ideal) (Gen.k3_pay2 (F := Ideal) x0) (Gen.k3_pay3 (F := Ideal) x1), Gen.k3_pay16 (F := Ideal) (Gen.k3_pay2 (F := Ideal) x0) (Gen.k3_pay3 (F := Ideal) x1),
      addf (addf (Gen.k3_pay17 (F := Ideal) (Gen.k3_pay2 (F := Ideal) x0) (Gen.k3_pay3 (F := Ideal) x1))
          (mulf (broadcastTo S400x16 (Gen.k3_pay18 (F := Ideal) (Gen.k3_pay2 (F := Ideal) x0)) Gen.broadcasts_S400x1_S400x16)
            (extractStridedSlice S400x16 ![0, 32] (Gen.k3_pay3 (F := Ideal) x1) Gen.slices_S400x64_o0_32_S400x16)))
        (mulf (broadcastTo S400x16 (extractStridedSlice S400x1 ![0, 31] (Gen.k3_pay2 (F := Ideal) x0) Gen.slices_S400x32_o0_31_S400x1)
            Gen.broadcasts_S400x1_S400x16)
          (extractStridedSlice S400x16 ![0, 48] (Gen.k3_pay3 (F := Ideal) x1) Gen.slices_S400x64_o0_48_S400x16))] : Fin 8 → FVec Ideal S400x16 .f32) k (ix2 p f)
      = headSum (Gen.k3_pay2 (F := Ideal) x0) (Gen.k3_pay3 (F := Ideal) x1) (4 * k.val) (by omega) p f := by
  fin_cases k
  · exact k3_head0 x0 x1 p f
  · exact k3_head1 x0 x1 p f
  · exact k3_head2 x0 x1 p f
  · exact k3_head3 x0 x1 p f
  · exact k3_head4 x0 x1 p f
  · exact k3_head5 x0 x1 p f
  · exact k3_head6 x0 x1 p f
  · exact k3_head7 x0 x1 p f

/-- **The second layer's block.** Entry `(p, q)` of what the body leaves is the combination's entry:
    `(∑ b, w[p, 4 (q / 16) + b] * a[p, 16 b + q % 16]) + β[0, q]`. -/
theorem combine_block (x0 : Vec Ideal S400x32 .f32) (x1 : Vec Ideal S400x64 .f32) (x2 : Vec Ideal S1x128 .f32)
    (p : Fin 400) (q : Fin 128) :
    Gen.out3_3 (F := Ideal) x0 x1 x2 (ix2 p q) = Cert.EdgeNet.combineAt x0 x1 x2 p q := by
  obtain ⟨k, f, rfl⟩ := split_column q
  unfold Gen.out3_3
  rw [View.canon_unit_zero corner_zero]
  simp only [View.ld_unit_zero (S := S400x32) corner_zero, View.ld_unit_zero (S := S400x64) corner_zero,
    View.ld_unit_zero (S := S1x128) corner_zero]
  unfold Gen.k3_pay1
  rw [addf_apply]
  rw [concat8_apply', k3_heads_apply, bias_apply, headSum_eq, k3_pay2_eq, k3_pay3_eq, k3_pay4_eq]
  rfl

end Cert.KernelIdeal.CombineBlock

end
-- ==== Proof.Region1.lean ====
/-
  The second launch (the combination of layer 1), from blocks to arrays. The grid has 125 points; point t handles node rows
  400 t .. 400 t + 399 of the weight table and of the aggregate table, and the whole bias row, and writes the same rows of
  the output. So the output array ends as the combination, clamped below at zero, of the arrays the launch found.
-/
import proofs.«126254_j86938728005820_2_alg».proof.Proof.Spec
import proofs.«126254_j86938728005820_2_alg».proof.Proof.Arrays
import proofs.«126254_j86938728005820_2_alg».proof.Proof.CombineBlock
import Idealize.ShloMosaic.Lib.Pipeline.Value

set_option maxRecDepth 16384

noncomputable section

namespace Cert.KernelIdeal.Region1

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `p` of block `t` is row `400 * t + p` of the array. -/
def row (t : Fin cfg1.N) (p : Fin 400) : Fin 50000 :=
  ⟨400 * t.val + p.val, by have ht : t.val < 125 := lt_of_lt_of_eq t.isLt N_1; have hp := p.isLt; omega⟩

/-- The printed index maps over the grid: a moving window's block index is the point's number on the rows and 0 on the
    columns; a resident window's is 0 on both. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Where entry `(p, e)` of window 0's block at point `t` sits in its array. -/
theorem emb_0 (t : Fin cfg1.N) (p : Fin 400) (e : Fin 32) :
    ((cfg1.win 0).blk t).view.emb (ix2 p e) = ix2 (row t p) e := by
  obtain ⟨e0, e1, -, -, -, -, -, -⟩ := idx_facts t
  funext a; apply Fin.ext
  match a with
  | ⟨0, _⟩ => show win1_0.index t (0 : Fin 2) * 400 + 1 * p.val = 400 * t.val + p.val; omega
  | ⟨1, _⟩ => show win1_0.index t (1 : Fin 2) * 32 + 1 * e.val = e.val; omega

/-- Where entry `(p, e)` of window 1's block at point `t` sits in its array. -/
theorem emb_1 (t : Fin cfg1.N) (p : Fin 400) (e : Fin 64) :
    ((cfg1.win 1).blk t).view.emb (ix2 p e) = ix2 (row t p) e := by
  obtain ⟨-, -, e0, e1, -, -, -, -⟩ := idx_facts t
  funext a; apply Fin.ext
  match a with
  | ⟨0, _⟩ => show win1_1.index t (0 : Fin 2) * 400 + 1 * p.val = 400 * t.val + p.val; omega
  | ⟨1, _⟩ => show win1_1.index t (1 : Fin 2) * 64 + 1 * e.val = e.val; omega

/-- Where entry `(p, e)` of window 2's block at point `t` sits in its array. -/
theorem emb_2 (t : Fin cfg1.N) (p : Fin 1) (e : Fin 128) :
    ((cfg1.win 2).blk t).view.emb (ix2 p e) = ix2 p e := by
  obtain ⟨-, -, -, -, e0, e1, -, -⟩ := idx_facts t
  funext a; apply Fin.ext
  match a with
  | ⟨0, _⟩ => show win1_2.index t (0 : Fin 2) * 1 + 1 * p.val = p.val; omega
  | ⟨1, _⟩ => show win1_2.index t (1 : Fin 2) * 128 + 1 * e.val = e.val; omega

/-- Where entry `(p, e)` of window 3's block at point `t` sits in its array. -/
theorem emb_3 (t : Fin cfg1.N) (p : Fin 400) (e : Fin 128) :
    ((cfg1.win 3).blk t).view.emb (ix2 p e) = ix2 (row t p) e := by
  obtain ⟨-, -, -, -, -, -, e0, e1⟩ := idx_facts t
  funext a; apply Fin.ext
  match a with
  | ⟨0, _⟩ => show win1_3.index t (0 : Fin 2) * 400 + 1 * p.val = 400 * t.val + p.val; omega
  | ⟨1, _⟩ => show win1_3.index t (1 : Fin 2) * 128 + 1 * e.val = e.val; omega

/-- Input window 0's block at point `t`, read at `(p, e)`. -/
theorem iblk_0 (c : Dev nD) (t : Fin cfg1.N) (p : Fin 400) (e : Fin 32) :
    iblk1 V c 0 t (ix2 p e) = V c main_v35_1 (ix2 (row t p) e) := by
  show V c main_v35_1 (((cfg1.win 0).blk t).view.emb (ix2 p e)) = _
  rw [emb_0]

/-- Input window 1's block at point `t`, read at `(p, e)`. -/
theorem iblk_1 (c : Dev nD) (t : Fin cfg1.N) (p : Fin 400) (e : Fin 64) :
    iblk1 V c 1 t (ix2 p e) = V c main_v48 (ix2 (row t p) e) := by
  show V c main_v48 (((cfg1.win 1).blk t).view.emb (ix2 p e)) = _
  rw [emb_1]

/-- Input window 2's block at point `t`, read at `(p, e)`. -/
theorem iblk_2 (c : Dev nD) (t : Fin cfg1.N) (p : Fin 1) (e : Fin 128) :
    iblk1 V c 2 t (ix2 p e) = V c main_v49 (ix2 p e) := by
  show V c main_v49 (((cfg1.win 2).blk t).view.emb (ix2 p e)) = _
  rw [emb_2]

/-- What point `t` writes back through output window 3 is block `t` of that array. -/
theorem flushed_3 (c : Dev nD) (t : Fin cfg1.N) :
    (dat1 V c).flushed 3 t = ((cfg1.win 3).blk t).view.read (Elt Ideal) (clampedCombineOf (V c main_v35_1) (V c main_v48) (V c main_v49)) := by
  show (cfg1.win 3).cut (grid1.coords t) ((dat1 V c).after 3 t) = _
  rw [after1_3]
  funext j
  obtain ⟨p, q, rfl⟩ : ∃ (p : Fin 400) (q : Fin 128), j = ix2 p q := ⟨j 0, j 1, eq_ix2 j⟩
  show out1_3 (F := Ideal) (iblk1 V c 0 t) (iblk1 V c 1 t) (iblk1 V c 2 t) (ix2 p q) = (clampedCombineOf (V c main_v35_1) (V c main_v48) (V c main_v49)) (((cfg1.win 3).blk t).view.emb (ix2 p q))
  rw [emb_3]
  refine (Cert.KernelIdeal.CombineBlock.combine_clamped_block (iblk1 V c 0 t) (iblk1 V c 1 t) (iblk1 V c 2 t) p q).trans ?_
  show max (combineAt (iblk1 V c 0 t) (iblk1 V c 1 t) (iblk1 V c 2 t) p q) 0 = max (combineAt (V c main_v35_1) (V c main_v48) (V c main_v49) (row t p) q) 0
  unfold combineAt
  rw [iblk_2]
  refine congrArg (fun s => max (s + V c main_v49 (ix2 (0 : Fin 1) q)) 0) (Finset.sum_congr rfl fun b _ => ?_)
  rw [iblk_0, iblk_1]

/-- An index of the array is in point `t`'s block iff each coordinate is in the block's range on its axis. -/
theorem mem_blk_3 (t : Fin cfg1.N) (i : S50000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v50).slice (win1_3.rect t)).set ↔ _
  rw [View.set_slice_whole, Rect.mem_set_unit]
  exact Iff.rfl

/-- Every index of the array is in the block of the point numbered by its row divided by 400. -/
theorem cover_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 400, lt_of_lt_of_eq (by omega : (i 0).val / 400 < 125) N_1.symm⟩
  obtain ⟨-, -, -, -, -, -, e0, e1⟩ := idx_facts t
  have ht : t.val = (i 0).val / 400 := rfl
  refine ⟨t, flush1_3 t, ?_⟩
  rw [mem_blk_3]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- The array after the launch. -/
theorem final_3 (c : Dev nD) : (dat1 V c).arrAt 3 cfg1.N = clampedCombineOf (V c main_v35_1) (V c main_v48) (V c main_v49) :=
  (dat1 V c).arrAt_eq_of_cover 3 (clampedCombineOf (V c main_v35_1) (V c main_v48) (V c main_v49)) (fun t _ => flushed_3 V c t) cover_3

end Cert.KernelIdeal.Region1

end
-- ==== Proof.Region2.lean ====
/-
  The third launch (the node projections of layer 2), from blocks to arrays. The grid has ten points; point t handles node rows
  5000 t .. 5000 t + 4999, reading those rows of the node table and the whole of the two weight matrices and the bias
  row, and writing the same rows of the two outputs. So each output array ends as one function of the arrays the launch
  found: the basis projection, and the weight projection with its bias row.
-/
import proofs.«126254_j86938728005820_2_alg».proof.Proof.Spec
import proofs.«126254_j86938728005820_2_alg».proof.Proof.Arrays
import proofs.«126254_j86938728005820_2_alg».proof.Proof.ProjBlock
import Idealize.ShloMosaic.Lib.Pipeline.Value

set_option maxRecDepth 16384

noncomputable section

namespace Cert.KernelIdeal.Region2

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `p` of block `t` is row `5000 * t + p` of the array. -/
def row (t : Fin cfg2.N) (p : Fin 5000) : Fin 50000 :=
  ⟨5000 * t.val + p.val, by have ht : t.val < 10 := lt_of_lt_of_eq t.isLt N_2; have hp := p.isLt; omega⟩

/-- The printed index maps over the grid: a moving window's block index is the point's number on the rows and 0 on the
    columns; a resident window's is 0 on both. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Where entry `(p, e)` of window 0's block at point `t` sits in its array. -/
theorem emb_0 (t : Fin cfg2.N) (p : Fin 5000) (e : Fin 128) :
    ((cfg2.win 0).blk t).view.emb (ix2 p e) = ix2 (row t p) e := by
  obtain ⟨e0, e1, -, -, -, -, -, -, -, -, -, -⟩ := idx_facts t
  funext a; apply Fin.ext
  match a with
  | ⟨0, _⟩ => show win2_0.index t (0 : Fin 2) * 5000 + 1 * p.val = 5000 * t.val + p.val; omega
  | ⟨1, _⟩ => show win2_0.index t (1 : Fin 2) * 128 + 1 * e.val = e.val; omega

/-- Where entry `(p, e)` of window 1's block at point `t` sits in its array. -/
theorem emb_1 (t : Fin cfg2.N) (p : Fin 128) (e : Fin 64) :
    ((cfg2.win 1).blk t).view.emb (ix2 p e) = ix2 p e := by
  obtain ⟨-, -, e0, e1, -, -, -, -, -, -, -, -⟩ := idx_facts t
  funext a; apply Fin.ext
  match a with
  | ⟨0, _⟩ => show win2_1.index t (0 : Fin 2) * 128 + 1 * p.val = p.val; omega
  | ⟨1, _⟩ => show win2_1.index t (1 : Fin 2) * 64 + 1 * e.val = e.val; omega

/-- Where entry `(p, e)` of window 2's block at point `t` sits in its array. -/
theorem emb_2 (t : Fin cfg2.N) (p : Fin 128) (e : Fin 32) :
    ((cfg2.win 2).blk t).view.emb (ix2 p e) = ix2 p e := by
  obtain ⟨-, -, -, -, e0, e1, -, -, -, -, -, -⟩ := idx_facts t
  funext a; apply Fin.ext
  match a with
  | ⟨0, _⟩ => show win2_2.index t (0 : Fin 2) * 128 + 1 * p.val = p.val; omega
  | ⟨1, _⟩ => show win2_2.index t (1 : Fin 2) * 32 + 1 * e.val = e.val; omega

/-- Where entry `(p, e)` of window 3's block at point `t` sits in its array. -/
theorem emb_3 (t : Fin cfg2.N) (p : Fin 1) (e : Fin 32) :
    ((cfg2.win 3).blk t).view.emb (ix2 p e) = ix2 p e := by
  obtain ⟨-, -, -, -, -, -, e0, e1, -, -, -, -⟩ := idx_facts t
  funext a; apply Fin.ext
  match a with
  | ⟨0, _⟩ => show win2_3.index t (0 : Fin 2) * 1 + 1 * p.val = p.val; omega
  | ⟨1, _⟩ => show win2_3.index t (1 : Fin 2) * 32 + 1 * e.val = e.val; omega

/-- Where entry `(p, e)` of window 4's block at point `t` sits in its array. -/
theorem emb_4 (t : Fin cfg2.N) (p : Fin 5000) (e : Fin 64) :
    ((cfg2.win 4).blk t).view.emb (ix2 p e) = ix2 (row t p) e := by
  obtain ⟨-, -, -, -, -, -, -, -, e0, e1, -, -⟩ := idx_facts t
  funext a; apply Fin.ext
  match a with
  | ⟨0, _⟩ => show win2_4.index t (0 : Fin 2) * 5000 + 1 * p.val = 5000 * t.val + p.val; omega
  | ⟨1, _⟩ => show win2_4.index t (1 : Fin 2) * 64 + 1 * e.val = e.val; omega

/-- Where entry `(p, e)` of window 5's block at point `t` sits in its array. -/
theorem emb_5 (t : Fin cfg2.N) (p : Fin 5000) (e : Fin 32) :
    ((cfg2.win 5).blk t).view.emb (ix2 p e) = ix2 (row t p) e := by
  obtain ⟨-, -, -, -, -, -, -, -, -, -, e0, e1⟩ := idx_facts t
  funext a; apply Fin.ext
  match a with
  | ⟨0, _⟩ => show win2_5.index t (0 : Fin 2) * 5000 + 1 * p.val = 5000 * t.val + p.val; omega
  | ⟨1, _⟩ => show win2_5.index t (1 : Fin 2) * 32 + 1 * e.val = e.val; omega

/-- Input window 0's block at point `t`, read at `(p, e)`. -/
theorem iblk_0 (c : Dev nD) (t : Fin cfg2.N) (p : Fin 5000) (e : Fin 128) :
    iblk2 V c 0 t (ix2 p e) = V c main_v50 (ix2 (row t p) e) := by
  show V c main_v50 (((cfg2.win 0).blk t).view.emb (ix2 p e)) = _
  rw [emb_0]

/-- Input window 1's block at point `t`, read at `(p, e)`. -/
theorem iblk_1 (c : Dev nD) (t : Fin cfg2.N) (p : Fin 128) (e : Fin 64) :
    iblk2 V c 1 t (ix2 p e) = V c main_arg6 (ix2 p e) := by
  show V c main_arg6 (((cfg2.win 1).blk t).view.emb (ix2 p e)) = _
  rw [emb_1]

/-- Input window 2's block at point `t`, read at `(p, e)`. -/
theorem iblk_2 (c : Dev nD) (t : Fin cfg2.N) (p : Fin 128) (e : Fin 32) :
    iblk2 V c 2 t (ix2 p e) = V c main_arg7 (ix2 p e) := by
  show V c main_arg7 (((cfg2.win 2).blk t).view.emb (ix2 p e)) = _
  rw [emb_2]

/-- Input window 3's block at point `t`, read at `(p, e)`. -/
theorem iblk_3 (c : Dev nD) (t : Fin cfg2.N) (p : Fin 1) (e : Fin 32) :
    iblk2 V c 3 t (ix2 p e) = V c main_v51 (ix2 p e) := by
  show V c main_v51 (((cfg2.win 3).blk t).view.emb (ix2 p e)) = _
  rw [emb_3]

/-- What point `t` writes back through output window 4 is block `t` of that array. -/
theorem flushed_4 (c : Dev nD) (t : Fin cfg2.N) :
    (dat2 V c).flushed 4 t = ((cfg2.win 4).blk t).view.read (Elt Ideal) (basesOf (V c main_v50) (V c main_arg6)) := by
  show (cfg2.win 4).cut (grid2.coords t) ((dat2 V c).after 4 t) = _
  rw [after2_4]
  funext j
  obtain ⟨p, q, rfl⟩ : ∃ (p : Fin 5000) (q : Fin 64), j = ix2 p q := ⟨j 0, j 1, eq_ix2 j⟩
  show out2_4 (F := Ideal) (iblk2 V c 0 t) (iblk2 V c 1 t) (iblk2 V c 2 t) (iblk2 V c 3 t) (ix2 p q) = (basesOf (V c main_v50) (V c main_arg6)) (((cfg2.win 4).blk t).view.emb (ix2 p q))
  rw [emb_4]
  refine (Cert.KernelIdeal.ProjBlock.bases_block2 (iblk2 V c 0 t) (iblk2 V c 1 t) (iblk2 V c 2 t) (iblk2 V c 3 t) p q).trans ?_
  show projAt (iblk2 V c 0 t) (iblk2 V c 1 t) p q = projAt (V c main_v50) (V c main_arg6) (row t p) q
  unfold projAt
  refine Finset.sum_congr rfl fun e _ => ?_
  rw [iblk_0, iblk_1]

/-- An index of the array is in point `t`'s block iff each coordinate is in the block's range on its axis. -/
theorem mem_blk_4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v52_0).slice (win2_4.rect t)).set ↔ _
  rw [View.set_slice_whole, Rect.mem_set_unit]
  exact Iff.rfl

/-- Every index of the array is in the block of the point numbered by its row divided by 5000. -/
theorem cover_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, lt_of_lt_of_eq (by omega : (i 0).val / 5000 < 10) N_2.symm⟩
  obtain ⟨-, -, -, -, -, -, -, -, e0, e1, -, -⟩ := idx_facts t
  have ht : t.val = (i 0).val / 5000 := rfl
  refine ⟨t, flush2_4 t, ?_⟩
  rw [mem_blk_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The array after the launch. -/
theorem final_4 (c : Dev nD) : (dat2 V c).arrAt 4 cfg2.N = basesOf (V c main_v50) (V c main_arg6) :=
  (dat2 V c).arrAt_eq_of_cover 4 (basesOf (V c main_v50) (V c main_arg6)) (fun t _ => flushed_4 V c t) cover_4

/-- What point `t` writes back through output window 5 is block `t` of that array. -/
theorem flushed_5 (c : Dev nD) (t : Fin cfg2.N) :
    (dat2 V c).flushed 5 t = ((cfg2.win 5).blk t).view.read (Elt Ideal) (weightsOf (V c main_v50) (V c main_arg7) (V c main_v51)) := by
  show (cfg2.win 5).cut (grid2.coords t) ((dat2 V c).after 5 t) = _
  rw [after2_5]
  funext j
  obtain ⟨p, q, rfl⟩ : ∃ (p : Fin 5000) (q : Fin 32), j = ix2 p q := ⟨j 0, j 1, eq_ix2 j⟩
  show out2_5 (F := Ideal) (iblk2 V c 0 t) (iblk2 V c 1 t) (iblk2 V c 2 t) (iblk2 V c 3 t) (ix2 p q) = (weightsOf (V c main_v50) (V c main_arg7) (V c main_v51)) (((cfg2.win 5).blk t).view.emb (ix2 p q))
  rw [emb_5]
  refine (Cert.KernelIdeal.ProjBlock.weights_block2 (iblk2 V c 0 t) (iblk2 V c 1 t) (iblk2 V c 2 t) (iblk2 V c 3 t) p q).trans ?_
  show affineAt (iblk2 V c 0 t) (iblk2 V c 2 t) (iblk2 V c 3 t) p q = affineAt (V c main_v50) (V c main_arg7) (V c main_v51) (row t p) q
  unfold affineAt projAt
  rw [iblk_3]
  refine congrArg (· + V c main_v51 (ix2 (0 : Fin 1) q)) (Finset.sum_congr rfl fun e _ => ?_)
  rw [iblk_0, iblk_2]

/-- An index of the array is in point `t`'s block iff each coordinate is in the block's range on its axis. -/
theorem mem_blk_5 (t : Fin cfg2.N) (i : S50000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v52_1).slice (win2_5.rect t)).set ↔ _
  rw [View.set_slice_whole, Rect.mem_set_unit]
  exact Iff.rfl

/-- Every index of the array is in the block of the point numbered by its row divided by 5000. -/
theorem cover_5 (i : S50000x32.Idx) :
    ∃ t : Fin cfg2.N, (cfg2.win 5).flush t = true ∧ i ∈ ((cfg2.win 5).blk t).view.set := by
  have hi0 : (i 0).val < 50000 := (i 0).isLt
  have hi1 : (i 1).val < 32 := (i 1).isLt
  let t : Fin cfg2.N := ⟨(i 0).val / 5000, lt_of_lt_of_eq (by omega : (i 0).val / 5000 < 10) N_2.symm⟩
  obtain ⟨-, -, -, -, -, -, -, -, -, -, e0, e1⟩ := idx_facts t
  have ht : t.val = (i 0).val / 5000 := rfl
  refine ⟨t, flush2_5 t, ?_⟩
  rw [mem_blk_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-- The array after the launch. -/
theorem final_5 (c : Dev nD) : (dat2 V c).arrAt 5 cfg2.N = weightsOf (V c main_v50) (V c main_arg7) (V c main_v51) :=
  (dat2 V c).arrAt_eq_of_cover 5 (weightsOf (V c main_v50) (V c main_arg7) (V c main_v51)) (fun t _ => flushed_5 V c t) cover_5

end Cert.KernelIdeal.Region2

end
-- ==== Proof.Region3.lean ====
/-
  The fourth launch (the combination of layer 2), from blocks to arrays. The grid has 125 points; point t handles node rows
  400 t .. 400 t + 399 of the weight table and of the aggregate table, and the whole bias row, and writes the same rows of
  the output. So the output array ends as the combination of the arrays the launch found.
-/
import proofs.«126254_j86938728005820_2_alg».proof.Proof.Spec
import proofs.«126254_j86938728005820_2_alg».proof.Proof.Arrays
import proofs.«126254_j86938728005820_2_alg».proof.Proof.CombineBlock
import Idealize.ShloMosaic.Lib.Pipeline.Value

set_option maxRecDepth 16384

noncomputable section

namespace Cert.KernelIdeal.Region3

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `p` of block `t` is row `400 * t + p` of the array. -/
def row (t : Fin cfg3.N) (p : Fin 400) : Fin 50000 :=
  ⟨400 * t.val + p.val, by have ht : t.val < 125 := lt_of_lt_of_eq t.isLt N_3; have hp := p.isLt; omega⟩

/-- The printed index maps over the grid: a moving window's block index is the point's number on the rows and 0 on the
    columns; a resident window's is 0 on both. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Where entry `(p, e)` of window 0's block at point `t` sits in its array. -/
theorem emb_0 (t : Fin cfg3.N) (p : Fin 400) (e : Fin 32) :
    ((cfg3.win 0).blk t).view.emb (ix2 p e) = ix2 (row t p) e := by
  obtain ⟨e0, e1, -, -, -, -, -, -⟩ := idx_facts t
  funext a; apply Fin.ext
  match a with
  | ⟨0, _⟩ => show win3_0.index t (0 : Fin 2) * 400 + 1 * p.val = 400 * t.val + p.val; omega
  | ⟨1, _⟩ => show win3_0.index t (1 : Fin 2) * 32 + 1 * e.val = e.val; omega

/-- Where entry `(p, e)` of window 1's block at point `t` sits in its array. -/
theorem emb_1 (t : Fin cfg3.N) (p : Fin 400) (e : Fin 64) :
    ((cfg3.win 1).blk t).view.emb (ix2 p e) = ix2 (row t p) e := by
  obtain ⟨-, -, e0, e1, -, -, -, -⟩ := idx_facts t
  funext a; apply Fin.ext
  match a with
  | ⟨0, _⟩ => show win3_1.index t (0 : Fin 2) * 400 + 1 * p.val = 400 * t.val + p.val; omega
  | ⟨1, _⟩ => show win3_1.index t (1 : Fin 2) * 64 + 1 * e.val = e.val; omega

/-- Where entry `(p, e)` of window 2's block at point `t` sits in its array. -/
theorem emb_2 (t : Fin cfg3.N) (p : Fin 1) (e : Fin 128) :
    ((cfg3.win 2).blk t).view.emb (ix2 p e) = ix2 p e := by
  obtain ⟨-, -, -, -, e0, e1, -, -⟩ := idx_facts t
  funext a; apply Fin.ext
  match a with
  | ⟨0, _⟩ => show win3_2.index t (0 : Fin 2) * 1 + 1 * p.val = p.val; omega
  | ⟨1, _⟩ => show win3_2.index t (1 : Fin 2) * 128 + 1 * e.val = e.val; omega

/-- Where entry `(p, e)` of window 3's block at point `t` sits in its array. -/
theorem emb_3 (t : Fin cfg3.N) (p : Fin 400) (e : Fin 128) :
    ((cfg3.win 3).blk t).view.emb (ix2 p e) = ix2 (row t p) e := by
  obtain ⟨-, -, -, -, -, -, e0, e1⟩ := idx_facts t
  funext a; apply Fin.ext
  match a with
  | ⟨0, _⟩ => show win3_3.index t (0 : Fin 2) * 400 + 1 * p.val = 400 * t.val + p.val; omega
  | ⟨1, _⟩ => show win3_3.index t (1 : Fin 2) * 128 + 1 * e.val = e.val; omega

/-- Input window 0's block at point `t`, read at `(p, e)`. -/
theorem iblk_0 (c : Dev nD) (t : Fin cfg3.N) (p : Fin 400) (e : Fin 32) :
    iblk3 V c 0 t (ix2 p e) = V c main_v52_1 (ix2 (row t p) e) := by
  show V c main_v52_1 (((cfg3.win 0).blk t).view.emb (ix2 p e)) = _
  rw [emb_0]

/-- Input window 1's block at point `t`, read at `(p, e)`. -/
theorem iblk_1 (c : Dev nD) (t : Fin cfg3.N) (p : Fin 400) (e : Fin 64) :
    iblk3 V c 1 t (ix2 p e) = V c main_v65 (ix2 (row t p) e) := by
  show V c main_v65 (((cfg3.win 1).blk t).view.emb (ix2 p e)) = _
  rw [emb_1]

/-- Input window 2's block at point `t`, read at `(p, e)`. -/
theorem iblk_2 (c : Dev nD) (t : Fin cfg3.N) (p : Fin 1) (e : Fin 128) :
    iblk3 V c 2 t (ix2 p e) = V c main_v66 (ix2 p e) := by
  show V c main_v66 (((cfg3.win 2).blk t).view.emb (ix2 p e)) = _
  rw [emb_2]

/-- What point `t` writes back through output window 3 is block `t` of that array. -/
theorem flushed_3 (c : Dev nD) (t : Fin cfg3.N) :
    (dat3 V c).flushed 3 t = ((cfg3.win 3).blk t).view.read (Elt Ideal) (combineOf (V c main_v52_1) (V c main_v65) (V c main_v66)) := by
  show (cfg3.win 3).cut (grid3.coords t) ((dat3 V c).after 3 t) = _
  rw [after3_3]
  funext j
  obtain ⟨p, q, rfl⟩ : ∃ (p : Fin 400) (q : Fin 128), j = ix2 p q := ⟨j 0, j 1, eq_ix2 j⟩
  show out3_3 (F := Ideal) (iblk3 V c 0 t) (iblk3 V c 1 t) (iblk3 V c 2 t) (ix2 p q) = (combineOf (V c main_v52_1) (V c main_v65) (V c main_v66)) (((cfg3.win 3).blk t).view.emb (ix2 p q))
  rw [emb_3]
  refine (Cert.KernelIdeal.CombineBlock.combine_block (iblk3 V c 0 t) (iblk3 V c 1 t) (iblk3 V c 2 t) p q).trans ?_
  show combineAt (iblk3 V c 0 t) (iblk3 V c 1 t) (iblk3 V c 2 t) p q = combineAt (V c main_v52_1) (V c main_v65) (V c main_v66) (row t p) q
  unfold combineAt
  rw [iblk_2]
  refine congrArg (fun s => s + V c main_v66 (ix2 (0 : Fin 1) q)) (Finset.sum_congr rfl fun b _ => ?_)
  rw [iblk_0, iblk_1]

/-- An index of the array is in point `t`'s block iff each coordinate is in the block's range on its axis. -/
theorem mem_blk_3 (t : Fin cfg3.N) (i : S50000x128.Idx) :
    i ∈ ((cfg3.win 3).blk t).view.set ↔ ∀ a : Fin 2, win3_3.index t a * S400x128.size a ≤ (i a).val ∧ (i a).val < win3_3.index t a * S400x128.size a + S400x128.size a := by
  show i ∈ ((View.whole main_v67).slice (win3_3.rect t)).set ↔ _
  rw [View.set_slice_whole, Rect.mem_set_unit]
  exact Iff.rfl

/-- Every index of the array is in the block of the point numbered by its row divided by 400. -/
theorem cover_3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  let t : Fin cfg3.N := ⟨(i 0).val / 400, lt_of_lt_of_eq (by omega : (i 0).val / 400 < 125) N_3.symm⟩
  obtain ⟨-, -, -, -, -, -, e0, e1⟩ := idx_facts t
  have ht : t.val = (i 0).val / 400 := rfl
  refine ⟨t, flush3_3 t, ?_⟩
  rw [mem_blk_3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 128 ≤ (i 1).val ∧ (i 1).val < win3_3.index t (1 : Fin 2) * 128 + 128; omega

/-- The array after the launch. -/
theorem final_3 (c : Dev nD) : (dat3 V c).arrAt 3 cfg3.N = combineOf (V c main_v52_1) (V c main_v65) (V c main_v66) :=
  (dat3 V c).arrAt_eq_of_cover 3 (combineOf (V c main_v52_1) (V c main_v65) (V c main_v66)) (fun t _ => flushed_3 V c t) cover_3

end Cert.KernelIdeal.Region3

end
-- ==== Proof.ClassifyBlock.lean ====
/-
  What the classifier launch leaves in its output block, one entry at a time: the two endpoint rows of an edge laid side
  by side against the 256 x 2 class matrix, plus the bias row.
-/
import proofs.«126254_j86938728005820_2_alg».proof.Proof.Spec
import proofs.«126254_j86938728005820_2_alg».proof.Proof.PairRow
import proofs.«126254_j86938728005820_2_alg».proof.Proof.LibRowMax
import proofs.«126254_j86938728005820_2_alg».proof.Proof.LibBiasRow
import proofs.«126254_j86938728005820_2_alg».proof.Proof.Gen.KernelIdeal.Frame

set_option maxRecDepth 16384

noncomputable section

namespace Cert.KernelIdeal.ClassifyBlock

open Cert.KernelIdeal Cert.KernelIdeal.Gen Cert.EdgeNet
open Idealize.ShloMosaic Idealize.ShloMosaic.ValueIdx

/-- The corner of a whole-block access. -/
theorem hz : (![0, 0] : Fin 2 → Nat) = fun _ => 0 := funext fun a => by fin_cases a <;> rfl

/-- Entry `(p, q)` of the classifier's block of 8000 edges. -/
theorem classify_block (x0 x1 : Vec Ideal S8000x128 .f32) (x2 : Vec Ideal S256x2 .f32) (x3 : Vec Ideal S1x2 .f32)
    (p : Fin 8000) (q : Fin 2) :
    out4_4 (F := Ideal) x0 x1 x2 x3 (ix2 p q) = classifyAt x0 x1 x2 x3 p q := by
  unfold out4_4
  rw [View.canon_unit_zero hz]
  simp only [View.ld_unit_zero (S := S8000x128) hz, View.ld_unit_zero (S := S256x2) hz, View.ld_unit_zero (S := S1x2) hz]
  unfold k4_pay1
  refine (Cert.LibBiasRow.vector_bias_apply _ x3 shapeCasts_S1x2_S1x2 broadcasts_S1x2_S8000x2 p q).trans ?_
  refine congrArg (· + x3 (ix2 (0 : Fin 1) q)) ?_
  refine (Cert.LibRowMax.matmul_plain_apply dot_S8000x256_S256x2_S8000x2_1_0_0_1_n_n_wf none _ _ p q).trans ?_
  refine Finset.sum_congr rfl fun e _ => ?_
  refine congrArg (· * x2 (ix2 e q)) ?_
  rw [shapeCast_self, shapeCast_self]
  exact concat_pair_apply x0 x1 concatenates_S8000x128_S8000x128_S8000x256_d1 p e

end Cert.KernelIdeal.ClassifyBlock

end
-- ==== Proof.Region4.lean ====
/-
  The last launch (the edge classifier), from blocks to arrays. The grid has 100 points; point t handles edges
  8000 t .. 8000 t + 7999 of the two gathered endpoint tables, and the whole class matrix and bias row, and writes the
  same rows of the result. So the result array ends as the classifier of the arrays the launch found.
-/
import proofs.«126254_j86938728005820_2_alg».proof.Proof.Spec
import proofs.«126254_j86938728005820_2_alg».proof.Proof.Arrays
import proofs.«126254_j86938728005820_2_alg».proof.Proof.ClassifyBlock
import Idealize.ShloMosaic.Lib.Pipeline.Value

set_option maxRecDepth 16384

noncomputable section

namespace Cert.KernelIdeal.Region4

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `p` of block `t` is row `8000 * t + p` of the array. -/
def row (t : Fin cfg4.N) (p : Fin 8000) : Fin 800000 :=
  ⟨8000 * t.val + p.val, by have ht : t.val < 100 := lt_of_lt_of_eq t.isLt N_4; have hp := p.isLt; omega⟩

/-- The printed index maps over the grid: a moving window's block index is the point's number on the rows and 0 on the
    columns; a resident window's is 0 on both. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Where entry `(p, e)` of window 0's block at point `t` sits in its array. -/
theorem emb_0 (t : Fin cfg4.N) (p : Fin 8000) (e : Fin 128) :
    ((cfg4.win 0).blk t).view.emb (ix2 p e) = ix2 (row t p) e := by
  obtain ⟨e0, e1, -, -, -, -, -, -, -, -⟩ := idx_facts t
  funext a; apply Fin.ext
  match a with
  | ⟨0, _⟩ => show win4_0.index t (0 : Fin 2) * 8000 + 1 * p.val = 8000 * t.val + p.val; omega
  | ⟨1, _⟩ => show win4_0.index t (1 : Fin 2) * 128 + 1 * e.val = e.val; omega

/-- Where entry `(p, e)` of window 1's block at point `t` sits in its array. -/
theorem emb_1 (t : Fin cfg4.N) (p : Fin 8000) (e : Fin 128) :
    ((cfg4.win 1).blk t).view.emb (ix2 p e) = ix2 (row t p) e := by
  obtain ⟨-, -, e0, e1, -, -, -, -, -, -⟩ := idx_facts t
  funext a; apply Fin.ext
  match a with
  | ⟨0, _⟩ => show win4_1.index t (0 : Fin 2) * 8000 + 1 * p.val = 8000 * t.val + p.val; omega
  | ⟨1, _⟩ => show win4_1.index t (1 : Fin 2) * 128 + 1 * e.val = e.val; omega

/-- Where entry `(p, e)` of window 2's block at point `t` sits in its array. -/
theorem emb_2 (t : Fin cfg4.N) (p : Fin 256) (e : Fin 2) :
    ((cfg4.win 2).blk t).view.emb (ix2 p e) = ix2 p e := by
  obtain ⟨-, -, -, -, e0, e1, -, -, -, -⟩ := idx_facts t
  funext a; apply Fin.ext
  match a with
  | ⟨0, _⟩ => show win4_2.index t (0 : Fin 2) * 256 + 1 * p.val = p.val; omega
  | ⟨1, _⟩ => show win4_2.index t (1 : Fin 2) * 2 + 1 * e.val = e.val; omega

/-- Where entry `(p, e)` of window 3's block at point `t` sits in its array. -/
theorem emb_3 (t : Fin cfg4.N) (p : Fin 1) (e : Fin 2) :
    ((cfg4.win 3).blk t).view.emb (ix2 p e) = ix2 p e := by
  obtain ⟨-, -, -, -, -, -, e0, e1, -, -⟩ := idx_facts t
  funext a; apply Fin.ext
  match a with
  | ⟨0, _⟩ => show win4_3.index t (0 : Fin 2) * 1 + 1 * p.val = p.val; omega
  | ⟨1, _⟩ => show win4_3.index t (1 : Fin 2) * 2 + 1 * e.val = e.val; omega

/-- Where entry `(p, e)` of window 4's block at point `t` sits in its array. -/
theorem emb_4 (t : Fin cfg4.N) (p : Fin 8000) (e : Fin 2) :
    ((cfg4.win 4).blk t).view.emb (ix2 p e) = ix2 (row t p) e := by
  obtain ⟨-, -, -, -, -, -, -, -, e0, e1⟩ := idx_facts t
  funext a; apply Fin.ext
  match a with
  | ⟨0, _⟩ => show win4_4.index t (0 : Fin 2) * 8000 + 1 * p.val = 8000 * t.val + p.val; omega
  | ⟨1, _⟩ => show win4_4.index t (1 : Fin 2) * 2 + 1 * e.val = e.val; omega

/-- Input window 0's block at point `t`, read at `(p, e)`. -/
theorem iblk_0 (c : Dev nD) (t : Fin cfg4.N) (p : Fin 8000) (e : Fin 128) :
    iblk4 V c 0 t (ix2 p e) = V c main_v76 (ix2 (row t p) e) := by
  show V c main_v76 (((cfg4.win 0).blk t).view.emb (ix2 p e)) = _
  rw [emb_0]

/-- Input window 1's block at point `t`, read at `(p, e)`. -/
theorem iblk_1 (c : Dev nD) (t : Fin cfg4.N) (p : Fin 8000) (e : Fin 128) :
    iblk4 V c 1 t (ix2 p e) = V c main_v85 (ix2 (row t p) e) := by
  show V c main_v85 (((cfg4.win 1).blk t).view.emb (ix2 p e)) = _
  rw [emb_1]

/-- Input window 2's block at point `t`, read at `(p, e)`. -/
theorem iblk_2 (c : Dev nD) (t : Fin cfg4.N) (p : Fin 256) (e : Fin 2) :
    iblk4 V c 2 t (ix2 p e) = V c main_arg10 (ix2 p e) := by
  show V c main_arg10 (((cfg4.win 2).blk t).view.emb (ix2 p e)) = _
  rw [emb_2]

/-- Input window 3's block at point `t`, read at `(p, e)`. -/
theorem iblk_3 (c : Dev nD) (t : Fin cfg4.N) (p : Fin 1) (e : Fin 2) :
    iblk4 V c 3 t (ix2 p e) = V c main_v86 (ix2 p e) := by
  show V c main_v86 (((cfg4.win 3).blk t).view.emb (ix2 p e)) = _
  rw [emb_3]

/-- What point `t` writes back through output window 4 is block `t` of that array. -/
theorem flushed_4 (c : Dev nD) (t : Fin cfg4.N) :
    (dat4 V c).flushed 4 t = ((cfg4.win 4).blk t).view.read (Elt Ideal) (classifyOf (V c main_v76) (V c main_v85) (V c main_arg10) (V c main_v86)) := by
  show (cfg4.win 4).cut (grid4.coords t) ((dat4 V c).after 4 t) = _
  rw [after4_4]
  funext j
  obtain ⟨p, q, rfl⟩ : ∃ (p : Fin 8000) (q : Fin 2), j = ix2 p q := ⟨j 0, j 1, eq_ix2 j⟩
  show out4_4 (F := Ideal) (iblk4 V c 0 t) (iblk4 V c 1 t) (iblk4 V c 2 t) (iblk4 V c 3 t) (ix2 p q) = (classifyOf (V c main_v76) (V c main_v85) (V c main_arg10) (V c main_v86)) (((cfg4.win 4).blk t).view.emb (ix2 p q))
  rw [emb_4]
  refine (Cert.KernelIdeal.ClassifyBlock.classify_block (iblk4 V c 0 t) (iblk4 V c 1 t) (iblk4 V c 2 t) (iblk4 V c 3 t) p q).trans ?_
  show classifyAt (iblk4 V c 0 t) (iblk4 V c 1 t) (iblk4 V c 2 t) (iblk4 V c 3 t) p q = classifyAt (V c main_v76) (V c main_v85) (V c main_arg10) (V c main_v86) (row t p) q
  unfold classifyAt
  rw [iblk_3]
  refine congrArg (· + V c main_v86 (ix2 (0 : Fin 1) q)) (Finset.sum_congr rfl fun e _ => ?_)
  rw [iblk_2]
  refine congrArg (· * V c main_arg10 (ix2 e q)) ?_
  unfold pairAt
  by_cases h : e.val < 128
  · rw [dif_pos h, dif_pos h, iblk_0]
  · rw [dif_neg h, dif_neg h, iblk_1]

/-- An index of the array is in point `t`'s block iff each coordinate is in the block's range on its axis. -/
theorem mem_blk_4 (t : Fin cfg4.N) (i : S800000x2.Idx) :
    i ∈ ((cfg4.win 4).blk t).view.set ↔ ∀ a : Fin 2, win4_4.index t a * S8000x2.size a ≤ (i a).val ∧ (i a).val < win4_4.index t a * S8000x2.size a + S8000x2.size a := by
  show i ∈ ((View.whole main_v87).slice (win4_4.rect t)).set ↔ _
  rw [View.set_slice_whole, Rect.mem_set_unit]
  exact Iff.rfl

/-- Every index of the array is in the block of the point numbered by its row divided by 8000. -/
theorem cover_4 (i : S800000x2.Idx) :
    ∃ t : Fin cfg4.N, (cfg4.win 4).flush t = true ∧ i ∈ ((cfg4.win 4).blk t).view.set := by
  have hi0 : (i 0).val < 800000 := (i 0).isLt
  have hi1 : (i 1).val < 2 := (i 1).isLt
  let t : Fin cfg4.N := ⟨(i 0).val / 8000, lt_of_lt_of_eq (by omega : (i 0).val / 8000 < 100) N_4.symm⟩
  obtain ⟨-, -, -, -, -, -, -, -, e0, e1⟩ := idx_facts t
  have ht : t.val = (i 0).val / 8000 := rfl
  refine ⟨t, flush4_4 t, ?_⟩
  rw [mem_blk_4]
  intro a
  match a with
  | ⟨0, _⟩ => show win4_4.index t (0 : Fin 2) * 8000 ≤ (i 0).val ∧ (i 0).val < win4_4.index t (0 : Fin 2) * 8000 + 8000; omega
  | ⟨1, _⟩ => show win4_4.index t (1 : Fin 2) * 2 ≤ (i 1).val ∧ (i 1).val < win4_4.index t (1 : Fin 2) * 2 + 2; omega

/-- The array after the launch. -/
theorem final_4 (c : Dev nD) : (dat4 V c).arrAt 4 cfg4.N = classifyOf (V c main_v76) (V c main_v85) (V c main_arg10) (V c main_v86) :=
  (dat4 V c).arrAt_eq_of_cover 4 (classifyOf (V c main_v76) (V c main_v85) (V c main_arg10) (V c main_v86)) (fun t _ => flushed_4 V c t) cover_4

end Cert.KernelIdeal.Region4

end
-- ==== Proof.Stages.lean ====
/-
  The idealized kernel, boundary by boundary: what each buffer that matters holds, as a stage of the reference applied to
  the launch arguments.

  Each launch's output is the corresponding dense stage of the reference (the block lemmas, the cover of the array by
  the grid's blocks, and the stage read entry by entry); each stretch of host operations between launches — the gather
  of basis rows at the row indices, their scaling by the normalisation, the scatter-add into the aggregate at the
  column indices, and at the end the gathers of the endpoint rows — is the reference's own operations applied to equal
  operands. So the result buffer ends at the reference's result stage.
-/
import proofs.«126254_j86938728005820_2_alg».proof.Proof.StagesA
import proofs.«126254_j86938728005820_2_alg».proof.Proof.Arrays
import proofs.«126254_j86938728005820_2_alg».proof.Proof.Bridge
import proofs.«126254_j86938728005820_2_alg».proof.Proof.KeptA
import proofs.«126254_j86938728005820_2_alg».proof.Proof.KeptB
import proofs.«126254_j86938728005820_2_alg».proof.Proof.KeptC
import proofs.«126254_j86938728005820_2_alg».proof.Proof.KeptD
import proofs.«126254_j86938728005820_2_alg».proof.Proof.Region0
import proofs.«126254_j86938728005820_2_alg».proof.Proof.Region1
import proofs.«126254_j86938728005820_2_alg».proof.Proof.Region2
import proofs.«126254_j86938728005820_2_alg».proof.Proof.Region3
import proofs.«126254_j86938728005820_2_alg».proof.Proof.Region4
import Idealize.ShloMosaic.Lib.StableHlo.Run

set_option maxRecDepth 16384

noncomputable section

namespace Cert.KernelIdeal.Stages

open Cert.KernelIdeal Cert.KernelIdeal.Gen Cert.KernelIdeal.Kept Cert.EdgeNet
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The host stretches between the launches, each from any contents that hold the earlier stages -/

/-- The first layer's aggregate: basis rows gathered at the row indices, scaled by the normalisation, added at the column indices. -/
theorem agg1_of (W : Valuation τ sig (Elt Ideal))
    (h0 : W (Proc.devRef .tc main_v35_0) = Cert.ReferenceIdeal.ReadP.val_main_v34 (F := Ideal) (m ((c : Thread nD τ).loc main_arg0)) (m ((c : Thread nD τ).loc main_arg2)))
    (h1 : W (Proc.devRef .tc main_v3) = Cert.ReferenceIdeal.ReadP.val_main_v3 (F := Ideal) (m ((c : Thread nD τ).loc main_arg1)))
    (h2 : W (Proc.devRef .tc main_v6) = Cert.ReferenceIdeal.ReadP.val_main_v6 (F := Ideal) (m ((c : Thread nD τ).loc main_arg1)))
    (h3 : W (Proc.devRef .tc main_v33) = Cert.ReferenceIdeal.ReadP.val_main_v33 (F := Ideal) (m ((c : Thread nD τ).loc main_arg1))) :
    StableHlo.after hostOps1 W (Proc.devRef .tc main_v48) = Cert.ReferenceIdeal.ReadP.val_main_v47 (F := Ideal) (m ((c : Thread nD τ).loc main_arg0)) (m ((c : Thread nD τ).loc main_arg1)) (m ((c : Thread nD τ).loc main_arg2)) := by
  after_results_simp
  rw [h0, h1, h2, h3]
  rfl

/-- The first layer's output bias, laid out as a row. -/
theorem bias2_of (W : Valuation τ sig (Elt Ideal)) :
    StableHlo.after hostOps1 W (Proc.devRef .tc main_v49) = shapeCast S1x128 (W (Proc.devRef .tc main_arg5)) shapeCasts_S128_S1x128 := by
  after_results_simp
  rfl

/-- The second layer's weight bias, laid out as a row. -/
theorem bias3_of (W : Valuation τ sig (Elt Ideal)) :
    StableHlo.after hostOps2 W (Proc.devRef .tc main_v51) = shapeCast S1x32 (W (Proc.devRef .tc main_arg8)) shapeCasts_S32_S1x32 := by
  after_results_simp
  rfl

/-- The second layer's aggregate. -/
theorem agg2_of (W : Valuation τ sig (Elt Ideal))
    (h0 : W (Proc.devRef .tc main_v52_0) = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (h1 : W (Proc.devRef .tc main_v3) = Cert.ReferenceIdeal.ReadP.val_main_v3 (F := Ideal) (m ((c : Thread nD τ).loc main_arg1)))
    (h2 : W (Proc.devRef .tc main_v6) = Cert.ReferenceIdeal.ReadP.val_main_v6 (F := Ideal) (m ((c : Thread nD τ).loc main_arg1)))
    (h3 : W (Proc.devRef .tc main_v33) = Cert.ReferenceIdeal.ReadP.val_main_v33 (F := Ideal) (m ((c : Thread nD τ).loc main_arg1))) :
    StableHlo.after hostOps3 W (Proc.devRef .tc main_v65) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  after_results_simp
  rw [h0, h1, h2, h3]
  rfl

/-- The second layer's output bias, laid out as a row. -/
theorem bias4_of (W : Valuation τ sig (Elt Ideal)) :
    StableHlo.after hostOps3 W (Proc.devRef .tc main_v66) = shapeCast S1x128 (W (Proc.devRef .tc main_arg9)) shapeCasts_S128_S1x128 := by
  after_results_simp
  rfl

/-- The rows of the second layer's output at the edges' source endpoints. -/
theorem src_of (W : Valuation τ sig (Elt Ideal))
    (h0 : W (Proc.devRef .tc main_v67) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h1 : W (Proc.devRef .tc main_arg1) = (m ((c : Thread nD τ).loc main_arg1))) :
    StableHlo.after hostOps4 W (Proc.devRef .tc main_v76) = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  after_results_simp
  rw [h0, h1]
  rfl

/-- The rows at the target endpoints. -/
theorem dst_of (W : Valuation τ sig (Elt Ideal))
    (h0 : W (Proc.devRef .tc main_v67) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h1 : W (Proc.devRef .tc main_arg1) = (m ((c : Thread nD τ).loc main_arg1))) :
    StableHlo.after hostOps4 W (Proc.devRef .tc main_v85) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  after_results_simp
  rw [h0, h1]
  rfl

/-- The classifier's bias, laid out as a row. -/
theorem bias5_of (W : Valuation τ sig (Elt Ideal)) :
    StableHlo.after hostOps4 W (Proc.devRef .tc main_v86) = shapeCast S1x2 (W (Proc.devRef .tc main_arg11)) shapeCasts_S2_S1x2 := by
  after_results_simp
  rfl

/-! ## The first layer -/

/-- The first layer's weight bias, laid out as a row. -/
theorem bias_W5 : W5 m ρ c (Proc.devRef .tc main_v34) = shapeCast S1x32 (m ((c : Thread nD τ).loc main_arg4)) shapeCasts_S32_S1x32 :=
  (bias1_of (W4 m ρ c)).trans (congrArg (fun v => shapeCast S1x32 v shapeCasts_S32_S1x32) (main_arg4_W4 m ρ c))

/-- The basis projection of the first layer. -/
theorem bases_W6 : W6 m ρ c (Proc.devRef .tc main_v35_0) = Cert.ReferenceIdeal.ReadP.val_main_v34 (F := Ideal) (m ((c : Thread nD τ).loc main_arg0)) (m ((c : Thread nD τ).loc main_arg2)) := by
  refine (W6_arr m ρ c 4).trans ((Region0.final_4 (V5 m ρ) c).trans ?_)
  rw [show V5 m ρ c main_arg0 = (m ((c : Thread nD τ).loc main_arg0)) from main_arg0_W5 m ρ c, show V5 m ρ c main_arg2 = (m ((c : Thread nD τ).loc main_arg2)) from main_arg2_W5 m ρ c]
  exact (Cert.ReferenceIdeal.Bridge.bases1 _ _).symm

/-- The weight projection of the first layer. -/
theorem weights_W6 : W6 m ρ c (Proc.devRef .tc main_v35_1) = Cert.ReferenceIdeal.ReadP.val_main_v51 (F := Ideal) (m ((c : Thread nD τ).loc main_arg0)) (m ((c : Thread nD τ).loc main_arg3)) (m ((c : Thread nD τ).loc main_arg4)) := by
  refine (W6_arr m ρ c 5).trans ((Region0.final_5 (V5 m ρ) c).trans ?_)
  rw [show V5 m ρ c main_arg0 = (m ((c : Thread nD τ).loc main_arg0)) from main_arg0_W5 m ρ c, show V5 m ρ c main_arg3 = (m ((c : Thread nD τ).loc main_arg3)) from main_arg3_W5 m ρ c,
    show V5 m ρ c main_v34 = _ from bias_W5 m ρ c]
  exact (Cert.ReferenceIdeal.Bridge.weights1 _ _ _ _ (fun q => Cert.ReferenceIdeal.Bridge.reshape_row_apply _ shapeCasts_S32_S1x32 q)).symm

/-- The first layer's aggregate. -/
theorem agg_W7 : W7 m ρ c (Proc.devRef .tc main_v48) = Cert.ReferenceIdeal.ReadP.val_main_v47 (F := Ideal) (m ((c : Thread nD τ).loc main_arg0)) (m ((c : Thread nD τ).loc main_arg1)) (m ((c : Thread nD τ).loc main_arg2)) :=
  agg1_of m c (W6 m ρ c) (bases_W6 m ρ c) ((main_v3_W6 m ρ c).trans (row_W1 m ρ c)) ((main_v6_W6 m ρ c).trans (col_W1 m ρ c))
    ((main_v33_W6 m ρ c).trans (norm_W5 m ρ c))

/-- The first layer's output bias, laid out as a row. -/
theorem bias_W7 : W7 m ρ c (Proc.devRef .tc main_v49) = shapeCast S1x128 (m ((c : Thread nD τ).loc main_arg5)) shapeCasts_S128_S1x128 :=
  (bias2_of (W6 m ρ c)).trans (congrArg (fun v => shapeCast S1x128 v shapeCasts_S128_S1x128) (main_arg5_W6 m ρ c))

/-- The first layer's output. -/
theorem layer1_W8 : W8 m ρ c (Proc.devRef .tc main_v50) = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Region1.final_3 (V7 m ρ) c).trans ?_)
  rw [show V7 m ρ c main_v35_1 = _ from (main_v35_1_W7 m ρ c).trans (weights_W6 m ρ c),
    show V7 m ρ c main_v48 = _ from agg_W7 m ρ c, show V7 m ρ c main_v49 = _ from bias_W7 m ρ c]
  exact (Cert.ReferenceIdeal.Bridge.clamped1 _ _ _ _ _ _ _ (fun q => Cert.ReferenceIdeal.Bridge.reshape_row_apply _ shapeCasts_S128_S1x128 q)).symm

/-! ## The second layer -/

/-- The second layer's weight bias, laid out as a row. -/
theorem bias_W9 : W9 m ρ c (Proc.devRef .tc main_v51) = shapeCast S1x32 (m ((c : Thread nD τ).loc main_arg8)) shapeCasts_S32_S1x32 :=
  (bias3_of (W8 m ρ c)).trans (congrArg (fun v => shapeCast S1x32 v shapeCasts_S32_S1x32) (main_arg8_W8 m ρ c))

/-- The basis projection of the second layer. -/
theorem bases_W10 : W10 m ρ c (Proc.devRef .tc main_v52_0) = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 4).trans ((Region2.final_4 (V9 m ρ) c).trans ?_)
  rw [show V9 m ρ c main_v50 = _ from (main_v50_W9 m ρ c).trans (layer1_W8 m ρ c),
    show V9 m ρ c main_arg6 = (m ((c : Thread nD τ).loc main_arg6)) from main_arg6_W9 m ρ c]
  exact (Cert.ReferenceIdeal.Bridge.bases2 _ _ _ _ _ _ _).symm

/-- The weight projection of the second layer. -/
theorem weights_W10 : W10 m ρ c (Proc.devRef .tc main_v52_1) = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  refine (W10_arr m ρ c 5).trans ((Region2.final_5 (V9 m ρ) c).trans ?_)
  rw [show V9 m ρ c main_v50 = _ from (main_v50_W9 m ρ c).trans (layer1_W8 m ρ c),
    show V9 m ρ c main_arg7 = (m ((c : Thread nD τ).loc main_arg7)) from main_arg7_W9 m ρ c, show V9 m ρ c main_v51 = _ from bias_W9 m ρ c]
  exact (Cert.ReferenceIdeal.Bridge.weights2 _ _ _ _ _ _ _ _ _ (fun q => Cert.ReferenceIdeal.Bridge.reshape_row_apply _ shapeCasts_S32_S1x32 q)).symm

/-- The second layer's aggregate. -/
theorem agg_W11 : W11 m ρ c (Proc.devRef .tc main_v65) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  agg2_of m c (W10 m ρ c) (bases_W10 m ρ c) ((main_v3_W10 m ρ c).trans (row_W1 m ρ c)) ((main_v6_W10 m ρ c).trans (col_W1 m ρ c))
    ((main_v33_W10 m ρ c).trans (norm_W5 m ρ c))

/-- The second layer's output bias, laid out as a row. -/
theorem bias_W11 : W11 m ρ c (Proc.devRef .tc main_v66) = shapeCast S1x128 (m ((c : Thread nD τ).loc main_arg9)) shapeCasts_S128_S1x128 :=
  (bias4_of (W10 m ρ c)).trans (congrArg (fun v => shapeCast S1x128 v shapeCasts_S128_S1x128) (main_arg9_W10 m ρ c))

/-- The second layer's output. -/
theorem layer2_W12 : W12 m ρ c (Proc.devRef .tc main_v67) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((Region3.final_3 (V11 m ρ) c).trans ?_)
  rw [show V11 m ρ c main_v52_1 = _ from (main_v52_1_W11 m ρ c).trans (weights_W10 m ρ c),
    show V11 m ρ c main_v65 = _ from agg_W11 m ρ c, show V11 m ρ c main_v66 = _ from bias_W11 m ρ c]
  exact (Cert.ReferenceIdeal.Bridge.combined2 _ _ _ _ _ _ _ _ _ _ _ (fun q => Cert.ReferenceIdeal.Bridge.reshape_row_apply _ shapeCasts_S128_S1x128 q)).symm

/-! ## The classifier -/

theorem src_W13 : W13 m ρ c (Proc.devRef .tc main_v76) = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  src_of m c (W12 m ρ c) (layer2_W12 m ρ c) (main_arg1_W12 m ρ c)

theorem dst_W13 : W13 m ρ c (Proc.devRef .tc main_v85) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  dst_of m c (W12 m ρ c) (layer2_W12 m ρ c) (main_arg1_W12 m ρ c)

/-- The classifier's bias, laid out as a row. -/
theorem bias_W13 : W13 m ρ c (Proc.devRef .tc main_v86) = shapeCast S1x2 (m ((c : Thread nD τ).loc main_arg11)) shapeCasts_S2_S1x2 :=
  (bias5_of (W12 m ρ c)).trans (congrArg (fun v => shapeCast S1x2 v shapeCasts_S2_S1x2) (main_arg11_W12 m ρ c))

/-- THE RESULT: the last boundary's contents of the result buffer are the reference's result stage of the launch arguments. -/
theorem result_W14 : W14 m ρ c (Proc.devRef .tc main_v87) = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 4).trans ((Region4.final_4 (V13 m ρ) c).trans ?_)
  rw [show V13 m ρ c main_v76 = _ from src_W13 m ρ c, show V13 m ρ c main_v85 = _ from dst_W13 m ρ c,
    show V13 m ρ c main_arg10 = (m ((c : Thread nD τ).loc main_arg10)) from main_arg10_W13 m ρ c, show V13 m ρ c main_v86 = _ from bias_W13 m ρ c]
  exact (Cert.ReferenceIdeal.Bridge.classified _ _ _ _ _ _ _ _ _ _ _ _ _ (fun q => Cert.ReferenceIdeal.Bridge.reshape_row_apply _ shapeCasts_S2_S1x2 q)).symm

end Cert.KernelIdeal.Stages

end
-- ==== Proof.lean ====
/-
  The certificate of a two-layer graph network with an edge classifier: the kernel runs five launches (node projections,
  combination of aggregated bases, twice over, then the classifier) among host gathers and scatter-adds; the reference
  is the same network in plain array operations.

  The three frames: the two kernel programs' frames are the generated ones; the reference has no launch, and its frame is
  its run with the result forgotten. The idealization rewrote no operation, so that conjunct is trivial.
  The value claim: the idealized kernel's result buffer ends at the last boundary's contents (the run with the result
  named), which is the reference's result stage of the launch arguments (stage by stage: the host stretches are the
  reference's own operations, and each launch's output array is the matching dense stage — a contraction is a finite
  sum, a sum of four terms built up from zero is that sum, format changes are the identity on exact values); the
  reference's run ends at the same stage of its own arguments, which agree with the kernel's. No finiteness of the
  inputs is used: only commutativity and associativity of addition on the extended reals and 0 + a = a.
-/
import proofs.«126254_j86938728005820_2_alg».proof.Defs
import proofs.«126254_j86938728005820_2_alg».proof.Proof.Gen.Kernel
import proofs.«126254_j86938728005820_2_alg».proof.Proof.Gen.Kernel.Skeleton
import proofs.«126254_j86938728005820_2_alg».proof.Proof.Gen.Kernel.Launch
import proofs.«126254_j86938728005820_2_alg».proof.Proof.Gen.Kernel.Points
import proofs.«126254_j86938728005820_2_alg».proof.Proof.Gen.Kernel.Frame
import proofs.«126254_j86938728005820_2_alg».proof.Proof.Gen.KernelIdeal
import proofs.«126254_j86938728005820_2_alg».proof.Proof.Gen.KernelIdeal.Skeleton
import proofs.«126254_j86938728005820_2_alg».proof.Proof.Gen.KernelIdeal.Launch
import proofs.«126254_j86938728005820_2_alg».proof.Proof.Gen.KernelIdeal.Points
import proofs.«126254_j86938728005820_2_alg».proof.Proof.Gen.KernelIdeal.Frame
import proofs.«126254_j86938728005820_2_alg».proof.Proof.Gen.ReferenceIdeal
import proofs.«126254_j86938728005820_2_alg».proof.Proof.Gen.Pre_finite_inputs
import proofs.«126254_j86938728005820_2_alg».proof.Proof.RefRun
import proofs.«126254_j86938728005820_2_alg».proof.Proof.RefRead
import proofs.«126254_j86938728005820_2_alg».proof.Proof.RunNamed
import proofs.«126254_j86938728005820_2_alg».proof.Proof.Stages
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference launches nothing: its frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- Both programs end with the reference's result stage of the kernel's launch arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Stages.result_W14 m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.ReadP.val_main_v107_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
